-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x6 : Shape := ⟨2, ![262144, 6]⟩
abbrev S2097152x42 : Shape := ⟨2, ![2097152, 42]⟩
abbrev S2097152 : Shape := ⟨1, ![2097152]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128x128 : Shape := ⟨3, ![1, 128, 128]⟩
abbrev S1x128 : Shape := ⟨2, ![1, 128]⟩
abbrev S2x128x128 : Shape := ⟨3, ![2, 128, 128]⟩
abbrev S2x128 : Shape := ⟨2, ![2, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x6 : S_.BroadcastsInDim S262144x6 (![] : Fin 0 → Fin S262144x6.rank)
  reducesTo_S262144x6_S_d0_1 : S262144x6.ReducesTo [0, 1] S_
  bcast_S_S2097152x42 : S_.BroadcastsInDim S2097152x42 (![] : Fin 0 → Fin S2097152x42.rank)
  reducesTo_S2097152x42_S_d0_1 : S2097152x42.ReducesTo [0, 1] S_
  bcast_S_S6x8 : S_.BroadcastsInDim S6x8 (![] : Fin 0 → Fin S6x8.rank)
  reducesTo_S6x8_S_d0_1 : S6x8.ReducesTo [0, 1] S_
  bcast_S_S8x128 : S_.BroadcastsInDim S8x128 (![] : Fin 0 → Fin S8x128.rank)
  reducesTo_S8x128_S_d0_1 : S8x128.ReducesTo [0, 1] S_
  bcast_S_S42x8 : S_.BroadcastsInDim S42x8 (![] : Fin 0 → Fin S42x8.rank)
  reducesTo_S42x8_S_d0_1 : S42x8.ReducesTo [0, 1] S_
  bcast_S_S8x64 : S_.BroadcastsInDim S8x64 (![] : Fin 0 → Fin S8x64.rank)
  reducesTo_S8x64_S_d0_1 : S8x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x128 : S_.BroadcastsInDim S64x128 (![] : Fin 0 → Fin S64x128.rank)
  reducesTo_S64x128_S_d0_1 : S64x128.ReducesTo [0, 1] S_
  bcast_S_S1x128x128 : S_.BroadcastsInDim S1x128x128 (![] : Fin 0 → Fin S1x128x128.rank)
  reducesTo_S1x128x128_S_d0_1_2 : S1x128x128.ReducesTo [0, 1, 2] S_
  bcast_S_S1x128 : S_.BroadcastsInDim S1x128 (![] : Fin 0 → Fin S1x128.rank)
  reducesTo_S1x128_S_d0_1 : S1x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part6 {F : FTy → Type} [FloatOps F] (main_arg23 : FVec F S2x128x128 .f32) (main_arg24 : FVec F S2x128 .f32) (main_v98 : IVec S_ 1) (main_v101 : IVec S2x128 1) (main_c_39 : IVec S_ 1) : IVec S_ 1 :=
  let main_v102 : IVec S_ 1 := (fun x v => Host.reduce IntOp.andi x v reducesTo_S2x128_S_d0_1 h_S_) main_v101 main_c_39
  let main_v103 : IVec S_ 1 := andi main_v98 main_v102
  let main_v104 : FVec F S2x128x128 .f32 := Host.absf main_arg23
  let main_cst_40 : FVec F S_ .f32 := constant S_ .f32 0x7F800000#32
  let main_v105 : FVec F S2x128x128 .f32 := broadcastInDim S2x128x128 ![] bcast_S_S2x128x128 main_cst_40
  let main_v106 : IVec S2x128x128 1 := cmpf .olt main_v104 main_v105
  let main_c_41 : IVec S_ 1 := constantI S_ 1 1#1
  let main_v107 : IVec S_ 1 := (fun x v => Host.reduce IntOp.andi x v reducesTo_S2x128x128_S_d0_1_2 h_S_) main_v106 main_c_41
  let main_v108 : IVec S_ 1 := andi main_v103 main_v107
  let main_v109 : FVec F S2x128 .f32 := Host.absf main_arg24
  let main_cst_42 : FVec F S_ .f32 := constant S_ .f32 0x7F800000#32
  let main_v110 : FVec F S2x128 .f32 := broadcastInDim S2x128 ![] bcast_S_S2x128 main_cst_42
  let main_v111 : IVec S2x128 1 := cmpf .olt main_v109 main_v110
  let main_c_43 : IVec S_ 1 := constantI S_ 1 1#1
  let main_v112 : IVec S_ 1 := (fun x v => Host.reduce IntOp.andi x v reducesTo_S2x128_S_d0_1 h_S_) main_v111 main_c_43
  let main_v113 : IVec S_ 1 := andi main_v108 main_v112
  main_v113

def fn_part5 {F : FTy → Type} [FloatOps F] (main_arg20 : FVec F S128 .f32) (main_arg21 : FVec F S2x128x128 .f32) (main_arg22 : FVec F S2x128 .f32) (main_arg23 : FVec F S2x128x128 .f32) (main_arg24 : FVec F S2x128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S2x128x128 .f32 := Host.absf main_arg21
  let main_cst_36 : FVec F S_ .f32 := constant S_ .f32 0x7F800000#32
  let main_v95 : FVec F S2x128x128 .f32 := broadcastInDim S2x128x128 ![] bcast_S_S2x128x128 main_cst_36
  let main_v96 : IVec S2x128x128 1 := cmpf .olt main_v94 main_v95
  let main_c_37 : IVec S_ 1 := constantI S_ 1 1#1
  let main_v97 : IVec S_ 1 := (fun x v => Host.reduce IntOp.andi x v reducesTo_S2x128x128_S_d0_1_2 h_S_) main_v96 main_c_37
  let main_v98 : IVec S_ 1 := andi main_v93 main_v97
  let main_v99 : FVec F S2x128 .f32 := Host.absf main_arg22
  let main_cst_38 : FVec F S_ .f32 := constant S_ .f32 0x7F800000#32
  let main_v100 : FVec F S2x128 .f32 := broadcastInDim S2x128 ![] bcast_S_S2x128 main_cst_38
  let main_v101 : IVec S2x128 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S1x128 .f32) (main_arg17 : FVec F S1x128x128 .f32) (main_arg18 : FVec F S1x128 .f32) (main_arg19 : FVec F S128x128 .f32) (main_arg20 : FVec F S128 .f32) (main_arg21 : FVec F S2x128x128 .f32) (main_arg22 : FVec F S2x128 .f32) (main_arg23 : FVec F S2x128x128 .f32) (main_arg24 : FVec F S2x128 .f32) (main_v63 : IVec S_ 1) (main_v67 : IVec S_ 1) : IVec S_ 1 :=
  let main_v68 : IVec S_ 1 := andi main_v63 main_v67
  let main_v69 : FVec F S1x128 .f32 := Host.absf main_arg16
  let main_cst_26 : FVec F S_ .f32 := constant S_ .f32 0x7F800000#32
  let main_v70 : FVec F S1x128 .f32 := broadcastInDim S1x128 ![] bcast_S_S1x128 main_cst_26
  let main_v71 : IVec S1x128 1 := cmpf .olt main_v69 main_v70
  let main_c_27 : IVec S_ 1 := constantI S_ 1 1#1
  let main_v72 : IVec S_ 1 := (fun x v => Host.reduce IntOp.andi x v reducesTo_S1x128_S_d0_1 h_S_) main_v71 main_c_27
  let main_v73 : IVec S_ 1 := andi main_v68 main_v72
  let main_v74 : FVec F S1x128x128 .f32 := Host.absf main_arg17
  let main_cst_28 : FVec F S_ .f32 := constant S_ .f32 0x7F800000#32
  let main_v75 : FVec F S1x128x128 .f32 := broadcastInDim S1x128x128 ![] bcast_S_S1x128x128 main_cst_28
  let main_v76 : IVec S1x128x128 1 := cmpf .olt main_v74 main_v75
  let main_c_29 : IVec S_ 1 := constantI S_ 1 1#1
  let main_v77 : IVec S_ 1 := (fun x v => Host.reduce IntOp.andi x v reducesTo_S1x128x128_S_d0_1_2 h_S_) main_v76 main_c_29
  let main_v78 : IVec S_ 1 := andi main_v73 main_v77
  let main_v79 : FVec F S1x128 .f32 := Host.absf main_arg18
  let main_cst_30 : FVec F S_ .f32 := constant S_ .f32 0x7F800000#32
  let main_v80 : FVec F S1x128 .f32 := broadcastInDim S1x128 ![] bcast_S_S1x128 main_cst_30
  let main_v81 : IVec S1x128 1 := cmpf .olt main_v79 main_v80
  let main_c_31 : IVec S_ 1 := constantI S_ 1 1#1
  let main_v82 : IVec S_ 1 := (fun x v => Host.reduce IntOp.andi x v reducesTo_S1x128_S_d0_1 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S128x64 .f32) (main_arg14 : FVec F S64x128 .f32) (main_arg15 : FVec F S1x128x128 .f32) (main_arg16 : FVec F S1x128 .f32) (main_arg17 : FVec F S1x128x128 .f32) (main_arg18 : FVec F S1x128 .f32) (main_arg19 : FVec F S128x128 .f32) (main_arg20 : FVec F S128 .f32) (main_arg21 : FVec F S2x128x128 .f32) (main_arg22 : FVec F S2x128 .f32) (main_arg23 : FVec F S2x128x128 .f32) (main_arg24 : FVec F S2x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64x128 .f32 := Host.absf main_arg14
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S1x128x128 .f32 := Host.absf main_arg15
  let main_cst_24 : FVec F S_ .f32 := constant S_ .f32 0x7F800000#32
  let main_v65 : FVec F S1x128x128 .f32 := broadcastInDim S1x128x128 ![] bcast_S_S1x128x128 main_cst_24
  let main_v66 : IVec S1x128x128 1 := cmpf .olt main_v64 main_v65
  let main_c_25 : IVec S_ 1 := constantI S_ 1 1#1
  let main_v67 : IVec S_ 1 := (fun x v => Host.reduce IntOp.andi x v reducesTo_S1x128x128_S_d0_1_2 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x64 .f32) (main_arg14 : FVec F S64x128 .f32) (main_arg15 : FVec F S1x128x128 .f32) (main_arg16 : FVec F S1x128 .f32) (main_arg17 : FVec F S1x128x128 .f32) (main_arg18 : FVec F S1x128 .f32) (main_arg19 : FVec F S128x128 .f32) (main_arg20 : FVec F S128 .f32) (main_arg21 : FVec F S2x128x128 .f32) (main_arg22 : FVec F S2x128 .f32) (main_arg23 : FVec F S2x128x128 .f32) (main_arg24 : FVec F S2x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S8x128 .f32) (main_arg7 : FVec F S42x8 .f32) (main_arg8 : FVec F S8x64 .f32) (main_arg9 : FVec F S128x128 .f32) (main_arg10 : FVec F S128 .f32) (main_arg11 : FVec F S128x128 .f32) (main_arg12 : FVec F S128 .f32) (main_arg13 : FVec F S128x64 .f32) (main_arg14 : FVec F S64x128 .f32) (main_arg15 : FVec F S1x128x128 .f32) (main_arg16 : FVec F S1x128 .f32) (main_arg17 : FVec F S1x128x128 .f32) (main_arg18 : FVec F S1x128 .f32) (main_arg19 : FVec F S128x128 .f32) (main_arg20 : FVec F S128 .f32) (main_arg21 : FVec F S2x128x128 .f32) (main_arg22 : FVec F S2x128 .f32) (main_arg23 : FVec F S2x128x128 .f32) (main_arg24 : FVec F S2x128 .f32) (main_v13 : IVec S_ 1) (main_v16 : IVec S6x8 1) : IVec S_ 1 :=
  let main_c_5 : IVec S_ 1 := constantI S_ 1 1#1
  let main_v17 : IVec S_ 1 := (fun x v => Host.reduce IntOp.andi x v reducesTo_S6x8_S_d0_1 h_S_) main_v16 main_c_5
  let main_v18 : IVec S_ 1 := andi main_v13 main_v17
  let main_v19 : FVec F S8x128 .f32 := Host.absf main_arg6
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S42x8 .f32 := Host.absf main_arg7
  let main_cst_8 : FVec F S_ .f32 := constant S_ .f32 0x7F800000#32
  let main_v25 : FVec F S42x8 .f32 := broadcastInDim S42x8 ![] bcast_S_S42x8 main_cst_8
  let main_v26 : IVec S42x8 1 := cmpf .olt main_v24 main_v25
  let main_c_9 : IVec S_ 1 := constantI S_ 1 1#1
  let main_v27 : IVec S_ 1 := (fun x v => Host.reduce IntOp.andi x v reducesTo_S42x8_S_d0_1 h_S_) main_v26 main_c_9
  let main_v28 : IVec S_ 1 := andi main_v23 main_v27
  let main_v29 : FVec F S8x64 .f32 := Host.absf main_arg8
  let main_cst_10 : FVec F S_ .f32 := constant S_ .f32 0x7F800000#32
  let main_v30 : FVec F S8x64 .f32 := broadcastInDim S8x64 ![] bcast_S_S8x64 main_cst_10
  let main_v31 : IVec S8x64 1 := cmpf .olt main_v29 main_v30
  let main_c_11 : IVec S_ 1 := constantI S_ 1 1#1
  let main_v32 : IVec S_ 1 := (fun x v => Host.reduce IntOp.andi x v reducesTo_S8x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S262144x128 .f32) (main_arg1 : FVec F S262144x6 .f32) (main_arg2 : FVec F S2097152x42 .f32) (main_arg3 : IVec S2097152 32) (main_arg4 : IVec S2097152 32) (main_arg5 : FVec F S6x8 .f32) (main_arg6 : FVec F S8x128 .f32) (main_arg7 : FVec F S42x8 .f32) (main_arg8 : FVec F S8x64 .f32) (main_arg9 : FVec F S128x128 .f32) (main_arg10 : FVec F S128 .f32) (main_arg11 : FVec F S128x128 .f32) (main_arg12 : FVec F S128 .f32) (main_arg13 : FVec F S128x64 .f32) (main_arg14 : FVec F S64x128 .f32) (main_arg15 : FVec F S1x128x128 .f32) (main_arg16 : FVec F S1x128 .f32) (main_arg17 : FVec F S1x128x128 .f32) (main_arg18 : FVec F S1x128 .f32) (main_arg19 : FVec F S128x128 .f32) (main_arg20 : FVec F S128 .f32) (main_arg21 : FVec F S2x128x128 .f32) (main_arg22 : FVec F S2x128 .f32) (main_arg23 : FVec F S2x128x128 .f32) (main_arg24 : FVec F S2x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x6 .f32 := Host.absf main_arg1
  let main_cst_0 : FVec F S_ .f32 := constant S_ .f32 0x7F800000#32
  let main_v5 : FVec F S262144x6 .f32 := broadcastInDim S262144x6 ![] bcast_S_S262144x6 main_cst_0
  let main_v6 : IVec S262144x6 1 := cmpf .olt main_v4 main_v5
  let main_c_1 : IVec S_ 1 := constantI S_ 1 1#1
  let main_v7 : IVec S_ 1 := (fun x v => Host.reduce IntOp.andi x v reducesTo_S262144x6_S_d0_1 h_S_) main_v6 main_c_1
  let main_v8 : IVec S_ 1 := andi main_v3 main_v7
  let main_v9 : FVec F S2097152x42 .f32 := Host.absf main_arg2
  let main_cst_2 : FVec F S_ .f32 := constant S_ .f32 0x7F800000#32
  let main_v10 : FVec F S2097152x42 .f32 := broadcastInDim S2097152x42 ![] bcast_S_S2097152x42 main_cst_2
  let main_v11 : IVec S2097152x42 1 := cmpf .olt main_v9 main_v10
  let main_c_3 : IVec S_ 1 := constantI S_ 1 1#1
  let main_v12 : IVec S_ 1 := (fun x v => Host.reduce IntOp.andi x v reducesTo_S2097152x42_S_d0_1 h_S_) main_v11 main_c_3
  let main_v13 : IVec S_ 1 := andi main_v8 main_v12
  let main_v14 : FVec F S6x8 .f32 := Host.absf main_arg5
  let main_cst_4 : FVec F S_ .f32 := constant S_ .f32 0x7F800000#32
  let main_v15 : FVec F S6x8 .f32 := broadcastInDim S6x8 ![] bcast_S_S6x8 main_cst_4
  let main_v16 : IVec S6x8 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S262144x128 : Shape := ⟨2, ![262144, 128]⟩
abbrev S262144x6 : Shape := ⟨2, ![262144, 6]⟩
abbrev S2097152x42 : Shape := ⟨2, ![2097152, 42]⟩
abbrev S2097152 : Shape := ⟨1, ![2097152]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128x128 : Shape := ⟨3, ![1, 128, 128]⟩
abbrev S1x128 : Shape := ⟨2, ![1, 128]⟩
abbrev S2x128x128 : Shape := ⟨3, ![2, 128, 128]⟩
abbrev S2x128 : Shape := ⟨2, ![2, 128]⟩
abbrev S6x128 : Shape := ⟨2, ![6, 128]⟩
abbrev S42x64 : Shape := ⟨2, ![42, 64]⟩
abbrev S262144x64 : Shape := ⟨2, ![262144, 64]⟩
abbrev S4096x128 : Shape := ⟨2, ![4096, 128]⟩
abbrev S4096x6 : Shape := ⟨2, ![4096, 6]⟩
abbrev S4096x64 : Shape := ⟨2, ![4096, 64]⟩
abbrev S_ : Shape := ⟨0, ![]⟩
abbrev S2097152x1 : Shape := ⟨2, ![2097152, 1]⟩
abbrev S2097152x64 : Shape := ⟨2, ![2097152, 64]⟩
abbrev S8192x42 : Shape := ⟨2, ![8192, 42]⟩
abbrev S8192x64 : Shape := ⟨2, ![8192, 64]⟩

abbrev nBuf : Space → Nat
  | .hbm => 43
  | .vmem => 36
  | .smem => 0
  | _ => 0

abbrev bufTy : (tb : Table) → Fin (tcTables nBuf tb) → BufTy
  | .hbm, ⟨0, _⟩ => ⟨S262144x128, .f32⟩
  | .hbm, ⟨1, _⟩ => ⟨S262144x6, .f32⟩
  | .hbm, ⟨2, _⟩ => ⟨S2097152x42, .f32⟩
  | .hbm, ⟨3, _⟩ => ⟨S2097152, .i32⟩
  | .hbm, ⟨4, _⟩ => ⟨S2097152, .i32⟩
  | .hbm, ⟨5, _⟩ => ⟨S6x8, .f32⟩
  | .hbm, ⟨6, _⟩ => ⟨S8x128, .f32⟩
  | .hbm, ⟨7, _⟩ => ⟨S42x8, .f32⟩
  | .hbm, ⟨8, _⟩ => ⟨S8x64, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x64, .f32⟩
  | .hbm, ⟨14, _⟩ => ⟨S64x128, .f32⟩
  | .hbm, ⟨15, _⟩ => ⟨S1x128x128, .f32⟩
  | .hbm, ⟨16, _⟩ => ⟨S1x128, .f32⟩
  | .hbm, ⟨17, _⟩ => ⟨S1x128x128, .f32⟩
  | .hbm, ⟨18, _⟩ => ⟨S1x128, .f32⟩
  | .hbm, ⟨19, _⟩ => ⟨S128x128, .f32⟩
  | .hbm, ⟨20, _⟩ => ⟨S128, .f32⟩
  | .hbm, ⟨21, _⟩ => ⟨S2x128x128, .f32⟩
  | .hbm, ⟨22, _⟩ => ⟨S2x128, .f32⟩
  | .hbm, ⟨23, _⟩ => ⟨S2x128x128, .f32⟩
  | .hbm, ⟨24, _⟩ => ⟨S2x128, .f32⟩
  | .hbm, ⟨25, _⟩ => ⟨S6x128, .f32⟩
  | .hbm, ⟨26, _⟩ => ⟨S42x64, .f32⟩
  | .hbm, ⟨27, _⟩ => ⟨S262144x64, .f32⟩
  | .hbm, ⟨28, _⟩ => ⟨S_, .i32⟩
  | .hbm, ⟨29, _⟩ => ⟨S2097152, .i32⟩
  | .hbm, ⟨30, _⟩ => ⟨S2097152, .i1⟩
  | .hbm, ⟨31, _⟩ => ⟨S_, .i32⟩
  | .hbm, ⟨32, _⟩ => ⟨S2097152, .i32⟩
  | .hbm, ⟨33, _⟩ => ⟨S2097152, .i32⟩
  | .hbm, ⟨34, _⟩ => ⟨S2097152, .i32⟩
  | .hbm, ⟨35, _⟩ => ⟨S2097152x1, .i32⟩
  | .hbm, ⟨36, _⟩ => ⟨S2097152x64, .f32⟩
  | .hbm, ⟨37, _⟩ => ⟨S2097152x64, .f32⟩
  | .hbm, ⟨38, _⟩ => ⟨S_, .f32⟩
  | .hbm, ⟨39, _⟩ => ⟨S262144x64, .f32⟩
  | .hbm, ⟨40, _⟩ => ⟨S2097152x1, .i32⟩
  | .hbm, ⟨41, _⟩ => ⟨S262144x64, .f32⟩
  | .hbm, ⟨42, _⟩ => ⟨S262144x128, .f32⟩
  | .local _ .vmem, ⟨0, _⟩ => ⟨S4096x128, .f32⟩
  | .local _ .vmem, ⟨1, _⟩ => ⟨S4096x128, .f32⟩
  | .local _ .vmem, ⟨2, _⟩ => ⟨S4096x6, .f32⟩
  | .local _ .vmem, ⟨3, _⟩ => ⟨S4096x6, .f32⟩
  | .local _ .vmem, ⟨4, _⟩ => ⟨S6x128, .f32⟩
  | .local _ .vmem, ⟨5, _⟩ => ⟨S128x128, .f32⟩
  | .local _ .vmem, ⟨6, _⟩ => ⟨S128, .f32⟩
  | .local _ .vmem, ⟨7, _⟩ => ⟨S128x64, .f32⟩
  | .local _ .vmem, ⟨8, _⟩ => ⟨S4096x64, .f32⟩
  | .local _ .vmem, ⟨9, _⟩ => ⟨S4096x64, .f32⟩
  | .local _ .vmem, ⟨10, _⟩ => ⟨S8192x42, .f32⟩
  | .local _ .vmem, ⟨11, _⟩ => ⟨S8192x42, .f32⟩
  | .local _ .vmem, ⟨12, _⟩ => ⟨S8192x64, .f32⟩
  | .local _ .vmem, ⟨13, _⟩ => ⟨S8192x64, .f32⟩
  | .local _ .vmem, ⟨14, _⟩ => ⟨S42x64, .f32⟩
  | .local _ .vmem, ⟨15, _⟩ => ⟨S8192x64, .f32⟩
  | .local _ .vmem, ⟨16, _⟩ => ⟨S8192x64, .f32⟩
  | .local _ .vmem, ⟨17, _⟩ => ⟨S4096x64, .f32⟩
  | .local _ .vmem, ⟨18, _⟩ => ⟨S4096x64, .f32⟩
  | .local _ .vmem, ⟨19, _⟩ => ⟨S4096x128, .f32⟩
  | .local _ .vmem, ⟨20, _⟩ => ⟨S4096x128, .f32⟩
  | .local _ .vmem, ⟨21, _⟩ => ⟨S128x128, .f32⟩
  | .local _ .vmem, ⟨22, _⟩ => ⟨S128, .f32⟩
  | .local _ .vmem, ⟨23, _⟩ => ⟨S64x128, .f32⟩
  | .local _ .vmem, ⟨24, _⟩ => ⟨S1x128x128, .f32⟩
  | .local _ .vmem, ⟨25, _⟩ => ⟨S1x128, .f32⟩
  | .local _ .vmem, ⟨26, _⟩ => ⟨S1x128x128, .f32⟩
  | .local _ .vmem, ⟨27, _⟩ => ⟨S1x128, .f32⟩
  | .local _ .vmem, ⟨28, _⟩ => ⟨S128x128, .f32⟩
  | .local _ .vmem, ⟨29, _⟩ => ⟨S128, .f32⟩
  | .local _ .vmem, ⟨30, _⟩ => ⟨S2x128x128, .f32⟩
  | .local _ .vmem, ⟨31, _⟩ => ⟨S2x128, .f32⟩
  | .local _ .vmem, ⟨32, _⟩ => ⟨S2x128x128, .f32⟩
  | .local _ .vmem, ⟨33, _⟩ => ⟨S2x128, .f32⟩
  | .local _ .vmem, ⟨34, _⟩ => ⟨S4096x128, .f32⟩
  | .local _ .vmem, ⟨35, _⟩ => ⟨S4096x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_c : Ref sig .tc := ⟨.hbm, 28, rfl⟩
abbrev main_v3 : Ref sig .tc := ⟨.hbm, 29, rfl⟩
abbrev main_v4 : Ref sig .tc := ⟨.hbm, 30, rfl⟩
abbrev main_c_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg10_0 : Ref sig .tc := ⟨.vmem, 29, rfl⟩
abbrev cc2_stg11_0 : Ref sig .tc := ⟨.vmem, 30, rfl⟩
abbrev cc2_stg12_0 : Ref sig .tc := ⟨.vmem, 31, rfl⟩
abbrev cc2_stg13_0 : Ref sig .tc := ⟨.vmem, 32, rfl⟩
abbrev cc2_stg14_0 : Ref sig .tc := ⟨.vmem, 33, rfl⟩
abbrev cc2_stg15_0 : Ref sig .tc := ⟨.vmem, 34, rfl⟩
abbrev cc2_stg15_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem10_0 : DmaSem sig := 29
abbrev cc2_sem11_0 : DmaSem sig := 30
abbrev cc2_sem12_0 : DmaSem sig := 31
abbrev cc2_sem13_0 : DmaSem sig := 32
abbrev cc2_sem14_0 : DmaSem sig := 33
abbrev cc2_sem15_0 : DmaSem sig := 34
abbrev cc2_sem15_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x42 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S42x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S2x128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S2x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S2x128x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S2x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S4096x128 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

class Facts₀ : Prop where
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S4096x6_S4096x6_0_0 : ∀ a, (![0, 0] : Fin 2 → Nat) a + S4096x6.size a ≤ S4096x6.size a
  h_S4096x6 : 0 < S4096x6.numel
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x64_S128x64_0_0 : ∀ a, (![0, 0] : Fin 2 → Nat) a + S128x64.size a ≤ S128x64.size a
  h_S128x64 : 0 < S128x64.numel
  inb_S4096x64_S4096x64_0_0 : ∀ a, (![0, 0] : Fin 2 → Nat) a + S4096x64.size a ≤ S4096x64.size a
  h_S4096x64 : 0 < S4096x64.numel
  bcast_S_S2097152 : S_.BroadcastsInDim S2097152 (![] : Fin 0 → Fin S2097152.rank)
  bcast_S2097152_S2097152x1_0 : S2097152.BroadcastsInDim S2097152x1 (![0] : Fin 1 → Fin S2097152x1.rank)
  inb_S8192x42_S8192x42_0_0 : ∀ a, (![0, 0] : Fin 2 → Nat) a + S8192x42.size a ≤ S8192x42.size a
  h_S8192x42 : 0 < S8192x42.numel
  inb_S42x64_S42x64_0_0 : ∀ a, (![0, 0] : Fin 2 → Nat) a + S42x64.size a ≤ S42x64.size a
  h_S42x64 : 0 < S42x64.numel
  shapeCasts_S42x64_S42x64 : S42x64.ShapeCasts S42x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bcast_S_S262144x64 : S_.BroadcastsInDim S262144x64 (![] : Fin 0 → Fin S262144x64.rank)
  shapeCasts_S4096x64_S4096x64 : S4096x64.ShapeCasts S4096x64
  inb_S64x128_S64x128_0_0 : ∀ a, (![0, 0] : Fin 2 → Nat) a + S64x128.size a ≤ S64x128.size a
  h_S64x128 : 0 < S64x128.numel
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  shapeCasts_S1x128_S128 : S1x128.ShapeCasts S128
  inb_S2x128x128_S1x128x128_0_0_0 : ∀ a, (![0, 0, 0] : Fin 3 → Nat) a + S1x128x128.size a ≤ S2x128x128.size a
  inb_S2x128_S1x128_0_0 : ∀ a, (![0, 0] : Fin 2 → Nat) a + S1x128.size a ≤ S2x128.size a
  inb_S2x128x128_S1x128x128_1_0_0 : ∀ a, (![1, 0, 0] : Fin 3 → Nat) a + S1x128x128.size a ≤ S2x128x128.size a
  inb_S2x128_S1x128_1_0 : ∀ a, (![1, 0] : Fin 2 → Nat) a + S1x128.size a ≤ S2x128.size a
  dot_S6x8_S8x128_S6x128_1_0_0_1_n_n_wf : DotDims.WF S6x8 S8x128 S6x128 [1] [0] [0] [1] [] []
  dot_S42x8_S8x64_S42x64_1_0_0_1_n_n_wf : DotDims.WF S42x8 S8x64 S42x64 [1] [0] [0] [1] [] []
  dot_S4096x6_S6x128_S4096x128_1_0_0_1_n_n_wf : DotDims.WF S4096x6 S6x128 S4096x128 [1] [0] [0] [1] [] []
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  gather_S262144x64_S2097152x1_S2097152x64_1_0_n_n_0_1_164_wf : GatherDims.WF S262144x64 S2097152x1 S2097152x64 [1] [0] [] [0] [] 1 ![1, 64]
  dot_S8192x42_S42x64_S8192x64_1_0_0_1_n_n_wf : DotDims.WF S8192x42 S42x64 S8192x64 [1] [0] [0] [1] [] []
  scatter_S262144x64_S2097152x1_S2097152x64_1_0_0_1_wf : ScatterDims.WF S262144x64 S2097152x1 S2097152x64 [1] [0] [0] 1
  dot_S4096x64_S64x128_S4096x128_1_0_0_1_n_n_wf : DotDims.WF S4096x64 S64x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x6.size a ≤ S262144x6.size a
  hwx0_1 : ∀ i : grid0.Coords, EltTy.bits .f32 = 32 ∨ (Rect.block (s := S262144x6) S4096x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x128.size a ≤ S6x128.size a
  hwx0_2 : ∀ i : grid0.Coords, EltTy.bits .f32 = 32 ∨ (Rect.block (s := S6x128) S6x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x64.size a ≤ S262144x64.size a
  hwx0_6 : ∀ i : grid0.Coords, EltTy.bits .f32 = 32 ∨ (Rect.block (s := S262144x64) S4096x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x42.size a ≤ S2097152x42.size a
  hwx1_0 : ∀ i : grid1.Coords, EltTy.bits .f32 = 32 ∨ (Rect.block (s := S2097152x42) S8192x42.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S2097152x64.size a
  hwx1_1 : ∀ i : grid1.Coords, EltTy.bits .f32 = 32 ∨ (Rect.block (s := S2097152x64) S8192x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S42x64.size a ≤ S42x64.size a
  hwx1_2 : ∀ i : grid1.Coords, EltTy.bits .f32 = 32 ∨ (Rect.block (s := S42x64) S42x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x64.size a ≤ S2097152x64.size a
  hwx1_3 : ∀ i : grid1.Coords, EltTy.bits .f32 = 32 ∨ (Rect.block (s := S2097152x64) S8192x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S262144x64.size a
  hwx2_0 : ∀ i : grid2.Coords, EltTy.bits .f32 = 32 ∨ (Rect.block (s := S262144x64) S4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S262144x128.size a
  hwx2_1 : ∀ i : grid2.Coords, EltTy.bits .f32 = 32 ∨ (Rect.block (s := S262144x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128x128.size a ≤ S1x128x128.size a
  hwx2_5 : ∀ i : grid2.Coords, EltTy.bits .f32 = 32 ∨ (Rect.block (s := S1x128x128) S1x128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128x128.size a ≤ S1x128x128.size a
  hwx2_7 : ∀ i : grid2.Coords, EltTy.bits .f32 = 32 ∨ (Rect.block (s := S1x128x128) S1x128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128.size a ≤ S128.size a
  hwx2_10 : ∀ i : grid2.Coords, EltTy.bits .f32 = 32 ∨ (Rect.block (s := S128) S128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S2x128x128.size a ≤ S2x128x128.size a
  hwx2_11 : ∀ i : grid2.Coords, EltTy.bits .f32 = 32 ∨ (Rect.block (s := S2x128x128) S2x128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S2x128.size a ≤ S2x128.size a
  hwx2_12 : ∀ i : grid2.Coords, EltTy.bits .f32 = 32 ∨ (Rect.block (s := S2x128) S2x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S2x128x128.size a ≤ S2x128x128.size a
  hwx2_13 : ∀ i : grid2.Coords, EltTy.bits .f32 = 32 ∨ (Rect.block (s := S2x128x128) S2x128x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S2x128.size a ≤ S2x128.size a
  hwx2_14 : ∀ i : grid2.Coords, EltTy.bits .f32 = 32 ∨ (Rect.block (s := S2x128) S2x128.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S4096x128.size a ≤ S262144x128.size a
  hwx2_15 : ∀ i : grid2.Coords, EltTy.bits .f32 = 32 ∨ (Rect.block (s := S262144x128) S4096x128.size (cc2_transform_15 i) (hinb2_15 i)).WholeWords (EltTy.packing .f32)

variable [Facts₀]

def dot_S6x8_S8x128_S6x128_1_0_0_1_n_n : DotDims S6x8 S8x128 S6x128 where
  lhsContracting := [1]
  rhsContracting := [0]
  lhsNonContracting := [0]
  rhsNonContracting := [1]
  lhsBatch := []
  rhsBatch := []
  wf := dot_S6x8_S8x128_S6x128_1_0_0_1_n_n_wf
def dot_S42x8_S8x64_S42x64_1_0_0_1_n_n : DotDims S42x8 S8x64 S42x64 where
  lhsContracting := [1]
  rhsContracting := [0]
  lhsNonContracting := [0]
  rhsNonContracting := [1]
  lhsBatch := []
  rhsBatch := []
  wf := dot_S42x8_S8x64_S42x64_1_0_0_1_n_n_wf
def dot_S4096x6_S6x128_S4096x128_1_0_0_1_n_n : DotDims S4096x6 S6x128 S4096x128 where
  lhsContracting := [1]
  rhsContracting := [0]
  lhsNonContracting := [0]
  rhsNonContracting := [1]
  lhsBatch := []
  rhsBatch := []
  wf := dot_S4096x6_S6x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def gather_S262144x64_S2097152x1_S2097152x64_1_0_n_n_0_1_164 : GatherDims S262144x64 S2097152x1 S2097152x64 where
  offsetDims := [1]
  collapsedSliceDims := [0]
  operandBatchingDims := []
  startIndicesBatchingDims := []
  startIndexMap := [0]
  indexVectorDim := 1
  sliceSizes := ![1, 64]
  wf := gather_S262144x64_S2097152x1_S2097152x64_1_0_n_n_0_1_164_wf
def dot_S8192x42_S42x64_S8192x64_1_0_0_1_n_n : DotDims S8192x42 S42x64 S8192x64 where
  lhsContracting := [1]
  rhsContracting := [0]
  lhsNonContracting := [0]
  rhsNonContracting := [1]
  lhsBatch := []
  rhsBatch := []
  wf := dot_S8192x42_S42x64_S8192x64_1_0_0_1_n_n_wf
def scatter_S262144x64_S2097152x1_S2097152x64_1_0_0_1 : ScatterDims S262144x64 S2097152x1 S2097152x64 where
  updateWindowDims := [1]
  insertedWindowDims := [0]
  scatterDimsToOperandDims := [0]
  indexVectorDim := 1
  wf := scatter_S262144x64_S2097152x1_S2097152x64_1_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S6x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg13) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S4096x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S8192x42.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S42x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S8192x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S1x128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg17) S1x128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg18) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg19) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg20) S128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg21) S2x128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg22) S2x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg23) S2x128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_arg24) S2x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v14) S4096x128.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

class Facts : Prop extends Facts₀ where

variable [Facts]
-- ==== ReferenceIdeal.lean ====
abbrev S262144x128 : Shape := ⟨2, ![262144, 128]⟩
abbrev S262144x6 : Shape := ⟨2, ![262144, 6]⟩
abbrev S2097152x42 : Shape := ⟨2, ![2097152, 42]⟩
abbrev S2097152 : Shape := ⟨1, ![2097152]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S1x128x128 : Shape := ⟨3, ![1, 128, 128]⟩
abbrev S1x128 : Shape := ⟨2, ![1, 128]⟩
abbrev S2x128x128 : Shape := ⟨3, ![2, 128, 128]⟩
abbrev S2x128 : Shape := ⟨2, ![2, 128]⟩
abbrev S262144x8 : Shape := ⟨2, ![262144, 8]⟩
abbrev S_ : Shape := ⟨0, ![]⟩
abbrev S262144x64 : Shape := ⟨2, ![262144, 64]⟩
abbrev S2097152x8 : Shape := ⟨2, ![2097152, 8]⟩
abbrev S2097152x64 : Shape := ⟨2, ![2097152, 64]⟩
abbrev S2097152x1 : Shape := ⟨2, ![2097152, 1]⟩

abbrev nBuf : Space → Nat
  | .hbm => 206
  | .vmem => 0
  | .smem => 0
  | _ => 0

abbrev hbmTy0_0 (i : Nat) : BufTy := match i % 128 with
  | 0 => ⟨S262144x128, .f32⟩
  | 1 => ⟨S262144x6, .f32⟩
  | 2 => ⟨S2097152x42, .f32⟩
  | 3 => ⟨S2097152, .i32⟩
  | 4 => ⟨S2097152, .i32⟩
  | 5 => ⟨S6x8, .f32⟩
  | 6 => ⟨S8x128, .f32⟩
  | 7 => ⟨S42x8, .f32⟩
  | 8 => ⟨S8x64, .f32⟩
  | 9 => ⟨S128x128, .f32⟩
  | 10 => ⟨S128, .f32⟩
  | 11 => ⟨S128x128, .f32⟩
  | 12 => ⟨S128, .f32⟩
  | 13 => ⟨S128x64, .f32⟩
  | 14 => ⟨S64x128, .f32⟩
  | 15 => ⟨S1x128x128, .f32⟩
  | 16 => ⟨S1x128, .f32⟩
  | 17 => ⟨S1x128x128, .f32⟩
  | 18 => ⟨S1x128, .f32⟩
  | 19 => ⟨S128x128, .f32⟩
  | 20 => ⟨S128, .f32⟩
  | 21 => ⟨S2x128x128, .f32⟩
  | 22 => ⟨S2x128, .f32⟩
  | 23 => ⟨S2x128x128, .f32⟩
  | 24 => ⟨S2x128, .f32⟩
  | 25 => ⟨S262144x8, .f32⟩
  | 26 => ⟨S262144x128, .f32⟩
  | 27 => ⟨S262144x128, .f32⟩
  | 28 => ⟨S1x128, .f32⟩
  | 29 => ⟨S262144x128, .f32⟩
  | 30 => ⟨S262144x128, .f32⟩
  | 31 => ⟨S262144x128, .f32⟩
  | 32 => ⟨S262144x128, .f32⟩
  | 33 => ⟨S_, .f32⟩
  | 34 => ⟨S262144x128, .f32⟩
  | 35 => ⟨S262144x128, .f32⟩
  | 36 => ⟨S_, .f32⟩
  | 37 => ⟨S262144x128, .f32⟩
  | 38 => ⟨S262144x128, .f32⟩
  | 39 => ⟨S262144x128, .f32⟩
  | 40 => ⟨S262144x128, .f32⟩
  | 41 => ⟨S1x128, .f32⟩
  | 42 => ⟨S262144x128, .f32⟩
  | 43 => ⟨S262144x128, .f32⟩
  | 44 => ⟨S262144x128, .f32⟩
  | 45 => ⟨S262144x128, .f32⟩
  | 46 => ⟨S_, .f32⟩
  | 47 => ⟨S262144x128, .f32⟩
  | 48 => ⟨S262144x128, .f32⟩
  | 49 => ⟨S_, .f32⟩
  | 50 => ⟨S262144x128, .f32⟩
  | 51 => ⟨S262144x128, .f32⟩
  | 52 => ⟨S262144x128, .f32⟩
  | 53 => ⟨S262144x128, .f32⟩
  | 54 => ⟨S262144x64, .f32⟩
  | 55 => ⟨S262144x64, .f32⟩
  | 56 => ⟨S262144x64, .f32⟩
  | 57 => ⟨S_, .f32⟩
  | 58 => ⟨S262144x64, .f32⟩
  | 59 => ⟨S262144x64, .f32⟩
  | 60 => ⟨S_, .f32⟩
  | 61 => ⟨S262144x64, .f32⟩
  | 62 => ⟨S262144x64, .f32⟩
  | 63 => ⟨S262144x64, .f32⟩
  | 64 => ⟨S2097152x8, .f32⟩
  | 65 => ⟨S2097152x64, .f32⟩
  | 66 => ⟨S_, .i32⟩
  | 67 => ⟨S2097152, .i32⟩
  | 68 => ⟨S2097152, .i1⟩
  | 69 => ⟨S_, .i32⟩
  | 70 => ⟨S2097152, .i32⟩
  | 71 => ⟨S2097152, .i32⟩
  | 72 => ⟨S2097152, .i32⟩
  | 73 => ⟨S2097152x1, .i32⟩
  | 74 => ⟨S2097152x64, .f32⟩
  | 75 => ⟨S2097152x64, .f32⟩
  | 76 => ⟨S_, .f32⟩
  | 77 => ⟨S262144x64, .f32⟩
  | 78 => ⟨S2097152x1, .i32⟩
  | 79 => ⟨S262144x64, .f32⟩
  | 80 => ⟨S262144x128, .f32⟩
  | 81 => ⟨S262144x128, .f32⟩
  | 82 => ⟨S262144x128, .f32⟩
  | 83 => ⟨S_, .f32⟩
  | 84 => ⟨S262144x128, .f32⟩
  | 85 => ⟨S262144x128, .f32⟩
  | 86 => ⟨S_, .f32⟩
  | 87 => ⟨S262144x128, .f32⟩
  | 88 => ⟨S262144x128, .f32⟩
  | 89 => ⟨S262144x128, .f32⟩
  | 90 => ⟨S262144x128, .f32⟩
  | 91 => ⟨S128x128, .f32⟩
  | 92 => ⟨S128, .f32⟩
  | 93 => ⟨S128x128, .f32⟩
  | 94 => ⟨S128, .f32⟩
  | 95 => ⟨S262144x128, .f32⟩
  | 96 => ⟨S1x128, .f32⟩
  | 97 => ⟨S262144x128, .f32⟩
  | 98 => ⟨S262144x128, .f32⟩
  | 99 => ⟨S262144x128, .f32⟩
  | 100 => ⟨S262144x128, .f32⟩
  | 101 => ⟨S_, .f32⟩
  | 102 => ⟨S262144x128, .f32⟩
  | 103 => ⟨S262144x128, .f32⟩
  | 104 => ⟨S_, .f32⟩
  | 105 => ⟨S262144x128, .f32⟩
  | 106 => ⟨S262144x128, .f32⟩
  | 107 => ⟨S262144x128, .f32⟩
  | 108 => ⟨S262144x128, .f32⟩
  | 109 => ⟨S1x128, .f32⟩
  | 110 => ⟨S262144x128, .f32⟩
  | 111 => ⟨S262144x128, .f32⟩
  | 112 => ⟨S262144x128, .f32⟩
  | 113 => ⟨S262144x128, .f32⟩
  | 114 => ⟨S_, .f32⟩
  | 115 => ⟨S262144x128, .f32⟩
  | 116 => ⟨S262144x128, .f32⟩
  | 117 => ⟨S_, .f32⟩
  | 118 => ⟨S262144x128, .f32⟩
  | 119 => ⟨S262144x128, .f32⟩
  | 120 => ⟨S262144x128, .f32⟩
  | 121 => ⟨S262144x128, .f32⟩
  | 122 => ⟨S262144x128, .f32⟩
  | 123 => ⟨S1x128, .f32⟩
  | 124 => ⟨S262144x128, .f32⟩
  | 125 => ⟨S262144x128, .f32⟩
  | 126 => ⟨S262144x128, .f32⟩
  | 127 => ⟨S262144x128, .f32⟩
  | _ => ⟨S262144x128, .f32⟩

abbrev hbmTy0_1 (i : Nat) : BufTy := match i % 128 with
  | 0 => ⟨S_, .f32⟩
  | 1 => ⟨S262144x128, .f32⟩
  | 2 => ⟨S262144x128, .f32⟩
  | 3 => ⟨S_, .f32⟩
  | 4 => ⟨S262144x128, .f32⟩
  | 5 => ⟨S262144x128, .f32⟩
  | 6 => ⟨S262144x128, .f32⟩
  | 7 => ⟨S262144x128, .f32⟩
  | 8 => ⟨S1x128x128, .f32⟩
  | 9 => ⟨S128x128, .f32⟩
  | 10 => ⟨S1x128, .f32⟩
  | 11 => ⟨S128, .f32⟩
  | 12 => ⟨S1x128x128, .f32⟩
  | 13 => ⟨S128x128, .f32⟩
  | 14 => ⟨S1x128, .f32⟩
  | 15 => ⟨S128, .f32⟩
  | 16 => ⟨S262144x128, .f32⟩
  | 17 => ⟨S1x128, .f32⟩
  | 18 => ⟨S262144x128, .f32⟩
  | 19 => ⟨S262144x128, .f32⟩
  | 20 => ⟨S262144x128, .f32⟩
  | 21 => ⟨S262144x128, .f32⟩
  | 22 => ⟨S_, .f32⟩
  | 23 => ⟨S262144x128, .f32⟩
  | 24 => ⟨S262144x128, .f32⟩
  | 25 => ⟨S_, .f32⟩
  | 26 => ⟨S262144x128, .f32⟩
  | 27 => ⟨S262144x128, .f32⟩
  | 28 => ⟨S262144x128, .f32⟩
  | 29 => ⟨S262144x128, .f32⟩
  | 30 => ⟨S1x128, .f32⟩
  | 31 => ⟨S262144x128, .f32⟩
  | 32 => ⟨S262144x128, .f32⟩
  | 33 => ⟨S262144x128, .f32⟩
  | 34 => ⟨S262144x128, .f32⟩
  | 35 => ⟨S_, .f32⟩
  | 36 => ⟨S262144x128, .f32⟩
  | 37 => ⟨S262144x128, .f32⟩
  | 38 => ⟨S_, .f32⟩
  | 39 => ⟨S262144x128, .f32⟩
  | 40 => ⟨S262144x128, .f32⟩
  | 41 => ⟨S262144x128, .f32⟩
  | 42 => ⟨S262144x128, .f32⟩
  | 43 => ⟨S1x128x128, .f32⟩
  | 44 => ⟨S128x128, .f32⟩
  | 45 => ⟨S1x128, .f32⟩
  | 46 => ⟨S128, .f32⟩
  | 47 => ⟨S1x128x128, .f32⟩
  | 48 => ⟨S128x128, .f32⟩
  | 49 => ⟨S1x128, .f32⟩
  | 50 => ⟨S128, .f32⟩
  | 51 => ⟨S262144x128, .f32⟩
  | 52 => ⟨S1x128, .f32⟩
  | 53 => ⟨S262144x128, .f32⟩
  | 54 => ⟨S262144x128, .f32⟩
  | 55 => ⟨S262144x128, .f32⟩
  | 56 => ⟨S262144x128, .f32⟩
  | 57 => ⟨S_, .f32⟩
  | 58 => ⟨S262144x128, .f32⟩
  | 59 => ⟨S262144x128, .f32⟩
  | 60 => ⟨S_, .f32⟩
  | 61 => ⟨S262144x128, .f32⟩
  | 62 => ⟨S262144x128, .f32⟩
  | 63 => ⟨S262144x128, .f32⟩
  | 64 => ⟨S262144x128, .f32⟩
  | 65 => ⟨S1x128, .f32⟩
  | 66 => ⟨S262144x128, .f32⟩
  | 67 => ⟨S262144x128, .f32⟩
  | 68 => ⟨S262144x128, .f32⟩
  | 69 => ⟨S262144x128, .f32⟩
  | 70 => ⟨S_, .f32⟩
  | 71 => ⟨S262144x128, .f32⟩
  | 72 => ⟨S262144x128, .f32⟩
  | 73 => ⟨S_, .f32⟩
  | 74 => ⟨S262144x128, .f32⟩
  | 75 => ⟨S262144x128, .f32⟩
  | 76 => ⟨S262144x128, .f32⟩
  | 77 => ⟨S262144x128, .f32⟩
  | _ => ⟨S262144x128, .f32⟩

abbrev hbmTy (i : Nat) : BufTy := match i / 128 with
  | 0 => hbmTy0_0 i
  | 1 => hbmTy0_1 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_call2_v0 : Ref sig .tc := ⟨.hbm, 55, rfl⟩
abbrev main_call2_v1 : Ref sig .tc := ⟨.hbm, 56, rfl⟩
abbrev main_call2_cst : Ref sig .tc := ⟨.hbm, 57, rfl⟩
abbrev main_call2_v2 : Ref sig .tc := ⟨.hbm, 58, rfl⟩
abbrev main_call2_v3 : Ref sig .tc := ⟨.hbm, 59, rfl⟩
abbrev main_call2_cst_0 : Ref sig .tc := ⟨.hbm, 60, rfl⟩
abbrev main_call2_v4 : Ref sig .tc := ⟨.hbm, 61, rfl⟩
abbrev main_call2_v5 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_c : Ref sig .tc := ⟨.hbm, 66, rfl⟩
abbrev main_v17 : Ref sig .tc := ⟨.hbm, 67, rfl⟩
abbrev main_v18 : Ref sig .tc := ⟨.hbm, 68, rfl⟩
abbrev main_c_0 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_cst : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_call3_v0 : Ref sig .tc := ⟨.hbm, 81, rfl⟩
abbrev main_call3_v1 : Ref sig .tc := ⟨.hbm, 82, rfl⟩
abbrev main_call3_cst : Ref sig .tc := ⟨.hbm, 83, rfl⟩
abbrev main_call3_v2 : Ref sig .tc := ⟨.hbm, 84, rfl⟩
abbrev main_call3_v3 : Ref sig .tc := ⟨.hbm, 85, rfl⟩
abbrev main_call3_cst_0 : Ref sig .tc := ⟨.hbm, 86, rfl⟩
abbrev main_call3_v4 : Ref sig .tc := ⟨.hbm, 87, rfl⟩
abbrev main_call3_v5 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_call4_v0 : Ref sig .tc := ⟨.hbm, 99, rfl⟩
abbrev main_call4_v1 : Ref sig .tc := ⟨.hbm, 100, rfl⟩
abbrev main_call4_cst : Ref sig .tc := ⟨.hbm, 101, rfl⟩
abbrev main_call4_v2 : Ref sig .tc := ⟨.hbm, 102, rfl⟩
abbrev main_call4_v3 : Ref sig .tc := ⟨.hbm, 103, rfl⟩
abbrev main_call4_cst_0 : Ref sig .tc := ⟨.hbm, 104, rfl⟩
abbrev main_call4_v4 : Ref sig .tc := ⟨.hbm, 105, rfl⟩
abbrev main_call4_v5 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_call5_v0 : Ref sig .tc := ⟨.hbm, 112, rfl⟩
abbrev main_call5_v1 : Ref sig .tc := ⟨.hbm, 113, rfl⟩
abbrev main_call5_cst : Ref sig .tc := ⟨.hbm, 114, rfl⟩
abbrev main_call5_v2 : Ref sig .tc := ⟨.hbm, 115, rfl⟩
abbrev main_call5_v3 : Ref sig .tc := ⟨.hbm, 116, rfl⟩
abbrev main_call5_cst_0 : Ref sig .tc := ⟨.hbm, 117, rfl⟩
abbrev main_call5_v4 : Ref sig .tc := ⟨.hbm, 118, rfl⟩
abbrev main_call5_v5 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_call6_v0 : Ref sig .tc := ⟨.hbm, 126, rfl⟩
abbrev main_call6_v1 : Ref sig .tc := ⟨.hbm, 127, rfl⟩
abbrev main_call6_cst : Ref sig .tc := ⟨.hbm, 128, rfl⟩
abbrev main_call6_v2 : Ref sig .tc := ⟨.hbm, 129, rfl⟩
abbrev main_call6_v3 : Ref sig .tc := ⟨.hbm, 130, rfl⟩
abbrev main_call6_cst_0 : Ref sig .tc := ⟨.hbm, 131, rfl⟩
abbrev main_call6_v4 : Ref sig .tc := ⟨.hbm, 132, rfl⟩
abbrev main_call6_v5 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_call7_v0 : Ref sig .tc := ⟨.hbm, 148, rfl⟩
abbrev main_call7_v1 : Ref sig .tc := ⟨.hbm, 149, rfl⟩
abbrev main_call7_cst : Ref sig .tc := ⟨.hbm, 150, rfl⟩
abbrev main_call7_v2 : Ref sig .tc := ⟨.hbm, 151, rfl⟩
abbrev main_call7_v3 : Ref sig .tc := ⟨.hbm, 152, rfl⟩
abbrev main_call7_cst_0 : Ref sig .tc := ⟨.hbm, 153, rfl⟩
abbrev main_call7_v4 : Ref sig .tc := ⟨.hbm, 154, rfl⟩
abbrev main_call7_v5 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_call8_v0 : Ref sig .tc := ⟨.hbm, 161, rfl⟩
abbrev main_call8_v1 : Ref sig .tc := ⟨.hbm, 162, rfl⟩
abbrev main_call8_cst : Ref sig .tc := ⟨.hbm, 163, rfl⟩
abbrev main_call8_v2 : Ref sig .tc := ⟨.hbm, 164, rfl⟩
abbrev main_call8_v3 : Ref sig .tc := ⟨.hbm, 165, rfl⟩
abbrev main_call8_cst_0 : Ref sig .tc := ⟨.hbm, 166, rfl⟩
abbrev main_call8_v4 : Ref sig .tc := ⟨.hbm, 167, rfl⟩
abbrev main_call8_v5 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_call9_v0 : Ref sig .tc := ⟨.hbm, 183, rfl⟩
abbrev main_call9_v1 : Ref sig .tc := ⟨.hbm, 184, rfl⟩
abbrev main_call9_cst : Ref sig .tc := ⟨.hbm, 185, rfl⟩
abbrev main_call9_v2 : Ref sig .tc := ⟨.hbm, 186, rfl⟩
abbrev main_call9_v3 : Ref sig .tc := ⟨.hbm, 187, rfl⟩
abbrev main_call9_cst_0 : Ref sig .tc := ⟨.hbm, 188, rfl⟩
abbrev main_call9_v4 : Ref sig .tc := ⟨.hbm, 189, rfl⟩
abbrev main_call9_v5 : Ref sig .tc := ⟨.hbm, 190, rfl⟩
abbrev main_v83 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩
abbrev main_v87 : Ref sig .tc := ⟨.hbm, 195, rfl⟩
abbrev main_call10_v0 : Ref sig .tc := ⟨.hbm, 196, rfl⟩
abbrev main_call10_v1 : Ref sig .tc := ⟨.hbm, 197, rfl⟩
abbrev main_call10_cst : Ref sig .tc := ⟨.hbm, 198, rfl⟩
abbrev main_call10_v2 : Ref sig .tc := ⟨.hbm, 199, rfl⟩
abbrev main_call10_v3 : Ref sig .tc := ⟨.hbm, 200, rfl⟩
abbrev main_call10_cst_0 : Ref sig .tc := ⟨.hbm, 201, rfl⟩
abbrev main_call10_v4 : Ref sig .tc := ⟨.hbm, 202, rfl⟩
abbrev main_call10_v5 : Ref sig .tc := ⟨.hbm, 203, rfl⟩
abbrev main_v88 : Ref sig .tc := ⟨.hbm, 204, rfl⟩
abbrev main_v89 : Ref sig .tc := ⟨.hbm, 205, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S_S262144x64 : S_.BroadcastsInDim S262144x64 (![] : Fin 0 → Fin S262144x64.rank)
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S1x128x128_S128x128 : S1x128x128.ShapeCasts S128x128
  shapeCasts_S1x128_S128 : S1x128.ShapeCasts S128
  slices_S2x128x128_S1x128x128_0_0_0 : S2x128x128.Slices ![0, 0, 0] S1x128x128
  slices_S2x128_S1x128_0_0 : S2x128.Slices ![0, 0] S1x128
  slices_S2x128x128_S1x128x128_1_0_0 : S2x128x128.Slices ![1, 0, 0] S1x128x128
  slices_S2x128_S1x128_1_0 : S2x128.Slices ![1, 0] S1x128
  dot_S262144x6_S6x8_S262144x8_1_0_0_1_n_n_wf : DotDims.WF S262144x6 S6x8 S262144x8 [1] [0] [0] [1] [] []
  dot_S262144x8_S8x128_S262144x128_1_0_0_1_n_n_wf : DotDims.WF S262144x8 S8x128 S262144x128 [1] [0] [0] [1] [] []
  dot_S262144x128_S128x128_S262144x128_1_0_0_1_n_n_wf : DotDims.WF S262144x128 S128x128 S262144x128 [1] [0] [0] [1] [] []
  dot_S262144x128_S128x64_S262144x64_1_0_0_1_n_n_wf : DotDims.WF S262144x128 S128x64 S262144x64 [1] [0] [0] [1] [] []
  dot_S2097152x42_S42x8_S2097152x8_1_0_0_1_n_n_wf : DotDims.WF S2097152x42 S42x8 S2097152x8 [1] [0] [0] [1] [] []
  dot_S2097152x8_S8x64_S2097152x64_1_0_0_1_n_n_wf : DotDims.WF S2097152x8 S8x64 S2097152x64 [1] [0] [0] [1] [] []
  gather_S262144x64_S2097152x1_S2097152x64_1_0_n_n_0_1_164_wf : GatherDims.WF S262144x64 S2097152x1 S2097152x64 [1] [0] [] [0] [] 1 ![1, 64]
  scatter_S262144x64_S2097152x1_S2097152x64_1_0_0_1_wf : ScatterDims.WF S262144x64 S2097152x1 S2097152x64 [1] [0] [0] 1
  dot_S262144x64_S64x128_S262144x128_1_0_0_1_n_n_wf : DotDims.WF S262144x64 S64x128 S262144x128 [1] [0] [0] [1] [] []

variable [Facts₀]

def dot_S262144x6_S6x8_S262144x8_1_0_0_1_n_n : DotDims S262144x6 S6x8 S262144x8 where
  lhsContracting := [1]
  rhsContracting := [0]
  lhsNonContracting := [0]
  rhsNonContracting := [1]
  lhsBatch := []
  rhsBatch := []
  wf := dot_S262144x6_S6x8_S262144x8_1_0_0_1_n_n_wf
def dot_S262144x8_S8x128_S262144x128_1_0_0_1_n_n : DotDims S262144x8 S8x128 S262144x128 where
  lhsContracting := [1]
  rhsContracting := [0]
  lhsNonContracting := [0]
  rhsNonContracting := [1]
  lhsBatch := []
  rhsBatch := []
  wf := dot_S262144x8_S8x128_S262144x128_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def dot_S2097152x42_S42x8_S2097152x8_1_0_0_1_n_n : DotDims S2097152x42 S42x8 S2097152x8 where
  lhsContracting := [1]
  rhsContracting := [0]
  lhsNonContracting := [0]
  rhsNonContracting := [1]
  lhsBatch := []
  rhsBatch := []
  wf := dot_S2097152x42_S42x8_S2097152x8_1_0_0_1_n_n_wf
def dot_S2097152x8_S8x64_S2097152x64_1_0_0_1_n_n : DotDims S2097152x8 S8x64 S2097152x64 where
  lhsContracting := [1]
  rhsContracting := [0]
  lhsNonContracting := [0]
  rhsNonContracting := [1]
  lhsBatch := []
  rhsBatch := []
  wf := dot_S2097152x8_S8x64_S2097152x64_1_0_0_1_n_n_wf
def gather_S262144x64_S2097152x1_S2097152x64_1_0_n_n_0_1_164 : GatherDims S262144x64 S2097152x1 S2097152x64 where
  offsetDims := [1]
  collapsedSliceDims := [0]
  operandBatchingDims := []
  startIndicesBatchingDims := []
  startIndexMap := [0]
  indexVectorDim := 1
  sliceSizes := ![1, 64]
  wf := gather_S262144x64_S2097152x1_S2097152x64_1_0_n_n_0_1_164_wf
def scatter_S262144x64_S2097152x1_S2097152x64_1_0_0_1 : ScatterDims S262144x64 S2097152x1 S2097152x64 where
  updateWindowDims := [1]
  insertedWindowDims := [0]
  scatterDimsToOperandDims := [0]
  indexVectorDim := 1
  wf := scatter_S262144x64_S2097152x1_S2097152x64_1_0_0_1_wf
def dot_S262144x64_S64x128_S262144x128_1_0_0_1_n_n : DotDims S262144x64 S64x128 S262144x128 where
  lhsContracting := [1]
  rhsContracting := [0]
  lhsNonContracting := [0]
  rhsNonContracting := [1]
  lhsBatch := []
  rhsBatch := []
  wf := dot_S262144x64_S64x128_S262144x128_1_0_0_1_n_n_wf

class Facts : Prop extends Facts₀ where

variable [Facts]
-- ==== Proof.KernelRun.lean ====
/-
  The idealized kernel's run with every buffer named.

  @main is three pipelined regions among three stretches of host operations. Run from any memory, every weakly fair
  execution terminates, and each buffer that outlives a region ends at the contents obtained by folding the stretches'
  results and the regions' write-backs over the launch memory, boundary by boundary. The result buffer is one of them.
-/
import proofs.«143475_j11940009083127_2_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and every buffer that is not scoped to a region ends at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.RunAll

end
-- ==== Proof.LibRowLayers.lean ====
/-
  The message-passing block as a function of rows.

  Every operation of the block other than the gather and the scatter between triplets and edges acts on each row of an
  [n, d] array by itself: a dense layer sends row r of X to silu (X_r · W + β), a residual pair adds two such layers to
  the row, and the final array is a composition of these. So the block is written here once, as functions of a family of
  rows indexed by an arbitrary type ι; restricting the family to a block of rows (composing with an embedding of row
  indices) commutes with every function below by definition, which is what lets a kernel that works on 4096 rows at a
  time and a reference that works on all rows at once be compared row by row.

  Notation: lin X W is the matrix product of the rows X with W, entry by entry the sum over the contracted coordinate;
  sil z = z · σ(z) with σ the logistic function on the extended reals.
-/
import Idealize.ShloMosaic.PureOps.Ideal
import Idealize.ShloMosaic.PureOps.Ideal.Laws
import Idealize.ShloMosaic.Lib.ValueIdx

noncomputable section

namespace Cert.Net

open Idealize.ShloMosaic Idealize.ShloMosaic.ValueIdx

/-! ## Arrays as families of rows -/

/-- An [n, d] array as its n rows. -/
def rows {n d : Nat} (X : (⟨2, ![n, d]⟩ : Shape).Idx → EReal) : Fin n → Fin d → EReal := fun r k => X (ix2 r k)

/-- A family of n rows of length d as an [n, d] array. -/
def unrows {n d : Nat} (f : Fin n → Fin d → EReal) : (⟨2, ![n, d]⟩ : Shape).Idx → EReal := fun i => f (i 0) (i 1)

/-- A length-d array as a function of its one coordinate. -/
def vec {d : Nat} (v : (⟨1, ![d]⟩ : Shape).Idx → EReal) : Fin d → EReal := fun k => v (ix1 k)

/-- Member u of a stack [g, a, b] of matrices. -/
def mat3 {g a b : Nat} (X : (⟨3, ![g, a, b]⟩ : Shape).Idx → EReal) (u : Fin g) : Fin a → Fin b → EReal :=
  fun i j => X (ix3 u i j)

/-- Row u of a [g, b] array. -/
def row2 {g b : Nat} (X : (⟨2, ![g, b]⟩ : Shape).Idx → EReal) (u : Fin g) : Fin b → EReal := fun j => X (ix2 u j)

theorem rows_unrows {n d : Nat} (f : Fin n → Fin d → EReal) : rows (unrows f) = f := rfl

theorem unrows_rows {n d : Nat} (X : (⟨2, ![n, d]⟩ : Shape).Idx → EReal) : unrows (rows X) = X := by
  funext i
  exact congrArg X (eq_ix2 i).symm

/-- Two [n, d] arrays with the same rows are equal. -/
theorem ext_rows {n d : Nat} {X Y : (⟨2, ![n, d]⟩ : Shape).Idx → EReal} (h : rows X = rows Y) : X = Y := by
  rw [← unrows_rows X, ← unrows_rows Y, h]

/-! ## The layers, on a family of rows -/

variable {ι : Type}

/-- The rows X times the matrix W. -/
def lin {a b : Nat} (X : ι → Fin a → EReal) (W : Fin a → Fin b → EReal) : ι → Fin b → EReal :=
  fun r j => ∑ k : Fin a, X r k * W k j

/-- silu on the extended reals: z · σ(z). -/
def sil (z : EReal) : EReal := z * Ideal.logistic z

/-- A dense layer: silu (X · W + β), the bias β added to every row. -/
def dense {a b : Nat} (X : ι → Fin a → EReal) (W : Fin a → Fin b → EReal) (β : Fin b → EReal) : ι → Fin b → EReal :=
  fun r j => sil (lin X W r j + β j)

/-- A residual pair: X + dense (dense X). -/
def resid {a : Nat} (X : ι → Fin a → EReal) (W₁ : Fin a → Fin a → EReal) (β₁ : Fin a → EReal)
    (W₂ : Fin a → Fin a → EReal) (β₂ : Fin a → EReal) : ι → Fin a → EReal :=
  fun r j => X r j + dense (dense X W₁ β₁) W₂ β₂ r j

/-- The gated down-projection of an edge: silu ((dense M Wkj bkj ⊙ E) · Wd), E the radial embedding of the edge. -/
def gate (M E : ι → Fin 128 → EReal) (Wkj : Fin 128 → Fin 128 → EReal) (bkj : Fin 128 → EReal)
    (Wd : Fin 128 → Fin 64 → EReal) : ι → Fin 64 → EReal :=
  fun r j => sil (lin (fun r k => dense M Wkj bkj r k * E r k) Wd r j)

/-- The update of an edge from its aggregated messages A and its own embedding M: the up-projection joined with the
    edge's own dense layer, one residual pair, the final dense layer added to M, two residual pairs. -/
def post (A : ι → Fin 64 → EReal) (M : ι → Fin 128 → EReal)
    (Wji : Fin 128 → Fin 128 → EReal) (bji : Fin 128 → EReal) (Wup : Fin 64 → Fin 128 → EReal)
    (B₁ : Fin 128 → Fin 128 → EReal) (b₁ : Fin 128 → EReal) (B₂ : Fin 128 → Fin 128 → EReal) (b₂ : Fin 128 → EReal)
    (Wf : Fin 128 → Fin 128 → EReal) (bf : Fin 128 → EReal)
    (C₁ : Fin 128 → Fin 128 → EReal) (c₁ : Fin 128 → EReal) (C₂ : Fin 128 → Fin 128 → EReal) (c₂ : Fin 128 → EReal)
    (D₁ : Fin 128 → Fin 128 → EReal) (d₁ : Fin 128 → EReal) (D₂ : Fin 128 → Fin 128 → EReal) (d₂ : Fin 128 → EReal) :
    ι → Fin 128 → EReal :=
  resid (resid (fun r j => M r j +
      dense (resid (fun r j => sil (lin A Wup r j) + dense M Wji bji r j) B₁ b₁ B₂ b₂) Wf bf r j) C₁ c₁ C₂ c₂) D₁ d₁ D₂ d₂

/-- Every layer acts on each row by itself: restricting the rows first or afterwards is the same. -/
theorem post_comp {κ : Type} (e : κ → ι) (A : ι → Fin 64 → EReal) (M : ι → Fin 128 → EReal)
    (Wji bji Wup B₁ b₁ B₂ b₂ Wf bf C₁ c₁ C₂ c₂ D₁ d₁ D₂ d₂) :
    post (fun r => A (e r)) (fun r => M (e r)) Wji bji Wup B₁ b₁ B₂ b₂ Wf bf C₁ c₁ C₂ c₂ D₁ d₁ D₂ d₂
      = fun r => post A M Wji bji Wup B₁ b₁ B₂ b₂ Wf bf C₁ c₁ C₂ c₂ D₁ d₁ D₂ d₂ (e r) := rfl

theorem gate_comp {κ : Type} (e : κ → ι) (M E : ι → Fin 128 → EReal) (Wkj bkj Wd) :
    gate (fun r => M (e r)) (fun r => E (e r)) Wkj bkj Wd = fun r => gate M E Wkj bkj Wd (e r) := rfl

theorem lin_comp {κ : Type} {a b : Nat} (e : κ → ι) (X : ι → Fin a → EReal) (W : Fin a → Fin b → EReal) :
    lin (fun r => X (e r)) W = fun r => lin X W (e r) := rfl

end Cert.Net

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibKernelRows.lean ====
/-
  The rows of the vector operations a row-wise kernel body is made of.

  Each body works on a block of n rows. Every operation in it is either pointwise, or a matrix product of the block
  with a weight matrix accumulated into the zero block, or a weight row repeated down the block. Read as a family of
  rows, a pointwise operation acts on each entry of each row, the product is the row family times the matrix, and the
  repeated row is the constant family. Rounding to a narrower format is the identity over the extended reals, so it
  disappears from the rows. A stack of one matrix, or of one row, with its unit axis dropped is that member.
-/
import Idealize.ShloMosaic.Lib.ValueLayout
import proofs.«143475_j11940009083127_2_alg».proof.Proof.LibRowLayers
import proofs.«143475_j11940009083127_2_alg».proof.Proof.LibPlainMatmul

noncomputable section

namespace Cert.KernelIdeal.Bodies

open Idealize.ShloMosaic Idealize.ShloMosaic.ValueIdx Cert.Net

variable {n a b : Nat} {φ φ₁ φ₂ : FTy}

/-- Rounding to a narrower format leaves every row as it was. -/
theorem rows_truncf {ψ : FTy} (X : FVec Ideal ⟨2, ![n, a]⟩ φ) (h : ψ.bits < φ.bits) :
    rows (truncf ψ X h) = rows X := rfl

/-- A pointwise product multiplies the rows entry by entry. -/
theorem rows_mulf (A B : FVec Ideal ⟨2, ![n, a]⟩ φ) :
    rows (mulf A B) = fun r k => rows A r k * rows B r k := rfl

/-- A pointwise sum adds the rows entry by entry. -/
theorem rows_addf (A B : FVec Ideal ⟨2, ![n, a]⟩ φ) :
    rows (addf A B) = fun r k => rows A r k + rows B r k := rfl

/-- The logistic function is applied to each entry of each row. -/
theorem rows_logistic (A : FVec Ideal ⟨2, ![n, a]⟩ φ) :
    rows (logistic A) = fun r k => Ideal.logistic (rows A r k) := rfl

/-- A block times a matrix, accumulated into the zero block: row r of the result is row r of the block times the
    matrix. -/
theorem rows_matmul (prec : Option ContractPrecision) (A : FVec Ideal ⟨2, ![n, a]⟩ φ₁) (B : FVec Ideal ⟨2, ![a, b]⟩ φ₂) :
    rows (matmul (DotDims.plain n a b) prec A B (constant ⟨2, ![n, b]⟩ .f32 0x00000000#32)) = lin (rows A) (rows B) := by
  funext r j
  exact Cert.Lib.matmul_plain_zero_apply prec A B r j

/-- A length-b array viewed as one row and repeated down n rows: every row is that array. -/
theorem rows_bias (v : (⟨1, ![b]⟩ : Shape).Idx → EReal) (hs : (⟨1, ![b]⟩ : Shape).ShapeCasts ⟨2, ![1, b]⟩)
    (hb : (⟨2, ![1, b]⟩ : Shape).Broadcasts ⟨2, ![n, b]⟩) :
    rows (broadcastTo ⟨2, ![n, b]⟩ (shapeCast ⟨2, ![1, b]⟩ v hs) hb) = fun _ j => vec v j := by
  funext r j
  show broadcastTo ⟨2, ![n, b]⟩ (shapeCast ⟨2, ![1, b]⟩ v hs) hb (ix2 r j) = v (ix1 j)
  rw [broadcastTo_1b_ab_apply, shapeCast_a_1a_apply]

/-- A stack of one matrix with its unit axis dropped is member 0 of the stack. -/
theorem rows_dropUnit (x : (⟨3, ![1, a, b]⟩ : Shape).Idx → EReal) (h : (⟨3, ![1, a, b]⟩ : Shape).ShapeCasts ⟨2, ![a, b]⟩) :
    rows (shapeCast ⟨2, ![a, b]⟩ x h) = mat3 x 0 := by
  funext i j
  exact shapeCast_1ab_ab_apply x h i j

/-- A one-row array with its unit axis dropped is row 0. -/
theorem vec_dropUnit (x : (⟨2, ![1, b]⟩ : Shape).Idx → EReal) (h : (⟨2, ![1, b]⟩ : Shape).ShapeCasts ⟨1, ![b]⟩) :
    vec (shapeCast ⟨1, ![b]⟩ x h) = row2 x 0 := by
  funext j
  exact shapeCast_1a_a_apply x h j

end Cert.KernelIdeal.Bodies

end
-- ==== Proof.KernelBody0.lean ====
/-
  The edge gate, one block of rows.

  The body embeds the radial basis of each edge (block times a 6 by 128 matrix), passes the edge embedding through a
  dense layer, multiplies the two entry by entry, projects down to 64 coordinates and applies silu. Every step acts on
  each row of the block by itself, so the block the body leaves has, as its rows, the gate of the rows it read.
-/
import proofs.«143475_j11940009083127_2_alg».proof.Proof.Gen.KernelIdeal.Frame
import proofs.«143475_j11940009083127_2_alg».proof.Proof.LibKernelRows

noncomputable section

namespace Cert.KernelIdeal.Bodies

open Idealize.ShloMosaic Idealize.ShloMosaic.ValueIdx Cert.Net Cert.KernelIdeal

/-- The three products of the body are plain [m, k] by [k, n] products. -/
theorem dot_4096x6x128 : dot_S4096x6_S6x128_S4096x128_1_0_0_1_n_n = DotDims.plain 4096 6 128 := rfl
theorem dot_4096x128x128 : dot_S4096x128_S128x128_S4096x128_1_0_0_1_n_n = DotDims.plain 4096 128 128 := rfl
theorem dot_4096x128x64 : dot_S4096x128_S128x64_S4096x64_1_0_0_1_n_n = DotDims.plain 4096 128 64 := rfl

/-- The rows of the value the body stores: the gate of the rows of the values it loaded. -/
theorem rows_k0_pay1 (v0 : Vec Ideal S4096x128 .f32) (v2 : Vec Ideal S4096x6 .f32) (v4 : Vec Ideal S6x128 .f32)
    (v8 : Vec Ideal S128x128 .f32) (v10 : Vec Ideal S128 .f32) (v19 : Vec Ideal S128x64 .f32) :
    rows (Gen.k0_pay1 (F := Ideal) v0 v2 v4 v8 v10 v19)
      = gate (rows v0) (lin (rows v2) (rows v4)) (rows v8) (vec v10) (rows v19) := by
  unfold Gen.k0_pay1
  simp only [dot_4096x6x128, dot_4096x128x128, dot_4096x128x64, shapeCast_self, rows_mulf, rows_addf, rows_logistic,
    rows_matmul, rows_truncf, rows_bias]
  rfl

/-- The block the body leaves: its rows are the gate of the rows of the blocks it read. -/
theorem body0 (x0 : Vec Ideal S4096x128 .f32) (x1 : Vec Ideal S4096x6 .f32) (x2 : Vec Ideal S6x128 .f32)
    (x3 : Vec Ideal S128x128 .f32) (x4 : Vec Ideal S128 .f32) (x5 : Vec Ideal S128x64 .f32) :
    rows (Gen.out0_6 (F := Ideal) x0 x1 x2 x3 x4 x5)
      = gate (rows x0) (lin (rows x1) (rows x2)) (rows x3) (vec x4) (rows x5) := by
  have hz2 : (![0, 0] : Fin 2 → Nat) = fun _ => 0 := by funext a; fin_cases a <;> rfl
  have hz1 : (![0] : Fin 1 → Nat) = fun _ => 0 := by funext a; fin_cases a; rfl
  unfold Gen.out0_6
  rw [View.canon_unit_zero hz2]
  simp only [View.ld_unit_zero (S := S4096x128) hz2, View.ld_unit_zero (S := S4096x6) hz2,
    View.ld_unit_zero (S := S6x128) hz2, View.ld_unit_zero (S := S128x128) hz2, View.ld_unit_zero (S := S128) hz1,
    View.ld_unit_zero (S := S128x64) hz2]
  exact rows_k0_pay1 x0 x1 x2 x3 x4 x5

end Cert.KernelIdeal.Bodies

end
-- ==== Proof.LibRowBlocks.lean ====
/-
  Reading a block of rows out of an array.

  A window that tiles an [N, d] array by blocks of n rows embeds block index (p, k) at array index (off + p, k). Read through
  such an embedding, the block's rows are rows off, …, off + n - 1 of the array. A window that holds its whole array embeds
  every index at itself and reads the array back.
-/
import proofs.«143475_j11940009083127_2_alg».proof.Proof.LibRowLayers

noncomputable section

namespace Cert.Net

open Idealize.ShloMosaic Idealize.ShloMosaic.ValueIdx

/-- Row p of a block of n rows starting at row off is row off + p of the array. -/
theorem rows_read {n N d : Nat} (A : (⟨2, ![N, d]⟩ : Shape).Idx → EReal)
    (emb : (⟨2, ![n, d]⟩ : Shape).Idx → (⟨2, ![N, d]⟩ : Shape).Idx) (off : Nat) (hoff : off + n ≤ N)
    (h0 : ∀ y, (emb y 0).val = off + (y 0).val) (h1 : ∀ y, (emb y 1).val = (y 1).val) :
    rows (fun y => A (emb y)) = fun p => rows A ⟨off + p.val, by have := p.isLt; omega⟩ := by
  funext p k
  show A (emb (ix2 p k)) = A (ix2 _ k)
  refine congrArg A (funext fun a => Fin.ext ?_)
  match a with
  | ⟨0, _⟩ => exact h0 (ix2 p k)
  | ⟨1, _⟩ => exact h1 (ix2 p k)

/-- A window over its whole array reads the array back. -/
theorem read_whole {s : Shape} (A : s.Idx → EReal) (emb : s.Idx → s.Idx) (h : ∀ y a, (emb y a).val = (y a).val) :
    (fun y => A (emb y)) = A :=
  funext fun y => congrArg A (funext fun a => Fin.ext (h y a))

end Cert.Net

end
-- ==== Proof.KernelArray0.lean ====
/-
  Region 0's result array.

  The first region walks the 262144 edges in 64 blocks of 4096 rows. Point t reads rows 4096 t, …, 4096 t + 4095 of the
  edge embeddings and of the radial basis, and the whole of the four weight arrays; what it writes back is the gated
  down-projection of exactly those rows. The gate acts on each row by itself, so block t of the result is block t of one
  whole-array function of the arrays the region finds, and the 64 blocks tile the result.
-/
import proofs.«143475_j11940009083127_2_alg».proof.Proof.Gen.KernelIdeal.Frame
import proofs.«143475_j11940009083127_2_alg».proof.Proof.KernelBody0
import proofs.«143475_j11940009083127_2_alg».proof.Proof.LibRowLayers
import proofs.«143475_j11940009083127_2_alg».proof.Proof.LibRowBlocks
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Bodies Cert.Net
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps of region 0 over its 64 points: the three row-tiled windows sit at row block t, column
    block 0; the four weight windows at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The first row of point t's block of 4096 rows. -/
def row0 (t : Fin cfg0.N) (p : Fin 4096) : Fin 262144 :=
  ⟨t.val * 4096 + p.val, by have := lt_of_lt_of_eq t.isLt N_0; have := p.isLt; omega⟩

theorem blk0_0 (c : Dev nD) (t : Fin cfg0.N) : rows (iblk0 V c 0 t) = fun p => rows (V c main_arg0) (row0 t p) := by
  obtain ⟨e00, e01, -⟩ := idx0 t
  have ht := lt_of_lt_of_eq t.isLt N_0
  exact rows_read (n := 4096) (N := 262144) (d := 128) (V c main_arg0) (((cfg0.win 0).blk t).view.emb) (t.val * 4096) (by omega)
    (fun y => by show win0_0.index t (0 : Fin 2) * 4096 + 1 * (y 0).val = t.val * 4096 + (y 0).val; omega)
    (fun y => by show win0_0.index t (1 : Fin 2) * 128 + 1 * (y 1).val = (y 1).val; omega)

theorem blk0_1 (c : Dev nD) (t : Fin cfg0.N) : rows (iblk0 V c 1 t) = fun p => rows (V c main_arg1) (row0 t p) := by
  obtain ⟨-, -, e10, e11, -⟩ := idx0 t
  have ht := lt_of_lt_of_eq t.isLt N_0
  exact rows_read (n := 4096) (N := 262144) (d := 6) (V c main_arg1) (((cfg0.win 1).blk t).view.emb) (t.val * 4096) (by omega)
    (fun y => by show win0_1.index t (0 : Fin 2) * 4096 + 1 * (y 0).val = t.val * 4096 + (y 0).val; omega)
    (fun y => by show win0_1.index t (1 : Fin 2) * 6 + 1 * (y 1).val = (y 1).val; omega)

theorem blk0_2 (c : Dev nD) (t : Fin cfg0.N) : iblk0 V c 2 t = V c main_v0 := by
  obtain ⟨-, -, -, -, e20, e21, -⟩ := idx0 t
  exact read_whole (s := S6x128) (V c main_v0) (((cfg0.win 2).blk t).view.emb) fun y a => by
    match a with
    | ⟨0, _⟩ => show win0_2.index t (0 : Fin 2) * 6 + 1 * (y 0).val = (y 0).val; omega
    | ⟨1, _⟩ => show win0_2.index t (1 : Fin 2) * 128 + 1 * (y 1).val = (y 1).val; omega

theorem blk0_3 (c : Dev nD) (t : Fin cfg0.N) : iblk0 V c 3 t = V c main_arg11 := by
  obtain ⟨-, -, -, -, -, -, e30, e31, -⟩ := idx0 t
  exact read_whole (s := S128x128) (V c main_arg11) (((cfg0.win 3).blk t).view.emb) fun y a => by
    match a with
    | ⟨0, _⟩ => show win0_3.index t (0 : Fin 2) * 128 + 1 * (y 0).val = (y 0).val; omega
    | ⟨1, _⟩ => show win0_3.index t (1 : Fin 2) * 128 + 1 * (y 1).val = (y 1).val; omega

theorem blk0_4 (c : Dev nD) (t : Fin cfg0.N) : iblk0 V c 4 t = V c main_arg12 := by
  obtain ⟨-, -, -, -, -, -, -, -, e40, -⟩ := idx0 t
  exact read_whole (s := S128) (V c main_arg12) (((cfg0.win 4).blk t).view.emb) fun y a => by
    match a with
    | ⟨0, _⟩ => show win0_4.index t (0 : Fin 1) * 128 + 1 * (y 0).val = (y 0).val; omega

theorem blk0_5 (c : Dev nD) (t : Fin cfg0.N) : iblk0 V c 5 t = V c main_arg13 := by
  obtain ⟨-, -, -, -, -, -, -, -, -, e50, e51, -⟩ := idx0 t
  exact read_whole (s := S128x64) (V c main_arg13) (((cfg0.win 5).blk t).view.emb) fun y a => by
    match a with
    | ⟨0, _⟩ => show win0_5.index t (0 : Fin 2) * 128 + 1 * (y 0).val = (y 0).val; omega
    | ⟨1, _⟩ => show win0_5.index t (1 : Fin 2) * 64 + 1 * (y 1).val = (y 1).val; omega

/-- Region 0's result array as one function of the arrays the region finds. -/
def G0 (c : Dev nD) : S262144x64.Idx → EReal :=
  unrows (gate (rows (V c main_arg0)) (lin (rows (V c main_arg1)) (rows (V c main_v0))) (rows (V c main_arg11))
    (vec (V c main_arg12)) (rows (V c main_arg13)))

theorem blk0_6 (c : Dev nD) (t : Fin cfg0.N) :
    rows (fun y : S4096x64.Idx => G0 V c (((cfg0.win 6).blk t).view.emb y)) = fun p => rows (G0 V c) (row0 t p) := by
  obtain ⟨-, -, -, -, -, -, -, -, -, -, -, e60, e61⟩ := idx0 t
  have ht := lt_of_lt_of_eq t.isLt N_0
  exact rows_read (n := 4096) (N := 262144) (d := 64) (G0 V c) (((cfg0.win 6).blk t).view.emb) (t.val * 4096) (by omega)
    (fun y => by show win0_6.index t (0 : Fin 2) * 4096 + 1 * (y 0).val = t.val * 4096 + (y 0).val; omega)
    (fun y => by show win0_6.index t (1 : Fin 2) * 64 + 1 * (y 1).val = (y 1).val; omega)

set_option maxHeartbeats 1000000 in
/-- What point t writes back is block t of the whole-array function. -/
theorem flushed0 (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  show (out0_6 (iblk0 V c 0 t) (iblk0 V c 1 t) (iblk0 V c 2 t) (iblk0 V c 3 t) (iblk0 V c 4 t) (iblk0 V c 5 t) : S4096x64.Idx → EReal)
    = fun y : S4096x64.Idx => G0 V c (((cfg0.win 6).blk t).view.emb y)
  refine ext_rows ?_
  rw [body0, blk0_0, blk0_1, blk0_2, blk0_3, blk0_4, blk0_5, blk0_6]
  rfl

/-- An index of the result array is in point t's block iff each coordinate is in the block's range on its axis. -/
theorem mem_blk0 (t : Fin cfg0.N) (i : S262144x64.Idx) :
    i ∈ ((cfg0.win 6).blk t).view.set ↔ ∀ a : Fin 2, win0_6.index t a * S4096x64.size a ≤ (i a).val ∧ (i a).val < win0_6.index t a * S4096x64.size a + S4096x64.size a := by
  show i ∈ ((View.whole main_v2).slice (win0_6.rect t)).set ↔ _
  rw [View.set_slice_whole, Rect.mem_set_unit]
  exact Iff.rfl

/-- Row r of the result lies in the block of point r / 4096. -/
theorem cover0 (i : S262144x64.Idx) :
    ∃ t : Fin cfg0.N, (cfg0.win 6).flush t = true ∧ i ∈ ((cfg0.win 6).blk t).view.set := by
  have hi0 : (i 0).val < 262144 := (i 0).isLt
  have hi1 : (i 1).val < 64 := (i 1).isLt
  have hq : (i 0).val / 4096 < 64 := by omega
  obtain ⟨-, -, -, -, -, -, -, -, -, -, -, e60, e61⟩ := idx0 ⟨(i 0).val / 4096, lt_of_lt_of_eq hq N_0.symm⟩
  refine ⟨⟨(i 0).val / 4096, lt_of_lt_of_eq hq N_0.symm⟩, flush0_6 _, ?_⟩
  rw [mem_blk0]
  intro a
  match a with
  | ⟨0, _⟩ =>
    show win0_6.index ⟨(i 0).val / 4096, lt_of_lt_of_eq hq N_0.symm⟩ (0 : Fin 2) * 4096 ≤ (i 0).val
      ∧ (i 0).val < win0_6.index ⟨(i 0).val / 4096, lt_of_lt_of_eq hq N_0.symm⟩ (0 : Fin 2) * 4096 + 4096
    rw [e60]
    show (i 0).val / 4096 * 4096 ≤ (i 0).val ∧ (i 0).val < (i 0).val / 4096 * 4096 + 4096
    omega
  | ⟨1, _⟩ =>
    show win0_6.index ⟨(i 0).val / 4096, lt_of_lt_of_eq hq N_0.symm⟩ (1 : Fin 2) * 64 ≤ (i 1).val
      ∧ (i 1).val < win0_6.index ⟨(i 0).val / 4096, lt_of_lt_of_eq hq N_0.symm⟩ (1 : Fin 2) * 64 + 64
    rw [e61]
    omega

/-- After the region its result array holds the gated down-projection of every edge. -/
theorem final0 (c : Dev nD) : (dat0 V c).arrAt 6 cfg0.N = G0 V c :=
  (dat0 V c).arrAt_eq_of_cover 6 (G0 V c) (fun t _ => flushed0 V c t) (cover0)

end Cert.KernelIdeal.Arrays

end
-- ==== Proof.KernelBody1.lean ====
/-
  The angular embedding times the gathered rows, one block of rows.

  The body embeds the angular basis of each triplet (block times a 42 by 64 matrix) and multiplies the result entry by
  entry with the block of gathered rows. Both steps act on each row by itself.
-/
import proofs.«143475_j11940009083127_2_alg».proof.Proof.Gen.KernelIdeal.Frame
import proofs.«143475_j11940009083127_2_alg».proof.Proof.LibKernelRows

noncomputable section

namespace Cert.KernelIdeal.Bodies

open Idealize.ShloMosaic Idealize.ShloMosaic.ValueIdx Cert.Net Cert.KernelIdeal

/-- The body's product is a plain [m, k] by [k, n] product. -/
theorem dot_8192x42x64 : dot_S8192x42_S42x64_S8192x64_1_0_0_1_n_n = DotDims.plain 8192 42 64 := rfl

/-- The rows of the value the body stores: the embedded rows times the gathered rows. -/
theorem rows_k1_pay1 (v0 : Vec Ideal S8192x42 .f32) (v2 : Vec Ideal S42x64 .f32) (v6 : Vec Ideal S8192x64 .f32) :
    rows (Gen.k1_pay1 (F := Ideal) v0 v2 v6) = fun r j => lin (rows v0) (rows v2) r j * rows v6 r j := by
  unfold Gen.k1_pay1
  simp only [dot_8192x42x64, shapeCast_self, rows_mulf, rows_matmul, rows_truncf]

/-- The block the body leaves: row r is row r of the embedded block times row r of the gathered block. -/
theorem body1 (x0 : Vec Ideal S8192x42 .f32) (x1 : Vec Ideal S8192x64 .f32) (x2 : Vec Ideal S42x64 .f32) :
    rows (Gen.out1_3 (F := Ideal) x0 x1 x2) = fun r j => lin (rows x0) (rows x2) r j * rows x1 r j := by
  have hz2 : (![0, 0] : Fin 2 → Nat) = fun _ => 0 := by funext a; fin_cases a <;> rfl
  unfold Gen.out1_3
  rw [View.canon_unit_zero hz2]
  simp only [View.ld_unit_zero (S := S8192x42) hz2, View.ld_unit_zero (S := S42x64) hz2,
    View.ld_unit_zero (S := S8192x64) hz2]
  exact rows_k1_pay1 x0 x2 x1

end Cert.KernelIdeal.Bodies

end
-- ==== Proof.KernelArray1.lean ====
/-
  Region 1's result array.

  The second region walks the 2097152 triplets in 256 blocks of 8192 rows. Point t reads rows 8192 t, …, 8192 t + 8191 of the
  angular basis and of the gathered edge rows, and the whole folded weight matrix; it writes back, row by row, the basis
  row times the matrix, multiplied entry by entry with the gathered row. Block t of the result is block t of one
  whole-array function, and the 256 blocks tile the result.
-/
import proofs.«143475_j11940009083127_2_alg».proof.Proof.Gen.KernelIdeal.Frame
import proofs.«143475_j11940009083127_2_alg».proof.Proof.KernelBody1
import proofs.«143475_j11940009083127_2_alg».proof.Proof.LibRowLayers
import proofs.«143475_j11940009083127_2_alg».proof.Proof.LibRowBlocks
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Bodies Cert.Net
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps of region 1 over its 256 points: the three row-tiled windows sit at row block t, column
    block 0; the weight window at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's block of 8192 rows. -/
def row1 (t : Fin cfg1.N) (p : Fin 8192) : Fin 2097152 :=
  ⟨t.val * 8192 + p.val, by have := lt_of_lt_of_eq t.isLt N_1; have := p.isLt; omega⟩

theorem blk1_0 (c : Dev nD) (t : Fin cfg1.N) : rows (iblk1 V c 0 t) = fun p => rows (V c main_arg2) (row1 t p) := by
  obtain ⟨e00, e01, -⟩ := idx1 t
  have ht := lt_of_lt_of_eq t.isLt N_1
  exact rows_read (n := 8192) (N := 2097152) (d := 42) (V c main_arg2) (((cfg1.win 0).blk t).view.emb) (t.val * 8192) (by omega)
    (fun y => by show win1_0.index t (0 : Fin 2) * 8192 + 1 * (y 0).val = t.val * 8192 + (y 0).val; omega)
    (fun y => by show win1_0.index t (1 : Fin 2) * 42 + 1 * (y 1).val = (y 1).val; omega)

theorem blk1_1 (c : Dev nD) (t : Fin cfg1.N) : rows (iblk1 V c 1 t) = fun p => rows (V c main_v9) (row1 t p) := by
  obtain ⟨-, -, e10, e11, -⟩ := idx1 t
  have ht := lt_of_lt_of_eq t.isLt N_1
  exact rows_read (n := 8192) (N := 2097152) (d := 64) (V c main_v9) (((cfg1.win 1).blk t).view.emb) (t.val * 8192) (by omega)
    (fun y => by show win1_1.index t (0 : Fin 2) * 8192 + 1 * (y 0).val = t.val * 8192 + (y 0).val; omega)
    (fun y => by show win1_1.index t (1 : Fin 2) * 64 + 1 * (y 1).val = (y 1).val; omega)

theorem blk1_2 (c : Dev nD) (t : Fin cfg1.N) : iblk1 V c 2 t = V c main_v1 := by
  obtain ⟨-, -, -, -, e20, e21, -⟩ := idx1 t
  exact read_whole (s := S42x64) (V c main_v1) (((cfg1.win 2).blk t).view.emb) fun y a => by
    match a with
    | ⟨0, _⟩ => show win1_2.index t (0 : Fin 2) * 42 + 1 * (y 0).val = (y 0).val; omega
    | ⟨1, _⟩ => show win1_2.index t (1 : Fin 2) * 64 + 1 * (y 1).val = (y 1).val; omega

/-- Region 1's result array as one function of the arrays the region finds. -/
def G1 (c : Dev nD) : S2097152x64.Idx → EReal :=
  unrows (fun r j => lin (rows (V c main_arg2)) (rows (V c main_v1)) r j * rows (V c main_v9) r j)

theorem blk1_3 (c : Dev nD) (t : Fin cfg1.N) :
    rows (fun y : S8192x64.Idx => G1 V c (((cfg1.win 3).blk t).view.emb y)) = fun p => rows (G1 V c) (row1 t p) := by
  obtain ⟨-, -, -, -, -, -, e30, e31⟩ := idx1 t
  have ht := lt_of_lt_of_eq t.isLt N_1
  exact rows_read (n := 8192) (N := 2097152) (d := 64) (G1 V c) (((cfg1.win 3).blk t).view.emb) (t.val * 8192) (by omega)
    (fun y => by show win1_3.index t (0 : Fin 2) * 8192 + 1 * (y 0).val = t.val * 8192 + (y 0).val; omega)
    (fun y => by show win1_3.index t (1 : Fin 2) * 64 + 1 * (y 1).val = (y 1).val; omega)

set_option maxHeartbeats 1000000 in
/-- What point t writes back is block t of the whole-array function. -/
theorem flushed1 (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  show (out1_3 (iblk1 V c 0 t) (iblk1 V c 1 t) (iblk1 V c 2 t) : S8192x64.Idx → EReal)
    = fun y : S8192x64.Idx => G1 V c (((cfg1.win 3).blk t).view.emb y)
  refine ext_rows ?_
  rw [body1, blk1_0, blk1_1, blk1_2, blk1_3]
  rfl

/-- An index of the result array is in point t's block iff each coordinate is in the block's range on its axis. -/
theorem mem_blk1 (t : Fin cfg1.N) (i : S2097152x64.Idx) :
    i ∈ ((cfg1.win 3).blk t).view.set ↔ ∀ a : Fin 2, win1_3.index t a * S8192x64.size a ≤ (i a).val ∧ (i a).val < win1_3.index t a * S8192x64.size a + S8192x64.size a := by
  show i ∈ ((View.whole main_v10).slice (win1_3.rect t)).set ↔ _
  rw [View.set_slice_whole, Rect.mem_set_unit]
  exact Iff.rfl

/-- Row r of the result lies in the block of point r / 8192. -/
theorem cover1 (i : S2097152x64.Idx) :
    ∃ t : Fin cfg1.N, (cfg1.win 3).flush t = true ∧ i ∈ ((cfg1.win 3).blk t).view.set := by
  have hi0 : (i 0).val < 2097152 := (i 0).isLt
  have hi1 : (i 1).val < 64 := (i 1).isLt
  have hq : (i 0).val / 8192 < 256 := by omega
  obtain ⟨-, -, -, -, -, -, e30, e31⟩ := idx1 ⟨(i 0).val / 8192, lt_of_lt_of_eq hq N_1.symm⟩
  refine ⟨⟨(i 0).val / 8192, lt_of_lt_of_eq hq N_1.symm⟩, flush1_3 _, ?_⟩
  rw [mem_blk1]
  intro a
  match a with
  | ⟨0, _⟩ =>
    show win1_3.index ⟨(i 0).val / 8192, lt_of_lt_of_eq hq N_1.symm⟩ (0 : Fin 2) * 8192 ≤ (i 0).val
      ∧ (i 0).val < win1_3.index ⟨(i 0).val / 8192, lt_of_lt_of_eq hq N_1.symm⟩ (0 : Fin 2) * 8192 + 8192
    rw [e30]
    show (i 0).val / 8192 * 8192 ≤ (i 0).val ∧ (i 0).val < (i 0).val / 8192 * 8192 + 8192
    omega
  | ⟨1, _⟩ =>
    show win1_3.index ⟨(i 0).val / 8192, lt_of_lt_of_eq hq N_1.symm⟩ (1 : Fin 2) * 64 ≤ (i 1).val
      ∧ (i 1).val < win1_3.index ⟨(i 0).val / 8192, lt_of_lt_of_eq hq N_1.symm⟩ (1 : Fin 2) * 64 + 64
    rw [e31]
    omega

/-- After the region its result array holds every triplet's message. -/
theorem final1 (c : Dev nD) : (dat1 V c).arrAt 3 cfg1.N = G1 V c :=
  (dat1 V c).arrAt_eq_of_cover 3 (G1 V c) (fun t _ => flushed1 V c t) (cover1)

end Cert.KernelIdeal.Arrays

end
-- ==== Proof.KernelBody2Values.lean ====
/-
  The post-processing body, one stored value at a time.

  The body computes, for a block of 4096 rows, a chain of dense layers and residual pairs. Its arithmetic is cut into
  seven named values, each a function of the loaded blocks and of the values before it. Here each one is read as a
  family of rows in terms of the rows of its own arguments only: an argument that is itself one of the seven values
  stays a variable, so every statement holds one or two layers and no more.
-/
import proofs.«143475_j11940009083127_2_alg».proof.Proof.Gen.KernelIdeal.Frame
import proofs.«143475_j11940009083127_2_alg».proof.Proof.LibKernelRows

noncomputable section

namespace Cert.KernelIdeal.Bodies

open Idealize.ShloMosaic Idealize.ShloMosaic.ValueIdx Cert.Net Cert.KernelIdeal

/-- The body's products are plain [m, k] by [k, n] products. -/
theorem dot2_4096x128x128 : dot_S4096x128_S128x128_S4096x128_1_0_0_1_n_n = DotDims.plain 4096 128 128 := rfl
theorem dot2_4096x64x128 : dot_S4096x64_S64x128_S4096x128_1_0_0_1_n_n = DotDims.plain 4096 64 128 := rfl

/-- The up-projected aggregate (silu of the aggregated rows times the up-projection) plus the edge's own dense layer. -/
theorem rows_k2_pay2 (v0 : Vec Ideal S4096x128 .f32) (v1 : Vec Ideal S128x128 .f32) (v3 : Vec Ideal S128 .f32)
    (v11 : Vec Ideal S4096x64 .f32) (v14 : Vec Ideal S64x128 .f32) :
    rows (Gen.k2_pay2 (F := Ideal) v0 v1 v3 v11 v14)
      = fun r j => sil (lin (rows v11) (rows v14) r j) + dense (rows v0) (rows v1) (vec v3) r j := by
  unfold Gen.k2_pay2
  simp only [dot2_4096x128x128, dot2_4096x64x128, shapeCast_self, rows_mulf, rows_addf, rows_logistic, rows_matmul,
    rows_truncf, rows_bias]
  rfl

/-- A weight matrix loaded as a stack of one: member 0. -/
theorem rows_k2_pay3 (v25 : Vec Ideal S1x128x128 .f32) : rows (Gen.k2_pay3 (F := Ideal) v25) = mat3 v25 0 := by
  unfold Gen.k2_pay3
  simp only [rows_truncf, rows_dropUnit]

/-- A bias loaded as an array of one row: row 0. -/
theorem vec_k2_pay4 (v28 : Vec Ideal S1x128 .f32) : vec (Gen.k2_pay4 (F := Ideal) v28) = row2 v28 0 := by
  unfold Gen.k2_pay4
  simp only [vec_dropUnit]

/-- The first dense layer of the first residual pair, applied to the value before it. -/
theorem rows_k2_pay5 (v0 : Vec Ideal S4096x128 .f32) (v1 : Vec Ideal S128x128 .f32) (v3 : Vec Ideal S128 .f32)
    (v11 : Vec Ideal S4096x64 .f32) (v14 : Vec Ideal S64x128 .f32) (v20 : Vec Ideal S1x128x128 .f32)
    (v23 : Vec Ideal S1x128 .f32) :
    rows (Gen.k2_pay5 (F := Ideal) v0 v1 v3 v11 v14 v20 v23)
      = dense (rows (Gen.k2_pay2 (F := Ideal) v0 v1 v3 v11 v14)) (mat3 v20 0) (row2 v23 0) := by
  unfold Gen.k2_pay5
  simp only [dot2_4096x128x128, rows_mulf, rows_addf, rows_logistic, rows_matmul, rows_truncf, rows_bias,
    rows_dropUnit, vec_dropUnit]
  rfl

/-- The second dense layer of the first residual pair added to its input, then the final dense layer added to the
    edge's own embedding. -/
theorem rows_k2_pay6 (v0 : Vec Ideal S4096x128 .f32) (v19 : FVec Ideal S4096x128 .f32) (v27 : FVec Ideal S128x128 .bf16)
    (v29 : FVec Ideal S128 .f32) (v36 : FVec Ideal S4096x128 .f32) (v45 : Vec Ideal S128x128 .f32)
    (v47 : Vec Ideal S128 .f32) :
    rows (Gen.k2_pay6 (F := Ideal) v0 v19 v27 v29 v36 v45 v47)
      = fun r j => rows v0 r j
          + dense (fun r j => rows v19 r j + dense (rows v36) (rows v27) (vec v29) r j) (rows v45) (vec v47) r j := by
  unfold Gen.k2_pay6
  simp only [dot2_4096x128x128, rows_mulf, rows_addf, rows_logistic, rows_matmul, rows_truncf, rows_bias]
  rfl

/-- The two dense layers of the second residual pair, applied to the value before them. -/
theorem rows_k2_pay7 (v0 : Vec Ideal S4096x128 .f32) (v19 : FVec Ideal S4096x128 .f32) (v27 : FVec Ideal S128x128 .bf16)
    (v29 : FVec Ideal S128 .f32) (v36 : FVec Ideal S4096x128 .f32) (v45 : Vec Ideal S128x128 .f32)
    (v47 : Vec Ideal S128 .f32) (v56 : Vec Ideal S1x128x128 .f32) (v59 : Vec Ideal S1x128 .f32)
    (v61 : Vec Ideal S1x128x128 .f32) (v64 : Vec Ideal S1x128 .f32) :
    rows (Gen.k2_pay7 (F := Ideal) v0 v19 v27 v29 v36 v45 v47 v56 v59 v61 v64)
      = dense (dense (rows (Gen.k2_pay6 (F := Ideal) v0 v19 v27 v29 v36 v45 v47)) (mat3 v56 0) (row2 v59 0))
          (mat3 v61 0) (row2 v64 0) := by
  unfold Gen.k2_pay7
  simp only [dot2_4096x128x128, rows_mulf, rows_addf, rows_logistic, rows_matmul, rows_truncf, rows_bias,
    rows_dropUnit, vec_dropUnit]
  rfl

/-- The second residual pair closed (its input plus its two layers), then the third residual pair. -/
theorem rows_k2_pay1 (v55 v79 : FVec Ideal S4096x128 .f32) (v81 : Vec Ideal S1x128x128 .f32) (v84 : Vec Ideal S1x128 .f32)
    (v86 : Vec Ideal S1x128x128 .f32) (v89 : Vec Ideal S1x128 .f32) :
    rows (Gen.k2_pay1 (F := Ideal) v55 v79 v81 v84 v86 v89)
      = resid (fun r j => rows v55 r j + rows v79 r j) (mat3 v81 0) (row2 v84 0) (mat3 v86 0) (row2 v89 0) := by
  unfold Gen.k2_pay1
  simp only [dot2_4096x128x128, rows_mulf, rows_addf, rows_logistic, rows_matmul, rows_truncf, rows_bias,
    rows_dropUnit, vec_dropUnit]
  rfl

end Cert.KernelIdeal.Bodies

end
-- ==== Proof.KernelBody2.lean ====
/-
  The post-processing body, one block of rows.

  The block the body leaves is its last stored value, applied to the whole-block loads of its inputs and, for the two
  stacks of two weight matrices and the two arrays of two bias rows, to the two unit slices of each. A unit slice at
  offset u of a stack, with its unit axis dropped, is member u of the stack. Composing the seven stored values row
  family by row family gives the update of an edge from its aggregated messages and its own embedding.
-/
import proofs.«143475_j11940009083127_2_alg».proof.Proof.KernelBody2Values

noncomputable section

namespace Cert.KernelIdeal.Bodies

open Idealize.ShloMosaic Idealize.ShloMosaic.ValueIdx Cert.Net Cert.KernelIdeal

/-! ## The unit slices of the stacks -/

/-- The slice at offset 0 of a stack of two matrices holds member 0. -/
theorem mat3_ld_0 (x : Vec Ideal S2x128x128 .f32) :
    mat3 (View.ld (Val := Elt Ideal) (e' := .f32) x Gen.r2_7) 0 = mat3 x 0 := by
  funext i j
  show x (Gen.r2_7.idx (ix3 (0 : Fin 1) i j)) = x (ix3 (0 : Fin 2) i j)
  refine congrArg x (funext fun a => Fin.ext ?_)
  rw [LoadRect.idx_apply]
  match a with
  | ⟨0, _⟩ => rfl
  | ⟨1, _⟩ => show 0 + 1 * i.val = i.val; omega
  | ⟨2, _⟩ => show 0 + 1 * j.val = j.val; omega

/-- The slice at offset 1 of a stack of two matrices holds member 1. -/
theorem mat3_ld_1 (x : Vec Ideal S2x128x128 .f32) :
    mat3 (View.ld (Val := Elt Ideal) (e' := .f32) x Gen.r2_9) 0 = mat3 x 1 := by
  funext i j
  show x (Gen.r2_9.idx (ix3 (0 : Fin 1) i j)) = x (ix3 (1 : Fin 2) i j)
  refine congrArg x (funext fun a => Fin.ext ?_)
  rw [LoadRect.idx_apply]
  match a with
  | ⟨0, _⟩ => rfl
  | ⟨1, _⟩ => show 0 + 1 * i.val = i.val; omega
  | ⟨2, _⟩ => show 0 + 1 * j.val = j.val; omega

/-- The slice at offset 0 of an array of two rows holds row 0. -/
theorem row2_ld_0 (x : Vec Ideal S2x128 .f32) :
    row2 (View.ld (Val := Elt Ideal) (e' := .f32) x Gen.r2_8) 0 = row2 x 0 := by
  funext j
  show x (Gen.r2_8.idx (ix2 (0 : Fin 1) j)) = x (ix2 (0 : Fin 2) j)
  refine congrArg x (funext fun a => Fin.ext ?_)
  rw [LoadRect.idx_apply]
  match a with
  | ⟨0, _⟩ => rfl
  | ⟨1, _⟩ => show 0 + 1 * j.val = j.val; omega

/-- The slice at offset 1 of an array of two rows holds row 1. -/
theorem row2_ld_1 (x : Vec Ideal S2x128 .f32) :
    row2 (View.ld (Val := Elt Ideal) (e' := .f32) x Gen.r2_10) 0 = row2 x 1 := by
  funext j
  show x (Gen.r2_10.idx (ix2 (0 : Fin 1) j)) = x (ix2 (1 : Fin 2) j)
  refine congrArg x (funext fun a => Fin.ext ?_)
  rw [LoadRect.idx_apply]
  match a with
  | ⟨0, _⟩ => rfl
  | ⟨1, _⟩ => show 0 + 1 * j.val = j.val; omega

/-! ## The block the body leaves -/

/-- The rows of the block the body leaves are the update of the rows it read: x0 the aggregated messages, x1 the edge
    embeddings, then the weights in the order the layers use them. -/
theorem body2 (x0 : Vec Ideal S4096x64 .f32) (x1 : Vec Ideal S4096x128 .f32) (x2 : Vec Ideal S128x128 .f32)
    (x3 : Vec Ideal S128 .f32) (x4 : Vec Ideal S64x128 .f32) (x5 : Vec Ideal S1x128x128 .f32) (x6 : Vec Ideal S1x128 .f32)
    (x7 : Vec Ideal S1x128x128 .f32) (x8 : Vec Ideal S1x128 .f32) (x9 : Vec Ideal S128x128 .f32) (x10 : Vec Ideal S128 .f32)
    (x11 : Vec Ideal S2x128x128 .f32) (x12 : Vec Ideal S2x128 .f32) (x13 : Vec Ideal S2x128x128 .f32)
    (x14 : Vec Ideal S2x128 .f32) :
    rows (Gen.out2_15 (F := Ideal) x0 x1 x2 x3 x4 x5 x6 x7 x8 x9 x10 x11 x12 x13 x14)
      = post (rows x0) (rows x1) (rows x2) (vec x3) (rows x4) (mat3 x5 0) (row2 x6 0) (mat3 x7 0) (row2 x8 0)
          (rows x9) (vec x10) (mat3 x11 0) (row2 x12 0) (mat3 x13 0) (row2 x14 0)
          (mat3 x11 1) (row2 x12 1) (mat3 x13 1) (row2 x14 1) := by
  have hz1 : (![0] : Fin 1 → Nat) = fun _ => 0 := by funext a; fin_cases a; rfl
  have hz2 : (![0, 0] : Fin 2 → Nat) = fun _ => 0 := by funext a; fin_cases a <;> rfl
  have hz3 : (![0, 0, 0] : Fin 3 → Nat) = fun _ => 0 := by funext a; fin_cases a <;> rfl
  unfold Gen.out2_15
  rw [View.canon_unit_zero hz2]
  simp only [View.ld_unit_zero (S := S4096x128) hz2, View.ld_unit_zero (S := S128x128) hz2,
    View.ld_unit_zero (S := S128) hz1, View.ld_unit_zero (S := S4096x64) hz2, View.ld_unit_zero (S := S64x128) hz2,
    View.ld_unit_zero (S := S1x128x128) hz3, View.ld_unit_zero (S := S1x128) hz2]
  rw [rows_k2_pay1, rows_k2_pay7, rows_k2_pay6, rows_k2_pay5, rows_k2_pay2, rows_k2_pay3, vec_k2_pay4,
    mat3_ld_0, mat3_ld_0, mat3_ld_1, mat3_ld_1, row2_ld_0, row2_ld_0, row2_ld_1, row2_ld_1]
  rfl

end Cert.KernelIdeal.Bodies

end
-- ==== Proof.KernelArray2.lean ====
/-
  Region 2's result array.

  The third region walks the 262144 edges in 64 blocks of 4096 rows. Point t reads rows 4096 t, …, 4096 t + 4095 of the
  aggregated messages and of the edge embeddings, and the whole of the thirteen weight arrays; it writes back the update
  of exactly those rows. The update acts on each row by itself, so block t of the result is block t of one whole-array
  function of the arrays the region finds, and the 64 blocks tile the result.
-/
import proofs.«143475_j11940009083127_2_alg».proof.Proof.Gen.KernelIdeal.Frame
import proofs.«143475_j11940009083127_2_alg».proof.Proof.KernelBody2
import proofs.«143475_j11940009083127_2_alg».proof.Proof.LibRowLayers
import proofs.«143475_j11940009083127_2_alg».proof.Proof.LibRowBlocks
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Bodies Cert.Net
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps of region 2 over its 64 points: the three row-tiled windows sit at row block t, column
    block 0; every weight window at block 0. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 1) = 0
    ∧ win2_4.index t (0 : Fin 2) = 0
    ∧ win2_4.index t (1 : Fin 2) = 0
    ∧ win2_5.index t (0 : Fin 3) = 0
    ∧ win2_5.index t (1 : Fin 3) = 0
    ∧ win2_5.index t (2 : Fin 3) = 0
    ∧ win2_6.index t (0 : Fin 2) = 0
    ∧ win2_6.index t (1 : Fin 2) = 0
    ∧ win2_7.index t (0 : Fin 3) = 0
    ∧ win2_7.index t (1 : Fin 3) = 0
    ∧ win2_7.index t (2 : Fin 3) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 1) = 0
    ∧ win2_11.index t (0 : Fin 3) = 0
    ∧ win2_11.index t (1 : Fin 3) = 0
    ∧ win2_11.index t (2 : Fin 3) = 0
    ∧ win2_12.index t (0 : Fin 2) = 0
    ∧ win2_12.index t (1 : Fin 2) = 0
    ∧ win2_13.index t (0 : Fin 3) = 0
    ∧ win2_13.index t (1 : Fin 3) = 0
    ∧ win2_13.index t (2 : Fin 3) = 0
    ∧ win2_14.index t (0 : Fin 2) = 0
    ∧ win2_14.index t (1 : Fin 2) = 0
    ∧ win2_15.index t (0 : Fin 2) = t.val
    ∧ win2_15.index t (1 : Fin 2) = 0 :=
  (by decide +kernel : ∀ t : Fin grid2.N, _)

/-- Row p of point t's block of 4096 rows. -/
def row2b (t : Fin cfg2.N) (p : Fin 4096) : Fin 262144 :=
  ⟨t.val * 4096 + p.val, by have := lt_of_lt_of_eq t.isLt N_2; have := p.isLt; omega⟩

theorem blk2_0 (c : Dev nD) (t : Fin cfg2.N) : rows (iblk2 V c 0 t) = fun p => rows (V c main_v13) (row2b t p) := by
  obtain ⟨e0, e1, -, -, -, -, -, -, -, -, -, -, -, -, -, -, -, -, -, -, -, -, -, -, -, -, -, -, -, -, -, -, -, -⟩ := idx2 t
  have ht := lt_of_lt_of_eq t.isLt N_2
  exact rows_read (n := 4096) (N := 262144) (d := 64) (V c main_v13) (((cfg2.win 0).blk t).view.emb) (t.val * 4096) (by omega)
    (fun y => by show win2_0.index t (0 : Fin 2) * 4096 + 1 * (y 0).val = t.val * 4096 + (y 0).val; omega)
    (fun y => by show win2_0.index t (1 : Fin 2) * 64 + 1 * (y 1).val = (y 1).val; omega)

theorem blk2_1 (c : Dev nD) (t : Fin cfg2.N) : rows (iblk2 V c 1 t) = fun p => rows (V c main_arg0) (row2b t p) := by
  obtain ⟨-, -, e0, e1, -, -, -, -, -, -, -, -, -, -, -, -, -, -, -, -, -, -, -, -, -, -, -, -, -, -, -, -, -, -⟩ := idx2 t
  have ht := lt_of_lt_of_eq t.isLt N_2
  exact rows_read (n := 4096) (N := 262144) (d := 128) (V c main_arg0) (((cfg2.win 1).blk t).view.emb) (t.val * 4096) (by omega)
    (fun y => by show win2_1.index t (0 : Fin 2) * 4096 + 1 * (y 0).val = t.val * 4096 + (y 0).val; omega)
    (fun y => by show win2_1.index t (1 : Fin 2) * 128 + 1 * (y 1).val = (y 1).val; omega)

theorem blk2_2 (c : Dev nD) (t : Fin cfg2.N) : iblk2 V c 2 t = V c main_arg9 := by
  obtain ⟨-, -, -, -, e0, e1, -, -, -, -, -, -, -, -, -, -, -, -, -, -, -, -, -, -, -, -, -, -, -, -, -, -, -, -⟩ := idx2 t
  exact read_whole (s := S128x128) (V c main_arg9) (((cfg2.win 2).blk t).view.emb) fun y a => by
    match a with
    | ⟨0, _⟩ => show win2_2.index t (0 : Fin 2) * 128 + 1 * (y 0).val = (y 0).val; omega
    | ⟨1, _⟩ => show win2_2.index t (1 : Fin 2) * 128 + 1 * (y 1).val = (y 1).val; omega

theorem blk2_3 (c : Dev nD) (t : Fin cfg2.N) : iblk2 V c 3 t = V c main_arg10 := by
  obtain ⟨-, -, -, -, -, -, e0, -, -, -, -, -, -, -, -, -, -, -, -, -, -, -, -, -, -, -, -, -, -, -, -, -, -, -⟩ := idx2 t
  exact read_whole (s := S128) (V c main_arg10) (((cfg2.win 3).blk t).view.emb) fun y a => by
    match a with
    | ⟨0, _⟩ => show win2_3.index t (0 : Fin 1) * 128 + 1 * (y 0).val = (y 0).val; omega

theorem blk2_4 (c : Dev nD) (t : Fin cfg2.N) : iblk2 V c 4 t = V c main_arg14 := by
  obtain ⟨-, -, -, -, -, -, -, e0, e1, -, -, -, -, -, -, -, -, -, -, -, -, -, -, -, -, -, -, -, -, -, -, -, -, -⟩ := idx2 t
  exact read_whole (s := S64x128) (V c main_arg14) (((cfg2.win 4).blk t).view.emb) fun y a => by
    match a with
    | ⟨0, _⟩ => show win2_4.index t (0 : Fin 2) * 64 + 1 * (y 0).val = (y 0).val; omega
    | ⟨1, _⟩ => show win2_4.index t (1 : Fin 2) * 128 + 1 * (y 1).val = (y 1).val; omega

theorem blk2_5 (c : Dev nD) (t : Fin cfg2.N) : iblk2 V c 5 t = V c main_arg15 := by
  obtain ⟨-, -, -, -, -, -, -, -, -, e0, e1, e2, -, -, -, -, -, -, -, -, -, -, -, -, -, -, -, -, -, -, -, -, -, -⟩ := idx2 t
  exact read_whole (s := S1x128x128) (V c main_arg15) (((cfg2.win 5).blk t).view.emb) fun y a => by
    match a with
    | ⟨0, _⟩ => show win2_5.index t (0 : Fin 3) * 1 + 1 * (y 0).val = (y 0).val; omega
    | ⟨1, _⟩ => show win2_5.index t (1 : Fin 3) * 128 + 1 * (y 1).val = (y 1).val; omega
    | ⟨2, _⟩ => show win2_5.index t (2 : Fin 3) * 128 + 1 * (y 2).val = (y 2).val; omega

theorem blk2_6 (c : Dev nD) (t : Fin cfg2.N) : iblk2 V c 6 t = V c main_arg16 := by
  obtain ⟨-, -, -, -, -, -, -, -, -, -, -, -, e0, e1, -, -, -, -, -, -, -, -, -, -, -, -, -, -, -, -, -, -, -, -⟩ := idx2 t
  exact read_whole (s := S1x128) (V c main_arg16) (((cfg2.win 6).blk t).view.emb) fun y a => by
    match a with
    | ⟨0, _⟩ => show win2_6.index t (0 : Fin 2) * 1 + 1 * (y 0).val = (y 0).val; omega
    | ⟨1, _⟩ => show win2_6.index t (1 : Fin 2) * 128 + 1 * (y 1).val = (y 1).val; omega

theorem blk2_7 (c : Dev nD) (t : Fin cfg2.N) : iblk2 V c 7 t = V c main_arg17 := by
  obtain ⟨-, -, -, -, -, -, -, -, -, -, -, -, -, -, e0, e1, e2, -, -, -, -, -, -, -, -, -, -, -, -, -, -, -, -, -⟩ := idx2 t
  exact read_whole (s := S1x128x128) (V c main_arg17) (((cfg2.win 7).blk t).view.emb) fun y a => by
    match a with
    | ⟨0, _⟩ => show win2_7.index t (0 : Fin 3) * 1 + 1 * (y 0).val = (y 0).val; omega
    | ⟨1, _⟩ => show win2_7.index t (1 : Fin 3) * 128 + 1 * (y 1).val = (y 1).val; omega
    | ⟨2, _⟩ => show win2_7.index t (2 : Fin 3) * 128 + 1 * (y 2).val = (y 2).val; omega

theorem blk2_8 (c : Dev nD) (t : Fin cfg2.N) : iblk2 V c 8 t = V c main_arg18 := by
  obtain ⟨-, -, -, -, -, -, -, -, -, -, -, -, -, -, -, -, -, e0, e1, -, -, -, -, -, -, -, -, -, -, -, -, -, -, -⟩ := idx2 t
  exact read_whole (s := S1x128) (V c main_arg18) (((cfg2.win 8).blk t).view.emb) fun y a => by
    match a with
    | ⟨0, _⟩ => show win2_8.index t (0 : Fin 2) * 1 + 1 * (y 0).val = (y 0).val; omega
    | ⟨1, _⟩ => show win2_8.index t (1 : Fin 2) * 128 + 1 * (y 1).val = (y 1).val; omega

theorem blk2_9 (c : Dev nD) (t : Fin cfg2.N) : iblk2 V c 9 t = V c main_arg19 := by
  obtain ⟨-, -, -, -, -, -, -, -, -, -, -, -, -, -, -, -, -, -, -, e0, e1, -, -, -, -, -, -, -, -, -, -, -, -, -⟩ := idx2 t
  exact read_whole (s := S128x128) (V c main_arg19) (((cfg2.win 9).blk t).view.emb) fun y a => by
    match a with
    | ⟨0, _⟩ => show win2_9.index t (0 : Fin 2) * 128 + 1 * (y 0).val = (y 0).val; omega
    | ⟨1, _⟩ => show win2_9.index t (1 : Fin 2) * 128 + 1 * (y 1).val = (y 1).val; omega

theorem blk2_10 (c : Dev nD) (t : Fin cfg2.N) : iblk2 V c 10 t = V c main_arg20 := by
  obtain ⟨-, -, -, -, -, -, -, -, -, -, -, -, -, -, -, -, -, -, -, -, -, e0, -, -, -, -, -, -, -, -, -, -, -, -⟩ := idx2 t
  exact read_whole (s := S128) (V c main_arg20) (((cfg2.win 10).blk t).view.emb) fun y a => by
    match a with
    | ⟨0, _⟩ => show win2_10.index t (0 : Fin 1) * 128 + 1 * (y 0).val = (y 0).val; omega

theorem blk2_11 (c : Dev nD) (t : Fin cfg2.N) : iblk2 V c 11 t = V c main_arg21 := by
  obtain ⟨-, -, -, -, -, -, -, -, -, -, -, -, -, -, -, -, -, -, -, -, -, -, e0, e1, e2, -, -, -, -, -, -, -, -, -⟩ := idx2 t
  exact read_whole (s := S2x128x128) (V c main_arg21) (((cfg2.win 11).blk t).view.emb) fun y a => by
    match a with
    | ⟨0, _⟩ => show win2_11.index t (0 : Fin 3) * 2 + 1 * (y 0).val = (y 0).val; omega
    | ⟨1, _⟩ => show win2_11.index t (1 : Fin 3) * 128 + 1 * (y 1).val = (y 1).val; omega
    | ⟨2, _⟩ => show win2_11.index t (2 : Fin 3) * 128 + 1 * (y 2).val = (y 2).val; omega

theorem blk2_12 (c : Dev nD) (t : Fin cfg2.N) : iblk2 V c 12 t = V c main_arg22 := by
  obtain ⟨-, -, -, -, -, -, -, -, -, -, -, -, -, -, -, -, -, -, -, -, -, -, -, -, -, e0, e1, -, -, -, -, -, -, -⟩ := idx2 t
  exact read_whole (s := S2x128) (V c main_arg22) (((cfg2.win 12).blk t).view.emb) fun y a => by
    match a with
    | ⟨0, _⟩ => show win2_12.index t (0 : Fin 2) * 2 + 1 * (y 0).val = (y 0).val; omega
    | ⟨1, _⟩ => show win2_12.index t (1 : Fin 2) * 128 + 1 * (y 1).val = (y 1).val; omega

theorem blk2_13 (c : Dev nD) (t : Fin cfg2.N) : iblk2 V c 13 t = V c main_arg23 := by
  obtain ⟨-, -, -, -, -, -, -, -, -, -, -, -, -, -, -, -, -, -, -, -, -, -, -, -, -, -, -, e0, e1, e2, -, -, -, -⟩ := idx2 t
  exact read_whole (s := S2x128x128) (V c main_arg23) (((cfg2.win 13).blk t).view.emb) fun y a => by
    match a with
    | ⟨0, _⟩ => show win2_13.index t (0 : Fin 3) * 2 + 1 * (y 0).val = (y 0).val; omega
    | ⟨1, _⟩ => show win2_13.index t (1 : Fin 3) * 128 + 1 * (y 1).val = (y 1).val; omega
    | ⟨2, _⟩ => show win2_13.index t (2 : Fin 3) * 128 + 1 * (y 2).val = (y 2).val; omega

theorem blk2_14 (c : Dev nD) (t : Fin cfg2.N) : iblk2 V c 14 t = V c main_arg24 := by
  obtain ⟨-, -, -, -, -, -, -, -, -, -, -, -, -, -, -, -, -, -, -, -, -, -, -, -, -, -, -, -, -, -, e0, e1, -, -⟩ := idx2 t
  exact read_whole (s := S2x128) (V c main_arg24) (((cfg2.win 14).blk t).view.emb) fun y a => by
    match a with
    | ⟨0, _⟩ => show win2_14.index t (0 : Fin 2) * 2 + 1 * (y 0).val = (y 0).val; omega
    | ⟨1, _⟩ => show win2_14.index t (1 : Fin 2) * 128 + 1 * (y 1).val = (y 1).val; omega

/-- Region 2's result array as one function of the arrays the region finds. -/
def G2 (c : Dev nD) : S262144x128.Idx → EReal :=
  unrows (post (rows (V c main_v13)) (rows (V c main_arg0)) (rows (V c main_arg9)) (vec (V c main_arg10)) (rows (V c main_arg14))
    (mat3 (V c main_arg15) 0) (row2 (V c main_arg16) 0) (mat3 (V c main_arg17) 0) (row2 (V c main_arg18) 0)
    (rows (V c main_arg19)) (vec (V c main_arg20))
    (mat3 (V c main_arg21) 0) (row2 (V c main_arg22) 0) (mat3 (V c main_arg23) 0) (row2 (V c main_arg24) 0)
    (mat3 (V c main_arg21) 1) (row2 (V c main_arg22) 1) (mat3 (V c main_arg23) 1) (row2 (V c main_arg24) 1))

theorem blk2_15 (c : Dev nD) (t : Fin cfg2.N) :
    rows (fun y : S4096x128.Idx => G2 V c (((cfg2.win 15).blk t).view.emb y)) = fun p => rows (G2 V c) (row2b t p) := by
  obtain ⟨-, -, -, -, -, -, -, -, -, -, -, -, -, -, -, -, -, -, -, -, -, -, -, -, -, -, -, -, -, -, -, -, e0, e1⟩ := idx2 t
  have ht := lt_of_lt_of_eq t.isLt N_2
  exact rows_read (n := 4096) (N := 262144) (d := 128) (G2 V c) (((cfg2.win 15).blk t).view.emb) (t.val * 4096) (by omega)
    (fun y => by show win2_15.index t (0 : Fin 2) * 4096 + 1 * (y 0).val = t.val * 4096 + (y 0).val; omega)
    (fun y => by show win2_15.index t (1 : Fin 2) * 128 + 1 * (y 1).val = (y 1).val; omega)

set_option maxHeartbeats 2000000 in
/-- What point t writes back is block t of the whole-array function. -/
theorem flushed2 (c : Dev nD) (t : Fin cfg2.N) :
    (dat2 V c).flushed 15 t = ((cfg2.win 15).blk t).view.read (Elt Ideal) (G2 V c) := by
  show (cfg2.win 15).cut (grid2.coords t) ((dat2 V c).after 15 t) = _
  rw [after2_15]
  show (out2_15 (iblk2 V c 0 t) (iblk2 V c 1 t) (iblk2 V c 2 t) (iblk2 V c 3 t) (iblk2 V c 4 t) (iblk2 V c 5 t) (iblk2 V c 6 t)
      (iblk2 V c 7 t) (iblk2 V c 8 t) (iblk2 V c 9 t) (iblk2 V c 10 t) (iblk2 V c 11 t) (iblk2 V c 12 t) (iblk2 V c 13 t)
      (iblk2 V c 14 t) : S4096x128.Idx → EReal)
    = fun y : S4096x128.Idx => G2 V c (((cfg2.win 15).blk t).view.emb y)
  refine ext_rows ?_
  rw [body2, blk2_0, blk2_1, blk2_2, blk2_3, blk2_4, blk2_5, blk2_6, blk2_7, blk2_8, blk2_9, blk2_10, blk2_11, blk2_12, blk2_13,
    blk2_14, blk2_15]
  rfl

/-- An index of the result array is in point t's block iff each coordinate is in the block's range on its axis. -/
theorem mem_blk2 (t : Fin cfg2.N) (i : S262144x128.Idx) :
    i ∈ ((cfg2.win 15).blk t).view.set ↔ ∀ a : Fin 2, win2_15.index t a * S4096x128.size a ≤ (i a).val ∧ (i a).val < win2_15.index t a * S4096x128.size a + S4096x128.size a := by
  show i ∈ ((View.whole main_v14).slice (win2_15.rect t)).set ↔ _
  rw [View.set_slice_whole, Rect.mem_set_unit]
  exact Iff.rfl

/-- Row r of the result lies in the block of point r / 4096. -/
theorem cover2 (i : S262144x128.Idx) :
    ∃ t : Fin cfg2.N, (cfg2.win 15).flush t = true ∧ i ∈ ((cfg2.win 15).blk t).view.set := by
  have hi0 : (i 0).val < 262144 := (i 0).isLt
  have hi1 : (i 1).val < 128 := (i 1).isLt
  have hq : (i 0).val / 4096 < 64 := by omega
  obtain ⟨-, -, -, -, -, -, -, -, -, -, -, -, -, -, -, -, -, -, -, -, -, -, -, -, -, -, -, -, -, -, -, -, e0, e1⟩ := idx2 ⟨(i 0).val / 4096, lt_of_lt_of_eq hq N_2.symm⟩
  refine ⟨⟨(i 0).val / 4096, lt_of_lt_of_eq hq N_2.symm⟩, flush2_15 _, ?_⟩
  rw [mem_blk2]
  intro a
  match a with
  | ⟨0, _⟩ =>
    show win2_15.index ⟨(i 0).val / 4096, lt_of_lt_of_eq hq N_2.symm⟩ (0 : Fin 2) * 4096 ≤ (i 0).val
      ∧ (i 0).val < win2_15.index ⟨(i 0).val / 4096, lt_of_lt_of_eq hq N_2.symm⟩ (0 : Fin 2) * 4096 + 4096
    rw [e0]
    show (i 0).val / 4096 * 4096 ≤ (i 0).val ∧ (i 0).val < (i 0).val / 4096 * 4096 + 4096
    omega
  | ⟨1, _⟩ =>
    show win2_15.index ⟨(i 0).val / 4096, lt_of_lt_of_eq hq N_2.symm⟩ (1 : Fin 2) * 128 ≤ (i 1).val
      ∧ (i 1).val < win2_15.index ⟨(i 0).val / 4096, lt_of_lt_of_eq hq N_2.symm⟩ (1 : Fin 2) * 128 + 128
    rw [e1]
    omega

/-- After the region its result array holds every edge's update. -/
theorem final2 (c : Dev nD) : (dat2 V c).arrAt 15 cfg2.N = G2 V c :=
  (dat2 V c).arrAt_eq_of_cover 15 (G2 V c) (fun t _ => flushed2 V c t) (cover2)

end Cert.KernelIdeal.Arrays

end
-- ==== Proof.KernelValue.lean ====
/-
  The idealized kernel's result buffer as a function of the launch memory.

  Walking @main's boundaries in order: the first stretch folds the two basis weight pairs into one matrix each; region 0
  leaves the gated down-projection of every edge; the second stretch normalises the source indices and gathers those
  rows, one per triplet; region 1 leaves every triplet's message; the third stretch sums the messages into their
  destination edges; region 2 leaves every edge's update, which is the result. Every other buffer a later boundary reads
  is an argument, unchanged since launch.
-/
import proofs.«143475_j11940009083127_2_alg».proof.Proof.Gen.KernelIdeal.Frame
import proofs.«143475_j11940009083127_2_alg».proof.Proof.KernelArray0
import proofs.«143475_j11940009083127_2_alg».proof.Proof.KernelArray1
import proofs.«143475_j11940009083127_2_alg».proof.Proof.KernelArray2
import Idealize.ShloMosaic.Lib.StableHlo.Run

set_option maxRecDepth 16384

noncomputable section

namespace Cert.KernelIdeal.Value

open Cert.KernelIdeal Cert.KernelIdeal.Gen Cert.KernelIdeal.Arrays Cert.Net
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## After the first stretch -/

theorem w1_arg0 : W1 m ρ c (Proc.devRef .tc main_arg0) = m ((c : Thread nD τ).loc main_arg0) := by
  show StableHlo.after hostOps0 (W0 m ρ c) (Proc.devRef .tc main_arg0) = _; after_results
theorem w1_arg1 : W1 m ρ c (Proc.devRef .tc main_arg1) = m ((c : Thread nD τ).loc main_arg1) := by
  show StableHlo.after hostOps0 (W0 m ρ c) (Proc.devRef .tc main_arg1) = _; after_results
theorem w1_arg2 : W1 m ρ c (Proc.devRef .tc main_arg2) = m ((c : Thread nD τ).loc main_arg2) := by
  show StableHlo.after hostOps0 (W0 m ρ c) (Proc.devRef .tc main_arg2) = _; after_results
theorem w1_arg3 : W1 m ρ c (Proc.devRef .tc main_arg3) = m ((c : Thread nD τ).loc main_arg3) := by
  show StableHlo.after hostOps0 (W0 m ρ c) (Proc.devRef .tc main_arg3) = _; after_results
theorem w1_arg4 : W1 m ρ c (Proc.devRef .tc main_arg4) = m ((c : Thread nD τ).loc main_arg4) := by
  show StableHlo.after hostOps0 (W0 m ρ c) (Proc.devRef .tc main_arg4) = _; after_results
theorem w1_arg11 : W1 m ρ c (Proc.devRef .tc main_arg11) = m ((c : Thread nD τ).loc main_arg11) := by
  show StableHlo.after hostOps0 (W0 m ρ c) (Proc.devRef .tc main_arg11) = _; after_results
theorem w1_arg12 : W1 m ρ c (Proc.devRef .tc main_arg12) = m ((c : Thread nD τ).loc main_arg12) := by
  show StableHlo.after hostOps0 (W0 m ρ c) (Proc.devRef .tc main_arg12) = _; after_results
theorem w1_arg13 : W1 m ρ c (Proc.devRef .tc main_arg13) = m ((c : Thread nD τ).loc main_arg13) := by
  show StableHlo.after hostOps0 (W0 m ρ c) (Proc.devRef .tc main_arg13) = _; after_results

/-- The folded radial weights: W₁ · W₂. -/
theorem w1_v0 : W1 m ρ c (Proc.devRef .tc main_v0)
    = Host.dotGeneral (F := Ideal) (φ₁ := .f32) (φ₂ := .f32) dot_S6x8_S8x128_S6x128_1_0_0_1_n_n none (m ((c : Thread nD τ).loc main_arg5)) (m ((c : Thread nD τ).loc main_arg6)) := by
  show StableHlo.after hostOps0 (W0 m ρ c) (Proc.devRef .tc main_v0) = _; after_results
/-- The folded angular weights. -/
theorem w1_v1 : W1 m ρ c (Proc.devRef .tc main_v1)
    = Host.dotGeneral (F := Ideal) (φ₁ := .f32) (φ₂ := .f32) dot_S42x8_S8x64_S42x64_1_0_0_1_n_n none (m ((c : Thread nD τ).loc main_arg7)) (m ((c : Thread nD τ).loc main_arg8)) := by
  show StableHlo.after hostOps0 (W0 m ρ c) (Proc.devRef .tc main_v1) = _; after_results

/-! ## After region 0 -/

/-- The edges' gated down-projection, of the launch arrays. -/
def xkj : S262144x64.Idx → EReal :=
  unrows (gate (rows (m ((c : Thread nD τ).loc main_arg0)))
    (lin (rows (m ((c : Thread nD τ).loc main_arg1)))
      (rows (Host.dotGeneral (F := Ideal) (φ₁ := .f32) (φ₂ := .f32) dot_S6x8_S8x128_S6x128_1_0_0_1_n_n none (m ((c : Thread nD τ).loc main_arg5)) (m ((c : Thread nD τ).loc main_arg6)))))
    (rows (m ((c : Thread nD τ).loc main_arg11))) (vec (m ((c : Thread nD τ).loc main_arg12))) (rows (m ((c : Thread nD τ).loc main_arg13))))

theorem w2_v2 : W2 m ρ c (Proc.devRef .tc main_v2) = xkj m c := by
  refine (W2_arr m ρ c 6).trans ((final0 (V1 m ρ) c).trans ?_)
  unfold G0 xkj
  rw [show V1 m ρ c main_arg0 = _ from w1_arg0 m ρ c, show V1 m ρ c main_arg1 = _ from w1_arg1 m ρ c,
    show V1 m ρ c main_v0 = _ from w1_v0 m ρ c, show V1 m ρ c main_arg11 = _ from w1_arg11 m ρ c,
    show V1 m ρ c main_arg12 = _ from w1_arg12 m ρ c, show V1 m ρ c main_arg13 = _ from w1_arg13 m ρ c]

theorem w2_arg2 : W2 m ρ c (Proc.devRef .tc main_arg2) = m ((c : Thread nD τ).loc main_arg2) :=
  (W2_of_ne m ρ c main_arg2 (by decide)).trans (w1_arg2 m ρ c)
theorem w2_arg3 : W2 m ρ c (Proc.devRef .tc main_arg3) = m ((c : Thread nD τ).loc main_arg3) :=
  (W2_of_ne m ρ c main_arg3 (by decide)).trans (w1_arg3 m ρ c)
theorem w2_arg4 : W2 m ρ c (Proc.devRef .tc main_arg4) = m ((c : Thread nD τ).loc main_arg4) :=
  (W2_of_ne m ρ c main_arg4 (by decide)).trans (w1_arg4 m ρ c)
theorem w2_v1 : W2 m ρ c (Proc.devRef .tc main_v1)
    = Host.dotGeneral (F := Ideal) (φ₁ := .f32) (φ₂ := .f32) dot_S42x8_S8x64_S42x64_1_0_0_1_n_n none (m ((c : Thread nD τ).loc main_arg7)) (m ((c : Thread nD τ).loc main_arg8)) :=
  (W2_of_ne m ρ c main_v1 (by decide)).trans (w1_v1 m ρ c)

/-! ## After the second stretch -/

/-- One gathered edge row per triplet: the source index, wrapped when negative, selects the row. -/
def gathered : S2097152x64.Idx → EReal :=
  Host.gather (α := EReal) gather_S262144x64_S2097152x1_S2097152x64_1_0_n_n_0_1_164 (xkj m c)
    (broadcastInDim S2097152x1 ![0] bcast_S2097152_S2097152x1_0
      (select (cmpi .slt (m ((c : Thread nD τ).loc main_arg3)) (broadcastInDim S2097152 ![] bcast_S_S2097152 (constantI S_ 32 0#32)))
        (addi (m ((c : Thread nD τ).loc main_arg3)) (broadcastInDim S2097152 ![] bcast_S_S2097152 (constantI S_ 32 262144#32)))
        (m ((c : Thread nD τ).loc main_arg3))))

theorem w3_v9 : W3 m ρ c (Proc.devRef .tc main_v9) = gathered m c := by
  show StableHlo.after hostOps1 (W2 m ρ c) (Proc.devRef .tc main_v9) = _
  after_results
  rw [w2_v2, w2_arg3]
  rfl
theorem w3_arg2 : W3 m ρ c (Proc.devRef .tc main_arg2) = m ((c : Thread nD τ).loc main_arg2) := by
  show StableHlo.after hostOps1 (W2 m ρ c) (Proc.devRef .tc main_arg2) = _
  after_results
  exact w2_arg2 m ρ c
theorem w3_arg4 : W3 m ρ c (Proc.devRef .tc main_arg4) = m ((c : Thread nD τ).loc main_arg4) := by
  show StableHlo.after hostOps1 (W2 m ρ c) (Proc.devRef .tc main_arg4) = _
  after_results
  exact w2_arg4 m ρ c
theorem w3_v1 : W3 m ρ c (Proc.devRef .tc main_v1)
    = Host.dotGeneral (F := Ideal) (φ₁ := .f32) (φ₂ := .f32) dot_S42x8_S8x64_S42x64_1_0_0_1_n_n none (m ((c : Thread nD τ).loc main_arg7)) (m ((c : Thread nD τ).loc main_arg8)) := by
  show StableHlo.after hostOps1 (W2 m ρ c) (Proc.devRef .tc main_v1) = _
  after_results
  exact w2_v1 m ρ c

/-! ## After region 1 -/

/-- Every triplet's message. -/
def msg : S2097152x64.Idx → EReal :=
  unrows (fun r j => lin (rows (m ((c : Thread nD τ).loc main_arg2)))
      (rows (Host.dotGeneral (F := Ideal) (φ₁ := .f32) (φ₂ := .f32) dot_S42x8_S8x64_S42x64_1_0_0_1_n_n none (m ((c : Thread nD τ).loc main_arg7)) (m ((c : Thread nD τ).loc main_arg8)))) r j
    * rows (gathered m c) r j)

theorem w4_v10 : W4 m ρ c (Proc.devRef .tc main_v10) = msg m c := by
  refine (W4_arr m ρ c 3).trans ((final1 (V3 m ρ) c).trans ?_)
  unfold G1 msg
  rw [show V3 m ρ c main_arg2 = _ from w3_arg2 m ρ c, show V3 m ρ c main_v1 = _ from w3_v1 m ρ c,
    show V3 m ρ c main_v9 = _ from w3_v9 m ρ c]

theorem w4_arg4 : W4 m ρ c (Proc.devRef .tc main_arg4) = m ((c : Thread nD τ).loc main_arg4) :=
  (W4_of_ne m ρ c main_arg4 (by decide)).trans (w3_arg4 m ρ c)

/-! ## After the third stretch -/

/-- The messages summed into their destination edges. -/
def agg : S262144x64.Idx → EReal :=
  Host.scatterAdd (F := Ideal) (φ := .f32) scatter_S262144x64_S2097152x1_S2097152x64_1_0_0_1
    (broadcastInDim S262144x64 ![] bcast_S_S262144x64 (constant (F := Ideal) S_ .f32 0x00000000#32))
    (broadcastInDim S2097152x1 ![0] bcast_S2097152_S2097152x1_0 (m ((c : Thread nD τ).loc main_arg4))) (msg m c)

theorem w5_v13 : W5 m ρ c (Proc.devRef .tc main_v13) = agg m c := by
  show StableHlo.after hostOps2 (W4 m ρ c) (Proc.devRef .tc main_v13) = _
  after_results
  rw [w4_v10, w4_arg4]
  rfl

theorem v5_arg0 : V5 m ρ c main_arg0 = m ((c : Thread nD τ).loc main_arg0) := by
  have h : W6 m ρ c (Proc.devRef .tc main_arg0) = W5 m ρ c (Proc.devRef .tc main_arg0) :=
    (W6_arr m ρ c 1).trans (((dat2 (V5 m ρ) c).arrAt_in 1 rfl _).trans (A_eq2 (V5 m ρ) c 1))
  exact h.symm.trans (W6_main_arg0 m ρ c)
theorem v5_arg9 : V5 m ρ c main_arg9 = m ((c : Thread nD τ).loc main_arg9) := by
  have h : W6 m ρ c (Proc.devRef .tc main_arg9) = W5 m ρ c (Proc.devRef .tc main_arg9) :=
    (W6_arr m ρ c 2).trans (((dat2 (V5 m ρ) c).arrAt_in 2 rfl _).trans (A_eq2 (V5 m ρ) c 2))
  exact h.symm.trans (W6_main_arg9 m ρ c)
theorem v5_arg10 : V5 m ρ c main_arg10 = m ((c : Thread nD τ).loc main_arg10) := by
  have h : W6 m ρ c (Proc.devRef .tc main_arg10) = W5 m ρ c (Proc.devRef .tc main_arg10) :=
    (W6_arr m ρ c 3).trans (((dat2 (V5 m ρ) c).arrAt_in 3 rfl _).trans (A_eq2 (V5 m ρ) c 3))
  exact h.symm.trans (W6_main_arg10 m ρ c)
theorem v5_arg14 : V5 m ρ c main_arg14 = m ((c : Thread nD τ).loc main_arg14) := by
  have h : W6 m ρ c (Proc.devRef .tc main_arg14) = W5 m ρ c (Proc.devRef .tc main_arg14) :=
    (W6_arr m ρ c 4).trans (((dat2 (V5 m ρ) c).arrAt_in 4 rfl _).trans (A_eq2 (V5 m ρ) c 4))
  exact h.symm.trans (W6_main_arg14 m ρ c)
theorem v5_arg15 : V5 m ρ c main_arg15 = m ((c : Thread nD τ).loc main_arg15) := by
  have h : W6 m ρ c (Proc.devRef .tc main_arg15) = W5 m ρ c (Proc.devRef .tc main_arg15) :=
    (W6_arr m ρ c 5).trans (((dat2 (V5 m ρ) c).arrAt_in 5 rfl _).trans (A_eq2 (V5 m ρ) c 5))
  exact h.symm.trans (W6_main_arg15 m ρ c)
theorem v5_arg16 : V5 m ρ c main_arg16 = m ((c : Thread nD τ).loc main_arg16) := by
  have h : W6 m ρ c (Proc.devRef .tc main_arg16) = W5 m ρ c (Proc.devRef .tc main_arg16) :=
    (W6_arr m ρ c 6).trans (((dat2 (V5 m ρ) c).arrAt_in 6 rfl _).trans (A_eq2 (V5 m ρ) c 6))
  exact h.symm.trans (W6_main_arg16 m ρ c)
theorem v5_arg17 : V5 m ρ c main_arg17 = m ((c : Thread nD τ).loc main_arg17) := by
  have h : W6 m ρ c (Proc.devRef .tc main_arg17) = W5 m ρ c (Proc.devRef .tc main_arg17) :=
    (W6_arr m ρ c 7).trans (((dat2 (V5 m ρ) c).arrAt_in 7 rfl _).trans (A_eq2 (V5 m ρ) c 7))
  exact h.symm.trans (W6_main_arg17 m ρ c)
theorem v5_arg18 : V5 m ρ c main_arg18 = m ((c : Thread nD τ).loc main_arg18) := by
  have h : W6 m ρ c (Proc.devRef .tc main_arg18) = W5 m ρ c (Proc.devRef .tc main_arg18) :=
    (W6_arr m ρ c 8).trans (((dat2 (V5 m ρ) c).arrAt_in 8 rfl _).trans (A_eq2 (V5 m ρ) c 8))
  exact h.symm.trans (W6_main_arg18 m ρ c)
theorem v5_arg19 : V5 m ρ c main_arg19 = m ((c : Thread nD τ).loc main_arg19) := by
  have h : W6 m ρ c (Proc.devRef .tc main_arg19) = W5 m ρ c (Proc.devRef .tc main_arg19) :=
    (W6_arr m ρ c 9).trans (((dat2 (V5 m ρ) c).arrAt_in 9 rfl _).trans (A_eq2 (V5 m ρ) c 9))
  exact h.symm.trans (W6_main_arg19 m ρ c)
theorem v5_arg20 : V5 m ρ c main_arg20 = m ((c : Thread nD τ).loc main_arg20) := by
  have h : W6 m ρ c (Proc.devRef .tc main_arg20) = W5 m ρ c (Proc.devRef .tc main_arg20) :=
    (W6_arr m ρ c 10).trans (((dat2 (V5 m ρ) c).arrAt_in 10 rfl _).trans (A_eq2 (V5 m ρ) c 10))
  exact h.symm.trans (W6_main_arg20 m ρ c)
theorem v5_arg21 : V5 m ρ c main_arg21 = m ((c : Thread nD τ).loc main_arg21) := by
  have h : W6 m ρ c (Proc.devRef .tc main_arg21) = W5 m ρ c (Proc.devRef .tc main_arg21) :=
    (W6_arr m ρ c 11).trans (((dat2 (V5 m ρ) c).arrAt_in 11 rfl _).trans (A_eq2 (V5 m ρ) c 11))
  exact h.symm.trans (W6_main_arg21 m ρ c)
theorem v5_arg22 : V5 m ρ c main_arg22 = m ((c : Thread nD τ).loc main_arg22) := by
  have h : W6 m ρ c (Proc.devRef .tc main_arg22) = W5 m ρ c (Proc.devRef .tc main_arg22) :=
    (W6_arr m ρ c 12).trans (((dat2 (V5 m ρ) c).arrAt_in 12 rfl _).trans (A_eq2 (V5 m ρ) c 12))
  exact h.symm.trans (W6_main_arg22 m ρ c)
theorem v5_arg23 : V5 m ρ c main_arg23 = m ((c : Thread nD τ).loc main_arg23) := by
  have h : W6 m ρ c (Proc.devRef .tc main_arg23) = W5 m ρ c (Proc.devRef .tc main_arg23) :=
    (W6_arr m ρ c 13).trans (((dat2 (V5 m ρ) c).arrAt_in 13 rfl _).trans (A_eq2 (V5 m ρ) c 13))
  exact h.symm.trans (W6_main_arg23 m ρ c)
theorem v5_arg24 : V5 m ρ c main_arg24 = m ((c : Thread nD τ).loc main_arg24) := by
  have h : W6 m ρ c (Proc.devRef .tc main_arg24) = W5 m ρ c (Proc.devRef .tc main_arg24) :=
    (W6_arr m ρ c 14).trans (((dat2 (V5 m ρ) c).arrAt_in 14 rfl _).trans (A_eq2 (V5 m ρ) c 14))
  exact h.symm.trans (W6_main_arg24 m ρ c)

/-! ## After region 2: the result -/

/-- Every edge's update, of the launch arrays. -/
def out : S262144x128.Idx → EReal :=
  unrows (post (rows (agg m c)) (rows (m ((c : Thread nD τ).loc main_arg0))) (rows (m ((c : Thread nD τ).loc main_arg9)))
    (vec (m ((c : Thread nD τ).loc main_arg10))) (rows (m ((c : Thread nD τ).loc main_arg14)))
    (mat3 (m ((c : Thread nD τ).loc main_arg15)) 0) (row2 (m ((c : Thread nD τ).loc main_arg16)) 0)
    (mat3 (m ((c : Thread nD τ).loc main_arg17)) 0) (row2 (m ((c : Thread nD τ).loc main_arg18)) 0)
    (rows (m ((c : Thread nD τ).loc main_arg19))) (vec (m ((c : Thread nD τ).loc main_arg20)))
    (mat3 (m ((c : Thread nD τ).loc main_arg21)) 0) (row2 (m ((c : Thread nD τ).loc main_arg22)) 0)
    (mat3 (m ((c : Thread nD τ).loc main_arg23)) 0) (row2 (m ((c : Thread nD τ).loc main_arg24)) 0)
    (mat3 (m ((c : Thread nD τ).loc main_arg21)) 1) (row2 (m ((c : Thread nD τ).loc main_arg22)) 1)
    (mat3 (m ((c : Thread nD τ).loc main_arg23)) 1) (row2 (m ((c : Thread nD τ).loc main_arg24)) 1))

theorem w6_v14 : W6 m ρ c (Proc.devRef .tc main_v14) = out m c := by
  refine (W6_arr m ρ c 15).trans ((final2 (V5 m ρ) c).trans ?_)
  unfold G2 out
  rw [show V5 m ρ c main_v13 = _ from w5_v13 m ρ c, v5_arg0, v5_arg9, v5_arg10, v5_arg14, v5_arg15, v5_arg16, v5_arg17, v5_arg18,
    v5_arg19, v5_arg20, v5_arg21, v5_arg22, v5_arg23, v5_arg24]

end Cert.KernelIdeal.Value

end
-- ==== Proof.RefSegs.lean ====
/-
  The reference program's 181 host operations, in program order, cut into twelve contiguous segments, one per layer of
  the network: the radial embedding; the two dense layers on the edge messages; the gating and down-projection; the
  angular embedding; the gather of one edge row per triplet; the scatter-add back onto edges; the up-projection joined
  with the edge's own message; one residual pair; the skip connection; two more residual pairs. A call of the outlined
  silu stands as its eight operations in the call's place.
-/
import proofs.«143475_j11940009083127_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The segments -/

/-- Segment 1 (2 operations): radial embedding: (rbf·W₁)·W₂. -/
def seg1 : List (HloOp τ sig (Elt F)) :=
  [ binary main_arg1 main_arg5 main_v0 ((fun l r => Host.dotGeneral dot_S262144x6_S6x8_S262144x8_1_0_0_1_n_n none l r) : (⟨S262144x6, .f32⟩ : BufTy).Contents (Elt F) → (⟨S6x8, .f32⟩ : BufTy).Contents (Elt F) → (⟨S262144x8, .f32⟩ : BufTy).Contents (Elt F)),
    binary main_v0 main_arg6 main_v1 ((fun l r => Host.dotGeneral dot_S262144x8_S8x128_S262144x128_1_0_0_1_n_n none l r) : (⟨S262144x8, .f32⟩ : BufTy).Contents (Elt F) → (⟨S8x128, .f32⟩ : BufTy).Contents (Elt F) → (⟨S262144x128, .f32⟩ : BufTy).Contents (Elt F)) ]

/-- Segment 2 (13 operations): the edge's own dense layer: silu (m·W_ji + β_ji). -/
def seg2 : List (HloOp τ sig (Elt F)) :=
  [ binary main_arg0 main_arg9 main_v2 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg10 main_v3 (broadcastInDim S1x128 ![1] bcast_S128_S1x128_1 : (⟨S128, .f32⟩ : BufTy).Contents (Elt F) → (⟨S1x128, .f32⟩ : BufTy).Contents (Elt F)),
    unary main_v3 main_v4 (broadcastInDim S262144x128 ![0, 1] bcast_S1x128_S262144x128_0_1 : (⟨S1x128, .f32⟩ : BufTy).Contents (Elt F) → (⟨S262144x128, .f32⟩ : BufTy).Contents (Elt F)),
    binary main_v2 main_v4 main_v5 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v5) (TRef.of (T := ⟨S262144x128, .f32⟩) main_call0_v0) Host.negf,
    TRef.unary (TRef.of (T := ⟨S262144x128, .f32⟩) main_call0_v0) (TRef.of (T := ⟨S262144x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S262144x128, .f32⟩) main_call0_v2) (broadcastInDim S262144x128 ![] bcast_S_S262144x128),
    TRef.binary (TRef.of (T := ⟨S262144x128, .f32⟩) main_call0_v2) (TRef.of (T := ⟨S262144x128, .f32⟩) main_call0_v1) (TRef.of (T := ⟨S262144x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S262144x128, .f32⟩) main_call0_v4) (broadcastInDim S262144x128 ![] bcast_S_S262144x128),
    TRef.binary (TRef.of (T := ⟨S262144x128, .f32⟩) main_call0_v4) (TRef.of (T := ⟨S262144x128, .f32⟩) main_call0_v3) (TRef.of (T := ⟨S262144x128, .f32⟩) main_call0_v5) Host.divf,
    TRef.binary (TRef.of (T := ⟨S262144x128, .f32⟩) main_v5) (TRef.of (T := ⟨S262144x128, .f32⟩) main_call0_v5) (TRef.of (T := ⟨S262144x128, .f32⟩) main_v6) mulf ]

/-- Segment 3 (13 operations): the dense layer of the message to be passed on: silu (m·W_kj + β_kj). -/
def seg3 : List (HloOp τ sig (Elt F)) :=
  [ binary main_arg0 main_arg11 main_v7 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg12 main_v8 (broadcastInDim S1x128 ![1] bcast_S128_S1x128_1 : (⟨S128, .f32⟩ : BufTy).Contents (Elt F) → (⟨S1x128, .f32⟩ : BufTy).Contents (Elt F)),
    unary main_v8 main_v9 (broadcastInDim S262144x128 ![0, 1] bcast_S1x128_S262144x128_0_1 : (⟨S1x128, .f32⟩ : BufTy).Contents (Elt F) → (⟨S262144x128, .f32⟩ : BufTy).Contents (Elt F)),
    binary main_v7 main_v9 main_v10 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v10) (TRef.of (T := ⟨S262144x128, .f32⟩) main_call1_v0) Host.negf,
    TRef.unary (TRef.of (T := ⟨S262144x128, .f32⟩) main_call1_v0) (TRef.of (T := ⟨S262144x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S262144x128, .f32⟩) main_call1_v2) (broadcastInDim S262144x128 ![] bcast_S_S262144x128),
    TRef.binary (TRef.of (T := ⟨S262144x128, .f32⟩) main_call1_v2) (TRef.of (T := ⟨S262144x128, .f32⟩) main_call1_v1) (TRef.of (T := ⟨S262144x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S262144x128, .f32⟩) main_call1_v4) (broadcastInDim S262144x128 ![] bcast_S_S262144x128),
    TRef.binary (TRef.of (T := ⟨S262144x128, .f32⟩) main_call1_v4) (TRef.of (T := ⟨S262144x128, .f32⟩) main_call1_v3) (TRef.of (T := ⟨S262144x128, .f32⟩) main_call1_v5) Host.divf,
    TRef.binary (TRef.of (T := ⟨S262144x128, .f32⟩) main_v10) (TRef.of (T := ⟨S262144x128, .f32⟩) main_call1_v5) (TRef.of (T := ⟨S262144x128, .f32⟩) main_v11) mulf ]

/-- Segment 4 (11 operations): gating by the radial embedding and the projection down: silu ((g ⊙ e)·W_down). -/
def seg4 : List (HloOp τ sig (Elt F)) :=
  [ binary main_v11 main_v1 main_v12 (mulf : (⟨S262144x128, .f32⟩ : BufTy).Contents (Elt F) → (⟨S262144x128, .f32⟩ : BufTy).Contents (Elt F) → (⟨S262144x128, .f32⟩ : BufTy).Contents (Elt F)),
    binary main_v12 main_arg13 main_v13 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)),
    TRef.unary (TRef.of (T := ⟨S262144x64, .f32⟩) main_v13) (TRef.of (T := ⟨S262144x64, .f32⟩) main_call2_v0) Host.negf,
    TRef.unary (TRef.of (T := ⟨S262144x64, .f32⟩) main_call2_v0) (TRef.of (T := ⟨S262144x64, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S262144x64, .f32⟩) main_call2_v2) (broadcastInDim S262144x64 ![] bcast_S_S262144x64),
    TRef.binary (TRef.of (T := ⟨S262144x64, .f32⟩) main_call2_v2) (TRef.of (T := ⟨S262144x64, .f32⟩) main_call2_v1) (TRef.of (T := ⟨S262144x64, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S262144x64, .f32⟩) main_call2_v4) (broadcastInDim S262144x64 ![] bcast_S_S262144x64),
    TRef.binary (TRef.of (T := ⟨S262144x64, .f32⟩) main_call2_v4) (TRef.of (T := ⟨S262144x64, .f32⟩) main_call2_v3) (TRef.of (T := ⟨S262144x64, .f32⟩) main_call2_v5) Host.divf,
    TRef.binary (TRef.of (T := ⟨S262144x64, .f32⟩) main_v13) (TRef.of (T := ⟨S262144x64, .f32⟩) main_call2_v5) (TRef.of (T := ⟨S262144x64, .f32⟩) main_v14) mulf ]

/-- Segment 5 (2 operations): angular embedding: (sbf·V₁)·V₂. -/
def seg5 : List (HloOp τ sig (Elt F)) :=
  [ binary main_arg2 main_arg7 main_v15 ((fun l r => Host.dotGeneral dot_S2097152x42_S42x8_S2097152x8_1_0_0_1_n_n none l r) : (⟨S2097152x42, .f32⟩ : BufTy).Contents (Elt F) → (⟨S42x8, .f32⟩ : BufTy).Contents (Elt F) → (⟨S2097152x8, .f32⟩ : BufTy).Contents (Elt F)),
    binary main_v15 main_arg8 main_v16 ((fun l r => Host.dotGeneral dot_S2097152x8_S8x64_S2097152x64_1_0_0_1_n_n none l r) : (⟨S2097152x8, .f32⟩ : BufTy).Contents (Elt F) → (⟨S8x64, .f32⟩ : BufTy).Contents (Elt F) → (⟨S2097152x64, .f32⟩ : BufTy).Contents (Elt F)) ]

/-- Segment 6 (10 operations): index normalisation, the gather of one row per triplet, times the angular embedding. -/
def seg6 : List (HloOp τ sig (Elt F)) :=
  [ nullary main_c (constantI S_ 32 0#32),
    unary main_c main_v17 (broadcastInDim S2097152 ![] bcast_S_S2097152 : (⟨S_, .i32⟩ : BufTy).Contents (Elt F) → (⟨S2097152, .i32⟩ : BufTy).Contents (Elt F)),
    binary main_arg3 main_v17 main_v18 (cmpi .slt : (⟨S2097152, .i32⟩ : BufTy).Contents (Elt F) → (⟨S2097152, .i32⟩ : BufTy).Contents (Elt F) → (⟨S2097152, .i1⟩ : BufTy).Contents (Elt F)),
    nullary main_c_0 (constantI S_ 32 262144#32),
    unary main_c_0 main_v19 (broadcastInDim S2097152 ![] bcast_S_S2097152 : (⟨S_, .i32⟩ : BufTy).Contents (Elt F) → (⟨S2097152, .i32⟩ : BufTy).Contents (Elt F)),
    binary main_arg3 main_v19 main_v20 (addi : (⟨S2097152, .i32⟩ : BufTy).Contents (Elt F) → (⟨S2097152, .i32⟩ : BufTy).Contents (Elt F) → (⟨S2097152, .i32⟩ : BufTy).Contents (Elt F)),
    ternary main_v18 main_v20 main_arg3 main_v21 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v21 main_v22 (broadcastInDim S2097152x1 ![0] bcast_S2097152_S2097152x1_0 : (⟨S2097152, .i32⟩ : BufTy).Contents (Elt F) → (⟨S2097152x1, .i32⟩ : BufTy).Contents (Elt F)),
    binary main_v14 main_v22 main_v23 ((fun x i => Host.gather gather_S262144x64_S2097152x1_S2097152x64_1_0_n_n_0_1_164 x i) : (⟨S262144x64, .f32⟩ : BufTy).Contents (Elt F) → (⟨S2097152x1, .i32⟩ : BufTy).Contents (Elt F) → (⟨S2097152x64, .f32⟩ : BufTy).Contents (Elt F)),
    binary main_v23 main_v16 main_v24 (mulf : (⟨S2097152x64, .f32⟩ : BufTy).Contents (Elt F) → (⟨S2097152x64, .f32⟩ : BufTy).Contents (Elt F) → (⟨S2097152x64, .f32⟩ : BufTy).Contents (Elt F)) ]

/-- Segment 7 (4 operations): the scatter-add of the triplets' rows into an all-zero array, by outgoing edge. -/
def seg7 : List (HloOp τ sig (Elt F)) :=
  [ nullary main_cst (constant S_ .f32 0x00000000#32),
    unary main_cst main_v25 (broadcastInDim S262144x64 ![] bcast_S_S262144x64 : (⟨S_, .f32⟩ : BufTy).Contents (Elt F) → (⟨S262144x64, .f32⟩ : BufTy).Contents (Elt F)),
    unary main_arg4 main_v26 (broadcastInDim S2097152x1 ![0] bcast_S2097152_S2097152x1_0 : (⟨S2097152, .i32⟩ : BufTy).Contents (Elt F) → (⟨S2097152x1, .i32⟩ : BufTy).Contents (Elt F)),
    ternary main_v25 main_v26 main_v24 main_v27 ((fun x i u => Host.scatterAdd scatter_S262144x64_S2097152x1_S2097152x64_1_0_0_1 x i u) : (⟨S262144x64, .f32⟩ : BufTy).Contents (Elt F) → (⟨S2097152x1, .i32⟩ : BufTy).Contents (Elt F) → (⟨S2097152x64, .f32⟩ : BufTy).Contents (Elt F) → (⟨S262144x64, .f32⟩ : BufTy).Contents (Elt F)) ]

/-- Segment 8 (11 operations): the projection up and the sum with the edge's own message: silu (agg·W_up) + own. -/
def seg8 : List (HloOp τ sig (Elt F)) :=
  [ binary main_v27 main_arg14 main_v28 ((fun l r => Host.dotGeneral dot_S262144x64_S64x128_S262144x128_1_0_0_1_n_n none l r) : (⟨S262144x64, .f32⟩ : BufTy).Contents (Elt F) → (⟨S64x128, .f32⟩ : BufTy).Contents (Elt F) → (⟨S262144x128, .f32⟩ : BufTy).Contents (Elt F)),
    TRef.unary (TRef.of (T := ⟨S262144x128, .f32⟩) main_v28) (TRef.of (T := ⟨S262144x128, .f32⟩) main_call3_v0) Host.negf,
    TRef.unary (TRef.of (T := ⟨S262144x128, .f32⟩) main_call3_v0) (TRef.of (T := ⟨S262144x128, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S262144x128, .f32⟩) main_call3_v2) (broadcastInDim S262144x128 ![] bcast_S_S262144x128),
    TRef.binary (TRef.of (T := ⟨S262144x128, .f32⟩) main_call3_v2) (TRef.of (T := ⟨S262144x128, .f32⟩) main_call3_v1) (TRef.of (T := ⟨S262144x128, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S262144x128, .f32⟩) main_call3_v4) (broadcastInDim S262144x128 ![] bcast_S_S262144x128),
    TRef.binary (TRef.of (T := ⟨S262144x128, .f32⟩) main_call3_v4) (TRef.of (T := ⟨S262144x128, .f32⟩) main_call3_v3) (TRef.of (T := ⟨S262144x128, .f32⟩) main_call3_v5) Host.divf,
    TRef.binary (TRef.of (T := ⟨S262144x128, .f32⟩) main_v28) (TRef.of (T := ⟨S262144x128, .f32⟩) main_call3_v5) (TRef.of (T := ⟨S262144x128, .f32⟩) main_v29) mulf,
    binary main_v29 main_v6 main_v30 (addf : (⟨S262144x128, .f32⟩ : BufTy).Contents (Elt F) → (⟨S262144x128, .f32⟩ : BufTy).Contents (Elt F) → (⟨S262144x128, .f32⟩ : BufTy).Contents (Elt F)) ]

/-- Segment 9 (31 operations): the residual pair before the skip connection, its weights read from one-member stacks. -/
def seg9 : List (HloOp τ sig (Elt F)) :=
  [ reshape main_arg15 main_v31 rfl shapeCasts_S1x128x128_S128x128,
    reshape main_arg16 main_v32 rfl shapeCasts_S1x128_S128,
    reshape main_arg17 main_v33 rfl shapeCasts_S1x128x128_S128x128,
    reshape main_arg18 main_v34 rfl shapeCasts_S1x128_S128,
    binary main_v30 main_v31 main_v35 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v32 main_v36 (broadcastInDim S1x128 ![1] bcast_S128_S1x128_1 : (⟨S128, .f32⟩ : BufTy).Contents (Elt F) → (⟨S1x128, .f32⟩ : BufTy).Contents (Elt F)),
    unary main_v36 main_v37 (broadcastInDim S262144x128 ![0, 1] bcast_S1x128_S262144x128_0_1 : (⟨S1x128, .f32⟩ : BufTy).Contents (Elt F) → (⟨S262144x128, .f32⟩ : BufTy).Contents (Elt F)),
    binary main_v35 main_v37 main_v38 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v38) (TRef.of (T := ⟨S262144x128, .f32⟩) main_call4_v0) Host.negf,
    TRef.unary (TRef.of (T := ⟨S262144x128, .f32⟩) main_call4_v0) (TRef.of (T := ⟨S262144x128, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S262144x128, .f32⟩) main_call4_v2) (broadcastInDim S262144x128 ![] bcast_S_S262144x128),
    TRef.binary (TRef.of (T := ⟨S262144x128, .f32⟩) main_call4_v2) (TRef.of (T := ⟨S262144x128, .f32⟩) main_call4_v1) (TRef.of (T := ⟨S262144x128, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S262144x128, .f32⟩) main_call4_v4) (broadcastInDim S262144x128 ![] bcast_S_S262144x128),
    TRef.binary (TRef.of (T := ⟨S262144x128, .f32⟩) main_call4_v4) (TRef.of (T := ⟨S262144x128, .f32⟩) main_call4_v3) (TRef.of (T := ⟨S262144x128, .f32⟩) main_call4_v5) Host.divf,
    TRef.binary (TRef.of (T := ⟨S262144x128, .f32⟩) main_v38) (TRef.of (T := ⟨S262144x128, .f32⟩) main_call4_v5) (TRef.of (T := ⟨S262144x128, .f32⟩) main_v39) mulf,
    binary main_v39 main_v33 main_v40 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v34 main_v41 (broadcastInDim S1x128 ![1] bcast_S128_S1x128_1 : (⟨S128, .f32⟩ : BufTy).Contents (Elt F) → (⟨S1x128, .f32⟩ : BufTy).Contents (Elt F)),
    unary main_v41 main_v42 (broadcastInDim S262144x128 ![0, 1] bcast_S1x128_S262144x128_0_1 : (⟨S1x128, .f32⟩ : BufTy).Contents (Elt F) → (⟨S262144x128, .f32⟩ : BufTy).Contents (Elt F)),
    binary main_v40 main_v42 main_v43 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v43) (TRef.of (T := ⟨S262144x128, .f32⟩) main_call5_v0) Host.negf,
    TRef.unary (TRef.of (T := ⟨S262144x128, .f32⟩) main_call5_v0) (TRef.of (T := ⟨S262144x128, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S262144x128, .f32⟩) main_call5_v2) (broadcastInDim S262144x128 ![] bcast_S_S262144x128),
    TRef.binary (TRef.of (T := ⟨S262144x128, .f32⟩) main_call5_v2) (TRef.of (T := ⟨S262144x128, .f32⟩) main_call5_v1) (TRef.of (T := ⟨S262144x128, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S262144x128, .f32⟩) main_call5_v4) (broadcastInDim S262144x128 ![] bcast_S_S262144x128),
    TRef.binary (TRef.of (T := ⟨S262144x128, .f32⟩) main_call5_v4) (TRef.of (T := ⟨S262144x128, .f32⟩) main_call5_v3) (TRef.of (T := ⟨S262144x128, .f32⟩) main_call5_v5) Host.divf,
    TRef.binary (TRef.of (T := ⟨S262144x128, .f32⟩) main_v43) (TRef.of (T := ⟨S262144x128, .f32⟩) main_call5_v5) (TRef.of (T := ⟨S262144x128, .f32⟩) main_v44) mulf,
    binary main_v30 main_v44 main_v45 (addf : (⟨S262144x128, .f32⟩ : BufTy).Contents (Elt F) → (⟨S262144x128, .f32⟩ : BufTy).Contents (Elt F) → (⟨S262144x128, .f32⟩ : BufTy).Contents (Elt F)) ]

/-- Segment 10 (14 operations): the skip connection: m + silu (h·W_f + β_f). -/
def seg10 : List (HloOp τ sig (Elt F)) :=
  [ binary main_v45 main_arg19 main_v46 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg20 main_v47 (broadcastInDim S1x128 ![1] bcast_S128_S1x128_1 : (⟨S128, .f32⟩ : BufTy).Contents (Elt F) → (⟨S1x128, .f32⟩ : BufTy).Contents (Elt F)),
    unary main_v47 main_v48 (broadcastInDim S262144x128 ![0, 1] bcast_S1x128_S262144x128_0_1 : (⟨S1x128, .f32⟩ : BufTy).Contents (Elt F) → (⟨S262144x128, .f32⟩ : BufTy).Contents (Elt F)),
    binary main_v46 main_v48 main_v49 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v49) (TRef.of (T := ⟨S262144x128, .f32⟩) main_call6_v0) Host.negf,
    TRef.unary (TRef.of (T := ⟨S262144x128, .f32⟩) main_call6_v0) (TRef.of (T := ⟨S262144x128, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S262144x128, .f32⟩) main_call6_v2) (broadcastInDim S262144x128 ![] bcast_S_S262144x128),
    TRef.binary (TRef.of (T := ⟨S262144x128, .f32⟩) main_call6_v2) (TRef.of (T := ⟨S262144x128, .f32⟩) main_call6_v1) (TRef.of (T := ⟨S262144x128, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S262144x128, .f32⟩) main_call6_v4) (broadcastInDim S262144x128 ![] bcast_S_S262144x128),
    TRef.binary (TRef.of (T := ⟨S262144x128, .f32⟩) main_call6_v4) (TRef.of (T := ⟨S262144x128, .f32⟩) main_call6_v3) (TRef.of (T := ⟨S262144x128, .f32⟩) main_call6_v5) Host.divf,
    TRef.binary (TRef.of (T := ⟨S262144x128, .f32⟩) main_v49) (TRef.of (T := ⟨S262144x128, .f32⟩) main_call6_v5) (TRef.of (T := ⟨S262144x128, .f32⟩) main_v50) mulf,
    binary main_arg0 main_v50 main_v51 (addf : (⟨S262144x128, .f32⟩ : BufTy).Contents (Elt F) → (⟨S262144x128, .f32⟩ : BufTy).Contents (Elt F) → (⟨S262144x128, .f32⟩ : BufTy).Contents (Elt F)) ]

/-- Segment 11 (35 operations): the first residual pair after the skip connection: member 0 of the stacked weights. -/
def seg11 : List (HloOp τ sig (Elt F)) :=
  [ unary main_arg21 main_v52 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v52 main_v53 rfl shapeCasts_S1x128x128_S128x128,
    unary main_arg22 main_v54 ((extractStridedSlice S1x128 ![0, 0] · slices_S2x128_S1x128_0_0) : (⟨S2x128, .f32⟩ : BufTy).Contents (Elt F) → (⟨S1x128, .f32⟩ : BufTy).Contents (Elt F)),
    reshape main_v54 main_v55 rfl shapeCasts_S1x128_S128,
    unary main_arg23 main_v56 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v56 main_v57 rfl shapeCasts_S1x128x128_S128x128,
    unary main_arg24 main_v58 ((extractStridedSlice S1x128 ![0, 0] · slices_S2x128_S1x128_0_0) : (⟨S2x128, .f32⟩ : BufTy).Contents (Elt F) → (⟨S1x128, .f32⟩ : BufTy).Contents (Elt F)),
    reshape main_v58 main_v59 rfl shapeCasts_S1x128_S128,
    binary main_v51 main_v53 main_v60 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v55 main_v61 (broadcastInDim S1x128 ![1] bcast_S128_S1x128_1 : (⟨S128, .f32⟩ : BufTy).Contents (Elt F) → (⟨S1x128, .f32⟩ : BufTy).Contents (Elt F)),
    unary main_v61 main_v62 (broadcastInDim S262144x128 ![0, 1] bcast_S1x128_S262144x128_0_1 : (⟨S1x128, .f32⟩ : BufTy).Contents (Elt F) → (⟨S262144x128, .f32⟩ : BufTy).Contents (Elt F)),
    binary main_v60 main_v62 main_v63 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v63) (TRef.of (T := ⟨S262144x128, .f32⟩) main_call7_v0) Host.negf,
    TRef.unary (TRef.of (T := ⟨S262144x128, .f32⟩) main_call7_v0) (TRef.of (T := ⟨S262144x128, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S262144x128, .f32⟩) main_call7_v2) (broadcastInDim S262144x128 ![] bcast_S_S262144x128),
    TRef.binary (TRef.of (T := ⟨S262144x128, .f32⟩) main_call7_v2) (TRef.of (T := ⟨S262144x128, .f32⟩) main_call7_v1) (TRef.of (T := ⟨S262144x128, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S262144x128, .f32⟩) main_call7_v4) (broadcastInDim S262144x128 ![] bcast_S_S262144x128),
    TRef.binary (TRef.of (T := ⟨S262144x128, .f32⟩) main_call7_v4) (TRef.of (T := ⟨S262144x128, .f32⟩) main_call7_v3) (TRef.of (T := ⟨S262144x128, .f32⟩) main_call7_v5) Host.divf,
    TRef.binary (TRef.of (T := ⟨S262144x128, .f32⟩) main_v63) (TRef.of (T := ⟨S262144x128, .f32⟩) main_call7_v5) (TRef.of (T := ⟨S262144x128, .f32⟩) main_v64) mulf,
    binary main_v64 main_v57 main_v65 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v59 main_v66 (broadcastInDim S1x128 ![1] bcast_S128_S1x128_1 : (⟨S128, .f32⟩ : BufTy).Contents (Elt F) → (⟨S1x128, .f32⟩ : BufTy).Contents (Elt F)),
    unary main_v66 main_v67 (broadcastInDim S262144x128 ![0, 1] bcast_S1x128_S262144x128_0_1 : (⟨S1x128, .f32⟩ : BufTy).Contents (Elt F) → (⟨S262144x128, .f32⟩ : BufTy).Contents (Elt F)),
    binary main_v65 main_v67 main_v68 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v68) (TRef.of (T := ⟨S262144x128, .f32⟩) main_call8_v0) Host.negf,
    TRef.unary (TRef.of (T := ⟨S262144x128, .f32⟩) main_call8_v0) (TRef.of (T := ⟨S262144x128, .f32⟩) main_call8_v1) Host.exp,
    TRef.nullary (TRef.of (T := ⟨S_, .f32⟩) main_call8_cst) (constant S_ .f32 0x3F800000#32),
    TRef.unary (TRef.of (T := ⟨S_, .f32⟩) main_call8_cst) (TRef.of (T := ⟨S262144x128, .f32⟩) main_call8_v2) (broadcastInDim S262144x128 ![] bcast_S_S262144x128),
    TRef.binary (TRef.of (T := ⟨S262144x128, .f32⟩) main_call8_v2) (TRef.of (T := ⟨S262144x128, .f32⟩) main_call8_v1) (TRef.of (T := ⟨S262144x128, .f32⟩) main_call8_v3) addf,
    TRef.nullary (TRef.of (T := ⟨S_, .f32⟩) main_call8_cst_0) (constant S_ .f32 0x3F800000#32),
    TRef.unary (TRef.of (T := ⟨S_, .f32⟩) main_call8_cst_0) (TRef.of (T := ⟨S262144x128, .f32⟩) main_call8_v4) (broadcastInDim S262144x128 ![] bcast_S_S262144x128),
    TRef.binary (TRef.of (T := ⟨S262144x128, .f32⟩) main_call8_v4) (TRef.of (T := ⟨S262144x128, .f32⟩) main_call8_v3) (TRef.of (T := ⟨S262144x128, .f32⟩) main_call8_v5) Host.divf,
    TRef.binary (TRef.of (T := ⟨S262144x128, .f32⟩) main_v68) (TRef.of (T := ⟨S262144x128, .f32⟩) main_call8_v5) (TRef.of (T := ⟨S262144x128, .f32⟩) main_v69) mulf,
    binary main_v51 main_v69 main_v70 (addf : (⟨S262144x128, .f32⟩ : BufTy).Contents (Elt F) → (⟨S262144x128, .f32⟩ : BufTy).Contents (Elt F) → (⟨S262144x128, .f32⟩ : BufTy).Contents (Elt F)) ]

/-- Segment 12 (35 operations): the second residual pair after the skip connection: member 1 of the stacked weights. -/
def seg12 : List (HloOp τ sig (Elt F)) :=
  [ unary main_arg21 main_v71 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v71 main_v72 rfl shapeCasts_S1x128x128_S128x128,
    unary main_arg22 main_v73 ((extractStridedSlice S1x128 ![1, 0] · slices_S2x128_S1x128_1_0) : (⟨S2x128, .f32⟩ : BufTy).Contents (Elt F) → (⟨S1x128, .f32⟩ : BufTy).Contents (Elt F)),
    reshape main_v73 main_v74 rfl shapeCasts_S1x128_S128,
    unary main_arg23 main_v75 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v75 main_v76 rfl shapeCasts_S1x128x128_S128x128,
    unary main_arg24 main_v77 ((extractStridedSlice S1x128 ![1, 0] · slices_S2x128_S1x128_1_0) : (⟨S2x128, .f32⟩ : BufTy).Contents (Elt F) → (⟨S1x128, .f32⟩ : BufTy).Contents (Elt F)),
    reshape main_v77 main_v78 rfl shapeCasts_S1x128_S128,
    binary main_v70 main_v72 main_v79 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v74 main_v80 (broadcastInDim S1x128 ![1] bcast_S128_S1x128_1 : (⟨S128, .f32⟩ : BufTy).Contents (Elt F) → (⟨S1x128, .f32⟩ : BufTy).Contents (Elt F)),
    unary main_v80 main_v81 (broadcastInDim S262144x128 ![0, 1] bcast_S1x128_S262144x128_0_1 : (⟨S1x128, .f32⟩ : BufTy).Contents (Elt F) → (⟨S262144x128, .f32⟩ : BufTy).Contents (Elt F)),
    binary main_v79 main_v81 main_v82 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v82) (TRef.of (T := ⟨S262144x128, .f32⟩) main_call9_v0) Host.negf,
    TRef.unary (TRef.of (T := ⟨S262144x128, .f32⟩) main_call9_v0) (TRef.of (T := ⟨S262144x128, .f32⟩) main_call9_v1) Host.exp,
    TRef.nullary (TRef.of (T := ⟨S_, .f32⟩) main_call9_cst) (constant S_ .f32 0x3F800000#32),
    TRef.unary (TRef.of (T := ⟨S_, .f32⟩) main_call9_cst) (TRef.of (T := ⟨S262144x128, .f32⟩) main_call9_v2) (broadcastInDim S262144x128 ![] bcast_S_S262144x128),
    TRef.binary (TRef.of (T := ⟨S262144x128, .f32⟩) main_call9_v2) (TRef.of (T := ⟨S262144x128, .f32⟩) main_call9_v1) (TRef.of (T := ⟨S262144x128, .f32⟩) main_call9_v3) addf,
    TRef.nullary (TRef.of (T := ⟨S_, .f32⟩) main_call9_cst_0) (constant S_ .f32 0x3F800000#32),
    TRef.unary (TRef.of (T := ⟨S_, .f32⟩) main_call9_cst_0) (TRef.of (T := ⟨S262144x128, .f32⟩) main_call9_v4) (broadcastInDim S262144x128 ![] bcast_S_S262144x128),
    TRef.binary (TRef.of (T := ⟨S262144x128, .f32⟩) main_call9_v4) (TRef.of (T := ⟨S262144x128, .f32⟩) main_call9_v3) (TRef.of (T := ⟨S262144x128, .f32⟩) main_call9_v5) Host.divf,
    TRef.binary (TRef.of (T := ⟨S262144x128, .f32⟩) main_v82) (TRef.of (T := ⟨S262144x128, .f32⟩) main_call9_v5) (TRef.of (T := ⟨S262144x128, .f32⟩) main_v83) mulf,
    binary main_v83 main_v76 main_v84 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v78 main_v85 (broadcastInDim S1x128 ![1] bcast_S128_S1x128_1 : (⟨S128, .f32⟩ : BufTy).Contents (Elt F) → (⟨S1x128, .f32⟩ : BufTy).Contents (Elt F)),
    unary main_v85 main_v86 (broadcastInDim S262144x128 ![0, 1] bcast_S1x128_S262144x128_0_1 : (⟨S1x128, .f32⟩ : BufTy).Contents (Elt F) → (⟨S262144x128, .f32⟩ : BufTy).Contents (Elt F)),
    binary main_v84 main_v86 main_v87 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v87) (TRef.of (T := ⟨S262144x128, .f32⟩) main_call10_v0) Host.negf,
    TRef.unary (TRef.of (T := ⟨S262144x128, .f32⟩) main_call10_v0) (TRef.of (T := ⟨S262144x128, .f32⟩) main_call10_v1) Host.exp,
    TRef.nullary (TRef.of (T := ⟨S_, .f32⟩) main_call10_cst) (constant S_ .f32 0x3F800000#32),
    TRef.unary (TRef.of (T := ⟨S_, .f32⟩) main_call10_cst) (TRef.of (T := ⟨S262144x128, .f32⟩) main_call10_v2) (broadcastInDim S262144x128 ![] bcast_S_S262144x128),
    TRef.binary (TRef.of (T := ⟨S262144x128, .f32⟩) main_call10_v2) (TRef.of (T := ⟨S262144x128, .f32⟩) main_call10_v1) (TRef.of (T := ⟨S262144x128, .f32⟩) main_call10_v3) addf,
    TRef.nullary (TRef.of (T := ⟨S_, .f32⟩) main_call10_cst_0) (constant S_ .f32 0x3F800000#32),
    TRef.unary (TRef.of (T := ⟨S_, .f32⟩) main_call10_cst_0) (TRef.of (T := ⟨S262144x128, .f32⟩) main_call10_v4) (broadcastInDim S262144x128 ![] bcast_S_S262144x128),
    TRef.binary (TRef.of (T := ⟨S262144x128, .f32⟩) main_call10_v4) (TRef.of (T := ⟨S262144x128, .f32⟩) main_call10_v3) (TRef.of (T := ⟨S262144x128, .f32⟩) main_call10_v5) Host.divf,
    TRef.binary (TRef.of (T := ⟨S262144x128, .f32⟩) main_v87) (TRef.of (T := ⟨S262144x128, .f32⟩) main_call10_v5) (TRef.of (T := ⟨S262144x128, .f32⟩) main_v88) mulf,
    binary main_v70 main_v88 main_v89 (addf : (⟨S262144x128, .f32⟩ : BufTy).Contents (Elt F) → (⟨S262144x128, .f32⟩ : BufTy).Contents (Elt F) → (⟨S262144x128, .f32⟩ : BufTy).Contents (Elt F)) ]

end Cert.ReferenceIdeal.RefRun

end
-- ==== Proof.RefOps.lean ====
/-
  The reference program as ONE list of its 181 host operations, in program order.

  The program is the straight line of this list; the list is the twelve segments one after the other; every operation
  touches buffers of the one core only; and the signature scopes no buffer and no semaphore.
-/
import proofs.«143475_j11940009083127_2_alg».proof.Proof.RefSegs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 181 operations, in order. -/
abbrev ops : List (HloOp τ sig (Elt F)) :=
  [ binary main_arg1 main_arg5 main_v0 ((fun l r => Host.dotGeneral dot_S262144x6_S6x8_S262144x8_1_0_0_1_n_n none l r) : (⟨S262144x6, .f32⟩ : BufTy).Contents (Elt F) → (⟨S6x8, .f32⟩ : BufTy).Contents (Elt F) → (⟨S262144x8, .f32⟩ : BufTy).Contents (Elt F)),
    binary main_v0 main_arg6 main_v1 ((fun l r => Host.dotGeneral dot_S262144x8_S8x128_S262144x128_1_0_0_1_n_n none l r) : (⟨S262144x8, .f32⟩ : BufTy).Contents (Elt F) → (⟨S8x128, .f32⟩ : BufTy).Contents (Elt F) → (⟨S262144x128, .f32⟩ : BufTy).Contents (Elt F)),
    binary main_arg0 main_arg9 main_v2 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg10 main_v3 (broadcastInDim S1x128 ![1] bcast_S128_S1x128_1 : (⟨S128, .f32⟩ : BufTy).Contents (Elt F) → (⟨S1x128, .f32⟩ : BufTy).Contents (Elt F)),
    unary main_v3 main_v4 (broadcastInDim S262144x128 ![0, 1] bcast_S1x128_S262144x128_0_1 : (⟨S1x128, .f32⟩ : BufTy).Contents (Elt F) → (⟨S262144x128, .f32⟩ : BufTy).Contents (Elt F)),
    binary main_v2 main_v4 main_v5 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v5) (TRef.of (T := ⟨S262144x128, .f32⟩) main_call0_v0) Host.negf,
    TRef.unary (TRef.of (T := ⟨S262144x128, .f32⟩) main_call0_v0) (TRef.of (T := ⟨S262144x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S262144x128, .f32⟩) main_call0_v2) (broadcastInDim S262144x128 ![] bcast_S_S262144x128),
    TRef.binary (TRef.of (T := ⟨S262144x128, .f32⟩) main_call0_v2) (TRef.of (T := ⟨S262144x128, .f32⟩) main_call0_v1) (TRef.of (T := ⟨S262144x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S262144x128, .f32⟩) main_call0_v4) (broadcastInDim S262144x128 ![] bcast_S_S262144x128),
    TRef.binary (TRef.of (T := ⟨S262144x128, .f32⟩) main_call0_v4) (TRef.of (T := ⟨S262144x128, .f32⟩) main_call0_v3) (TRef.of (T := ⟨S262144x128, .f32⟩) main_call0_v5) Host.divf,
    TRef.binary (TRef.of (T := ⟨S262144x128, .f32⟩) main_v5) (TRef.of (T := ⟨S262144x128, .f32⟩) main_call0_v5) (TRef.of (T := ⟨S262144x128, .f32⟩) main_v6) mulf,
    binary main_arg0 main_arg11 main_v7 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg12 main_v8 (broadcastInDim S1x128 ![1] bcast_S128_S1x128_1 : (⟨S128, .f32⟩ : BufTy).Contents (Elt F) → (⟨S1x128, .f32⟩ : BufTy).Contents (Elt F)),
    unary main_v8 main_v9 (broadcastInDim S262144x128 ![0, 1] bcast_S1x128_S262144x128_0_1 : (⟨S1x128, .f32⟩ : BufTy).Contents (Elt F) → (⟨S262144x128, .f32⟩ : BufTy).Contents (Elt F)),
    binary main_v7 main_v9 main_v10 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v10) (TRef.of (T := ⟨S262144x128, .f32⟩) main_call1_v0) Host.negf,
    TRef.unary (TRef.of (T := ⟨S262144x128, .f32⟩) main_call1_v0) (TRef.of (T := ⟨S262144x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S262144x128, .f32⟩) main_call1_v2) (broadcastInDim S262144x128 ![] bcast_S_S262144x128),
    TRef.binary (TRef.of (T := ⟨S262144x128, .f32⟩) main_call1_v2) (TRef.of (T := ⟨S262144x128, .f32⟩) main_call1_v1) (TRef.of (T := ⟨S262144x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S262144x128, .f32⟩) main_call1_v4) (broadcastInDim S262144x128 ![] bcast_S_S262144x128),
    TRef.binary (TRef.of (T := ⟨S262144x128, .f32⟩) main_call1_v4) (TRef.of (T := ⟨S262144x128, .f32⟩) main_call1_v3) (TRef.of (T := ⟨S262144x128, .f32⟩) main_call1_v5) Host.divf,
    TRef.binary (TRef.of (T := ⟨S262144x128, .f32⟩) main_v10) (TRef.of (T := ⟨S262144x128, .f32⟩) main_call1_v5) (TRef.of (T := ⟨S262144x128, .f32⟩) main_v11) mulf,
    binary main_v11 main_v1 main_v12 (mulf : (⟨S262144x128, .f32⟩ : BufTy).Contents (Elt F) → (⟨S262144x128, .f32⟩ : BufTy).Contents (Elt F) → (⟨S262144x128, .f32⟩ : BufTy).Contents (Elt F)),
    binary main_v12 main_arg13 main_v13 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)),
    TRef.unary (TRef.of (T := ⟨S262144x64, .f32⟩) main_v13) (TRef.of (T := ⟨S262144x64, .f32⟩) main_call2_v0) Host.negf,
    TRef.unary (TRef.of (T := ⟨S262144x64, .f32⟩) main_call2_v0) (TRef.of (T := ⟨S262144x64, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S262144x64, .f32⟩) main_call2_v2) (broadcastInDim S262144x64 ![] bcast_S_S262144x64),
    TRef.binary (TRef.of (T := ⟨S262144x64, .f32⟩) main_call2_v2) (TRef.of (T := ⟨S262144x64, .f32⟩) main_call2_v1) (TRef.of (T := ⟨S262144x64, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S262144x64, .f32⟩) main_call2_v4) (broadcastInDim S262144x64 ![] bcast_S_S262144x64),
    TRef.binary (TRef.of (T := ⟨S262144x64, .f32⟩) main_call2_v4) (TRef.of (T := ⟨S262144x64, .f32⟩) main_call2_v3) (TRef.of (T := ⟨S262144x64, .f32⟩) main_call2_v5) Host.divf,
    TRef.binary (TRef.of (T := ⟨S262144x64, .f32⟩) main_v13) (TRef.of (T := ⟨S262144x64, .f32⟩) main_call2_v5) (TRef.of (T := ⟨S262144x64, .f32⟩) main_v14) mulf,
    binary main_arg2 main_arg7 main_v15 ((fun l r => Host.dotGeneral dot_S2097152x42_S42x8_S2097152x8_1_0_0_1_n_n none l r) : (⟨S2097152x42, .f32⟩ : BufTy).Contents (Elt F) → (⟨S42x8, .f32⟩ : BufTy).Contents (Elt F) → (⟨S2097152x8, .f32⟩ : BufTy).Contents (Elt F)),
    binary main_v15 main_arg8 main_v16 ((fun l r => Host.dotGeneral dot_S2097152x8_S8x64_S2097152x64_1_0_0_1_n_n none l r) : (⟨S2097152x8, .f32⟩ : BufTy).Contents (Elt F) → (⟨S8x64, .f32⟩ : BufTy).Contents (Elt F) → (⟨S2097152x64, .f32⟩ : BufTy).Contents (Elt F)),
    nullary main_c (constantI S_ 32 0#32),
    unary main_c main_v17 (broadcastInDim S2097152 ![] bcast_S_S2097152 : (⟨S_, .i32⟩ : BufTy).Contents (Elt F) → (⟨S2097152, .i32⟩ : BufTy).Contents (Elt F)),
    binary main_arg3 main_v17 main_v18 (cmpi .slt : (⟨S2097152, .i32⟩ : BufTy).Contents (Elt F) → (⟨S2097152, .i32⟩ : BufTy).Contents (Elt F) → (⟨S2097152, .i1⟩ : BufTy).Contents (Elt F)),
    nullary main_c_0 (constantI S_ 32 262144#32),
    unary main_c_0 main_v19 (broadcastInDim S2097152 ![] bcast_S_S2097152 : (⟨S_, .i32⟩ : BufTy).Contents (Elt F) → (⟨S2097152, .i32⟩ : BufTy).Contents (Elt F)),
    binary main_arg3 main_v19 main_v20 (addi : (⟨S2097152, .i32⟩ : BufTy).Contents (Elt F) → (⟨S2097152, .i32⟩ : BufTy).Contents (Elt F) → (⟨S2097152, .i32⟩ : BufTy).Contents (Elt F)),
    ternary main_v18 main_v20 main_arg3 main_v21 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v21 main_v22 (broadcastInDim S2097152x1 ![0] bcast_S2097152_S2097152x1_0 : (⟨S2097152, .i32⟩ : BufTy).Contents (Elt F) → (⟨S2097152x1, .i32⟩ : BufTy).Contents (Elt F)),
    binary main_v14 main_v22 main_v23 ((fun x i => Host.gather gather_S262144x64_S2097152x1_S2097152x64_1_0_n_n_0_1_164 x i) : (⟨S262144x64, .f32⟩ : BufTy).Contents (Elt F) → (⟨S2097152x1, .i32⟩ : BufTy).Contents (Elt F) → (⟨S2097152x64, .f32⟩ : BufTy).Contents (Elt F)),
    binary main_v23 main_v16 main_v24 (mulf : (⟨S2097152x64, .f32⟩ : BufTy).Contents (Elt F) → (⟨S2097152x64, .f32⟩ : BufTy).Contents (Elt F) → (⟨S2097152x64, .f32⟩ : BufTy).Contents (Elt F)),
    nullary main_cst (constant S_ .f32 0x00000000#32),
    unary main_cst main_v25 (broadcastInDim S262144x64 ![] bcast_S_S262144x64 : (⟨S_, .f32⟩ : BufTy).Contents (Elt F) → (⟨S262144x64, .f32⟩ : BufTy).Contents (Elt F)),
    unary main_arg4 main_v26 (broadcastInDim S2097152x1 ![0] bcast_S2097152_S2097152x1_0 : (⟨S2097152, .i32⟩ : BufTy).Contents (Elt F) → (⟨S2097152x1, .i32⟩ : BufTy).Contents (Elt F)),
    ternary main_v25 main_v26 main_v24 main_v27 ((fun x i u => Host.scatterAdd scatter_S262144x64_S2097152x1_S2097152x64_1_0_0_1 x i u) : (⟨S262144x64, .f32⟩ : BufTy).Contents (Elt F) → (⟨S2097152x1, .i32⟩ : BufTy).Contents (Elt F) → (⟨S2097152x64, .f32⟩ : BufTy).Contents (Elt F) → (⟨S262144x64, .f32⟩ : BufTy).Contents (Elt F)),
    binary main_v27 main_arg14 main_v28 ((fun l r => Host.dotGeneral dot_S262144x64_S64x128_S262144x128_1_0_0_1_n_n none l r) : (⟨S262144x64, .f32⟩ : BufTy).Contents (Elt F) → (⟨S64x128, .f32⟩ : BufTy).Contents (Elt F) → (⟨S262144x128, .f32⟩ : BufTy).Contents (Elt F)),
    TRef.unary (TRef.of (T := ⟨S262144x128, .f32⟩) main_v28) (TRef.of (T := ⟨S262144x128, .f32⟩) main_call3_v0) Host.negf,
    TRef.unary (TRef.of (T := ⟨S262144x128, .f32⟩) main_call3_v0) (TRef.of (T := ⟨S262144x128, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S262144x128, .f32⟩) main_call3_v2) (broadcastInDim S262144x128 ![] bcast_S_S262144x128),
    TRef.binary (TRef.of (T := ⟨S262144x128, .f32⟩) main_call3_v2) (TRef.of (T := ⟨S262144x128, .f32⟩) main_call3_v1) (TRef.of (T := ⟨S262144x128, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S262144x128, .f32⟩) main_call3_v4) (broadcastInDim S262144x128 ![] bcast_S_S262144x128),
    TRef.binary (TRef.of (T := ⟨S262144x128, .f32⟩) main_call3_v4) (TRef.of (T := ⟨S262144x128, .f32⟩) main_call3_v3) (TRef.of (T := ⟨S262144x128, .f32⟩) main_call3_v5) Host.divf,
    TRef.binary (TRef.of (T := ⟨S262144x128, .f32⟩) main_v28) (TRef.of (T := ⟨S262144x128, .f32⟩) main_call3_v5) (TRef.of (T := ⟨S262144x128, .f32⟩) main_v29) mulf,
    binary main_v29 main_v6 main_v30 (addf : (⟨S262144x128, .f32⟩ : BufTy).Contents (Elt F) → (⟨S262144x128, .f32⟩ : BufTy).Contents (Elt F) → (⟨S262144x128, .f32⟩ : BufTy).Contents (Elt F)),
    reshape main_arg15 main_v31 rfl shapeCasts_S1x128x128_S128x128,
    reshape main_arg16 main_v32 rfl shapeCasts_S1x128_S128,
    reshape main_arg17 main_v33 rfl shapeCasts_S1x128x128_S128x128,
    reshape main_arg18 main_v34 rfl shapeCasts_S1x128_S128,
    binary main_v30 main_v31 main_v35 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v32 main_v36 (broadcastInDim S1x128 ![1] bcast_S128_S1x128_1 : (⟨S128, .f32⟩ : BufTy).Contents (Elt F) → (⟨S1x128, .f32⟩ : BufTy).Contents (Elt F)),
    unary main_v36 main_v37 (broadcastInDim S262144x128 ![0, 1] bcast_S1x128_S262144x128_0_1 : (⟨S1x128, .f32⟩ : BufTy).Contents (Elt F) → (⟨S262144x128, .f32⟩ : BufTy).Contents (Elt F)),
    binary main_v35 main_v37 main_v38 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v38) (TRef.of (T := ⟨S262144x128, .f32⟩) main_call4_v0) Host.negf,
    TRef.unary (TRef.of (T := ⟨S262144x128, .f32⟩) main_call4_v0) (TRef.of (T := ⟨S262144x128, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S262144x128, .f32⟩) main_call4_v2) (broadcastInDim S262144x128 ![] bcast_S_S262144x128),
    TRef.binary (TRef.of (T := ⟨S262144x128, .f32⟩) main_call4_v2) (TRef.of (T := ⟨S262144x128, .f32⟩) main_call4_v1) (TRef.of (T := ⟨S262144x128, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S262144x128, .f32⟩) main_call4_v4) (broadcastInDim S262144x128 ![] bcast_S_S262144x128),
    TRef.binary (TRef.of (T := ⟨S262144x128, .f32⟩) main_call4_v4) (TRef.of (T := ⟨S262144x128, .f32⟩) main_call4_v3) (TRef.of (T := ⟨S262144x128, .f32⟩) main_call4_v5) Host.divf,
    TRef.binary (TRef.of (T := ⟨S262144x128, .f32⟩) main_v38) (TRef.of (T := ⟨S262144x128, .f32⟩) main_call4_v5) (TRef.of (T := ⟨S262144x128, .f32⟩) main_v39) mulf,
    binary main_v39 main_v33 main_v40 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v34 main_v41 (broadcastInDim S1x128 ![1] bcast_S128_S1x128_1 : (⟨S128, .f32⟩ : BufTy).Contents (Elt F) → (⟨S1x128, .f32⟩ : BufTy).Contents (Elt F)),
    unary main_v41 main_v42 (broadcastInDim S262144x128 ![0, 1] bcast_S1x128_S262144x128_0_1 : (⟨S1x128, .f32⟩ : BufTy).Contents (Elt F) → (⟨S262144x128, .f32⟩ : BufTy).Contents (Elt F)),
    binary main_v40 main_v42 main_v43 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v43) (TRef.of (T := ⟨S262144x128, .f32⟩) main_call5_v0) Host.negf,
    TRef.unary (TRef.of (T := ⟨S262144x128, .f32⟩) main_call5_v0) (TRef.of (T := ⟨S262144x128, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S262144x128, .f32⟩) main_call5_v2) (broadcastInDim S262144x128 ![] bcast_S_S262144x128),
    TRef.binary (TRef.of (T := ⟨S262144x128, .f32⟩) main_call5_v2) (TRef.of (T := ⟨S262144x128, .f32⟩) main_call5_v1) (TRef.of (T := ⟨S262144x128, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S262144x128, .f32⟩) main_call5_v4) (broadcastInDim S262144x128 ![] bcast_S_S262144x128),
    TRef.binary (TRef.of (T := ⟨S262144x128, .f32⟩) main_call5_v4) (TRef.of (T := ⟨S262144x128, .f32⟩) main_call5_v3) (TRef.of (T := ⟨S262144x128, .f32⟩) main_call5_v5) Host.divf,
    TRef.binary (TRef.of (T := ⟨S262144x128, .f32⟩) main_v43) (TRef.of (T := ⟨S262144x128, .f32⟩) main_call5_v5) (TRef.of (T := ⟨S262144x128, .f32⟩) main_v44) mulf,
    binary main_v30 main_v44 main_v45 (addf : (⟨S262144x128, .f32⟩ : BufTy).Contents (Elt F) → (⟨S262144x128, .f32⟩ : BufTy).Contents (Elt F) → (⟨S262144x128, .f32⟩ : BufTy).Contents (Elt F)),
    binary main_v45 main_arg19 main_v46 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg20 main_v47 (broadcastInDim S1x128 ![1] bcast_S128_S1x128_1 : (⟨S128, .f32⟩ : BufTy).Contents (Elt F) → (⟨S1x128, .f32⟩ : BufTy).Contents (Elt F)),
    unary main_v47 main_v48 (broadcastInDim S262144x128 ![0, 1] bcast_S1x128_S262144x128_0_1 : (⟨S1x128, .f32⟩ : BufTy).Contents (Elt F) → (⟨S262144x128, .f32⟩ : BufTy).Contents (Elt F)),
    binary main_v46 main_v48 main_v49 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v49) (TRef.of (T := ⟨S262144x128, .f32⟩) main_call6_v0) Host.negf,
    TRef.unary (TRef.of (T := ⟨S262144x128, .f32⟩) main_call6_v0) (TRef.of (T := ⟨S262144x128, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S262144x128, .f32⟩) main_call6_v2) (broadcastInDim S262144x128 ![] bcast_S_S262144x128),
    TRef.binary (TRef.of (T := ⟨S262144x128, .f32⟩) main_call6_v2) (TRef.of (T := ⟨S262144x128, .f32⟩) main_call6_v1) (TRef.of (T := ⟨S262144x128, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S262144x128, .f32⟩) main_call6_v4) (broadcastInDim S262144x128 ![] bcast_S_S262144x128),
    TRef.binary (TRef.of (T := ⟨S262144x128, .f32⟩) main_call6_v4) (TRef.of (T := ⟨S262144x128, .f32⟩) main_call6_v3) (TRef.of (T := ⟨S262144x128, .f32⟩) main_call6_v5) Host.divf,
    TRef.binary (TRef.of (T := ⟨S262144x128, .f32⟩) main_v49) (TRef.of (T := ⟨S262144x128, .f32⟩) main_call6_v5) (TRef.of (T := ⟨S262144x128, .f32⟩) main_v50) mulf,
    binary main_arg0 main_v50 main_v51 (addf : (⟨S262144x128, .f32⟩ : BufTy).Contents (Elt F) → (⟨S262144x128, .f32⟩ : BufTy).Contents (Elt F) → (⟨S262144x128, .f32⟩ : BufTy).Contents (Elt F)),
    unary main_arg21 main_v52 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v52 main_v53 rfl shapeCasts_S1x128x128_S128x128,
    unary main_arg22 main_v54 ((extractStridedSlice S1x128 ![0, 0] · slices_S2x128_S1x128_0_0) : (⟨S2x128, .f32⟩ : BufTy).Contents (Elt F) → (⟨S1x128, .f32⟩ : BufTy).Contents (Elt F)),
    reshape main_v54 main_v55 rfl shapeCasts_S1x128_S128,
    unary main_arg23 main_v56 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v56 main_v57 rfl shapeCasts_S1x128x128_S128x128,
    unary main_arg24 main_v58 ((extractStridedSlice S1x128 ![0, 0] · slices_S2x128_S1x128_0_0) : (⟨S2x128, .f32⟩ : BufTy).Contents (Elt F) → (⟨S1x128, .f32⟩ : BufTy).Contents (Elt F)),
    reshape main_v58 main_v59 rfl shapeCasts_S1x128_S128,
    binary main_v51 main_v53 main_v60 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v55 main_v61 (broadcastInDim S1x128 ![1] bcast_S128_S1x128_1 : (⟨S128, .f32⟩ : BufTy).Contents (Elt F) → (⟨S1x128, .f32⟩ : BufTy).Contents (Elt F)),
    unary main_v61 main_v62 (broadcastInDim S262144x128 ![0, 1] bcast_S1x128_S262144x128_0_1 : (⟨S1x128, .f32⟩ : BufTy).Contents (Elt F) → (⟨S262144x128, .f32⟩ : BufTy).Contents (Elt F)),
    binary main_v60 main_v62 main_v63 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v63) (TRef.of (T := ⟨S262144x128, .f32⟩) main_call7_v0) Host.negf,
    TRef.unary (TRef.of (T := ⟨S262144x128, .f32⟩) main_call7_v0) (TRef.of (T := ⟨S262144x128, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S262144x128, .f32⟩) main_call7_v2) (broadcastInDim S262144x128 ![] bcast_S_S262144x128),
    TRef.binary (TRef.of (T := ⟨S262144x128, .f32⟩) main_call7_v2) (TRef.of (T := ⟨S262144x128, .f32⟩) main_call7_v1) (TRef.of (T := ⟨S262144x128, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S262144x128, .f32⟩) main_call7_v4) (broadcastInDim S262144x128 ![] bcast_S_S262144x128),
    TRef.binary (TRef.of (T := ⟨S262144x128, .f32⟩) main_call7_v4) (TRef.of (T := ⟨S262144x128, .f32⟩) main_call7_v3) (TRef.of (T := ⟨S262144x128, .f32⟩) main_call7_v5) Host.divf,
    TRef.binary (TRef.of (T := ⟨S262144x128, .f32⟩) main_v63) (TRef.of (T := ⟨S262144x128, .f32⟩) main_call7_v5) (TRef.of (T := ⟨S262144x128, .f32⟩) main_v64) mulf,
    binary main_v64 main_v57 main_v65 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v59 main_v66 (broadcastInDim S1x128 ![1] bcast_S128_S1x128_1 : (⟨S128, .f32⟩ : BufTy).Contents (Elt F) → (⟨S1x128, .f32⟩ : BufTy).Contents (Elt F)),
    unary main_v66 main_v67 (broadcastInDim S262144x128 ![0, 1] bcast_S1x128_S262144x128_0_1 : (⟨S1x128, .f32⟩ : BufTy).Contents (Elt F) → (⟨S262144x128, .f32⟩ : BufTy).Contents (Elt F)),
    binary main_v65 main_v67 main_v68 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v68) (TRef.of (T := ⟨S262144x128, .f32⟩) main_call8_v0) Host.negf,
    TRef.unary (TRef.of (T := ⟨S262144x128, .f32⟩) main_call8_v0) (TRef.of (T := ⟨S262144x128, .f32⟩) main_call8_v1) Host.exp,
    TRef.nullary (TRef.of (T := ⟨S_, .f32⟩) main_call8_cst) (constant S_ .f32 0x3F800000#32),
    TRef.unary (TRef.of (T := ⟨S_, .f32⟩) main_call8_cst) (TRef.of (T := ⟨S262144x128, .f32⟩) main_call8_v2) (broadcastInDim S262144x128 ![] bcast_S_S262144x128),
    TRef.binary (TRef.of (T := ⟨S262144x128, .f32⟩) main_call8_v2) (TRef.of (T := ⟨S262144x128, .f32⟩) main_call8_v1) (TRef.of (T := ⟨S262144x128, .f32⟩) main_call8_v3) addf,
    TRef.nullary (TRef.of (T := ⟨S_, .f32⟩) main_call8_cst_0) (constant S_ .f32 0x3F800000#32),
    TRef.unary (TRef.of (T := ⟨S_, .f32⟩) main_call8_cst_0) (TRef.of (T := ⟨S262144x128, .f32⟩) main_call8_v4) (broadcastInDim S262144x128 ![] bcast_S_S262144x128),
    TRef.binary (TRef.of (T := ⟨S262144x128, .f32⟩) main_call8_v4) (TRef.of (T := ⟨S262144x128, .f32⟩) main_call8_v3) (TRef.of (T := ⟨S262144x128, .f32⟩) main_call8_v5) Host.divf,
    TRef.binary (TRef.of (T := ⟨S262144x128, .f32⟩) main_v68) (TRef.of (T := ⟨S262144x128, .f32⟩) main_call8_v5) (TRef.of (T := ⟨S262144x128, .f32⟩) main_v69) mulf,
    binary main_v51 main_v69 main_v70 (addf : (⟨S262144x128, .f32⟩ : BufTy).Contents (Elt F) → (⟨S262144x128, .f32⟩ : BufTy).Contents (Elt F) → (⟨S262144x128, .f32⟩ : BufTy).Contents (Elt F)),
    unary main_arg21 main_v71 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v71 main_v72 rfl shapeCasts_S1x128x128_S128x128,
    unary main_arg22 main_v73 ((extractStridedSlice S1x128 ![1, 0] · slices_S2x128_S1x128_1_0) : (⟨S2x128, .f32⟩ : BufTy).Contents (Elt F) → (⟨S1x128, .f32⟩ : BufTy).Contents (Elt F)),
    reshape main_v73 main_v74 rfl shapeCasts_S1x128_S128,
    unary main_arg23 main_v75 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v75 main_v76 rfl shapeCasts_S1x128x128_S128x128,
    unary main_arg24 main_v77 ((extractStridedSlice S1x128 ![1, 0] · slices_S2x128_S1x128_1_0) : (⟨S2x128, .f32⟩ : BufTy).Contents (Elt F) → (⟨S1x128, .f32⟩ : BufTy).Contents (Elt F)),
    reshape main_v77 main_v78 rfl shapeCasts_S1x128_S128,
    binary main_v70 main_v72 main_v79 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v74 main_v80 (broadcastInDim S1x128 ![1] bcast_S128_S1x128_1 : (⟨S128, .f32⟩ : BufTy).Contents (Elt F) → (⟨S1x128, .f32⟩ : BufTy).Contents (Elt F)),
    unary main_v80 main_v81 (broadcastInDim S262144x128 ![0, 1] bcast_S1x128_S262144x128_0_1 : (⟨S1x128, .f32⟩ : BufTy).Contents (Elt F) → (⟨S262144x128, .f32⟩ : BufTy).Contents (Elt F)),
    binary main_v79 main_v81 main_v82 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v82) (TRef.of (T := ⟨S262144x128, .f32⟩) main_call9_v0) Host.negf,
    TRef.unary (TRef.of (T := ⟨S262144x128, .f32⟩) main_call9_v0) (TRef.of (T := ⟨S262144x128, .f32⟩) main_call9_v1) Host.exp,
    TRef.nullary (TRef.of (T := ⟨S_, .f32⟩) main_call9_cst) (constant S_ .f32 0x3F800000#32),
    TRef.unary (TRef.of (T := ⟨S_, .f32⟩) main_call9_cst) (TRef.of (T := ⟨S262144x128, .f32⟩) main_call9_v2) (broadcastInDim S262144x128 ![] bcast_S_S262144x128),
    TRef.binary (TRef.of (T := ⟨S262144x128, .f32⟩) main_call9_v2) (TRef.of (T := ⟨S262144x128, .f32⟩) main_call9_v1) (TRef.of (T := ⟨S262144x128, .f32⟩) main_call9_v3) addf,
    TRef.nullary (TRef.of (T := ⟨S_, .f32⟩) main_call9_cst_0) (constant S_ .f32 0x3F800000#32),
    TRef.unary (TRef.of (T := ⟨S_, .f32⟩) main_call9_cst_0) (TRef.of (T := ⟨S262144x128, .f32⟩) main_call9_v4) (broadcastInDim S262144x128 ![] bcast_S_S262144x128),
    TRef.binary (TRef.of (T := ⟨S262144x128, .f32⟩) main_call9_v4) (TRef.of (T := ⟨S262144x128, .f32⟩) main_call9_v3) (TRef.of (T := ⟨S262144x128, .f32⟩) main_call9_v5) Host.divf,
    TRef.binary (TRef.of (T := ⟨S262144x128, .f32⟩) main_v82) (TRef.of (T := ⟨S262144x128, .f32⟩) main_call9_v5) (TRef.of (T := ⟨S262144x128, .f32⟩) main_v83) mulf,
    binary main_v83 main_v76 main_v84 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_v78 main_v85 (broadcastInDim S1x128 ![1] bcast_S128_S1x128_1 : (⟨S128, .f32⟩ : BufTy).Contents (Elt F) → (⟨S1x128, .f32⟩ : BufTy).Contents (Elt F)),
    unary main_v85 main_v86 (broadcastInDim S262144x128 ![0, 1] bcast_S1x128_S262144x128_0_1 : (⟨S1x128, .f32⟩ : BufTy).Contents (Elt F) → (⟨S262144x128, .f32⟩ : BufTy).Contents (Elt F)),
    binary main_v84 main_v86 main_v87 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v87) (TRef.of (T := ⟨S262144x128, .f32⟩) main_call10_v0) Host.negf,
    TRef.unary (TRef.of (T := ⟨S262144x128, .f32⟩) main_call10_v0) (TRef.of (T := ⟨S262144x128, .f32⟩) main_call10_v1) Host.exp,
    TRef.nullary (TRef.of (T := ⟨S_, .f32⟩) main_call10_cst) (constant S_ .f32 0x3F800000#32),
    TRef.unary (TRef.of (T := ⟨S_, .f32⟩) main_call10_cst) (TRef.of (T := ⟨S262144x128, .f32⟩) main_call10_v2) (broadcastInDim S262144x128 ![] bcast_S_S262144x128),
    TRef.binary (TRef.of (T := ⟨S262144x128, .f32⟩) main_call10_v2) (TRef.of (T := ⟨S262144x128, .f32⟩) main_call10_v1) (TRef.of (T := ⟨S262144x128, .f32⟩) main_call10_v3) addf,
    TRef.nullary (TRef.of (T := ⟨S_, .f32⟩) main_call10_cst_0) (constant S_ .f32 0x3F800000#32),
    TRef.unary (TRef.of (T := ⟨S_, .f32⟩) main_call10_cst_0) (TRef.of (T := ⟨S262144x128, .f32⟩) main_call10_v4) (broadcastInDim S262144x128 ![] bcast_S_S262144x128),
    TRef.binary (TRef.of (T := ⟨S262144x128, .f32⟩) main_call10_v4) (TRef.of (T := ⟨S262144x128, .f32⟩) main_call10_v3) (TRef.of (T := ⟨S262144x128, .f32⟩) main_call10_v5) Host.divf,
    TRef.binary (TRef.of (T := ⟨S262144x128, .f32⟩) main_v87) (TRef.of (T := ⟨S262144x128, .f32⟩) main_call10_v5) (TRef.of (T := ⟨S262144x128, .f32⟩) main_v88) mulf,
    binary main_v70 main_v88 main_v89 (addf : (⟨S262144x128, .f32⟩ : BufTy).Contents (Elt F) → (⟨S262144x128, .f32⟩ : BufTy).Contents (Elt F) → (⟨S262144x128, .f32⟩ : BufTy).Contents (Elt F)) ]

/-- The whole list is the segments one after the other. -/
theorem ops_eq_segs : (ops : List (HloOp τ sig (Elt F))) =
    seg1 ++ seg2 ++ seg3 ++ seg4 ++ seg5 ++ seg6 ++ seg7 ++ seg8 ++ seg9 ++ seg10 ++ seg11 ++ seg12 := rfl

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., reshape_bufs_sub .., reshape_bufs_sub .., reshape_bufs_sub .., reshape_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩

end Cert.ReferenceIdeal.RefRun

end
-- ==== Proof.RefFrame.lean ====
/-
  What each segment of the reference program leaves alone.

  Running a list of operations from buffer contents V rewrites exactly the buffers the operations write. Each of the
  twelve segments writes a known list of buffers (one per operation: its result); every other buffer holds after the
  segment what it held before. Running a concatenation is running the parts in turn, so a buffer that no segment
  writes — every argument of the program — holds at the end what it held at the start.
-/
import proofs.«143475_j11940009083127_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Running two lists one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- An operation whose one written buffer is a member of a list of references writes inside that list. -/
theorem writes_sub_of_mem {op : HloOp τ sig (Elt F)} {W : List (Ref sig .tc)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map.mpr ⟨y, hy, rfl⟩

/-! ## The buffers each segment writes, and the frame of each segment -/

/-- The buffers segment 1 writes: the results of its 2 operations, in order. -/
abbrev written1 : List (Ref sig .tc) :=
  [main_v0, main_v1]

theorem seg1_writes :
    (seg1 (F := F)).Forall fun op => op.writes ⊆ (written1.map (Proc.devRef (τ := τ) .tc)).toFinset := by
  unfold seg1
  exact ⟨writes_sub_of_mem main_v0 rfl (by decide),
    writes_sub_of_mem main_v1 rfl (by decide)⟩

/-- Segment 1 leaves every buffer it does not write as it was. -/
theorem frame1 (V : Valuation τ sig (Elt F)) {r : Ref sig .tc} (hr : r ∉ written1) :
    after seg1 V (no_index (Proc.devRef .tc r)) = V (Proc.devRef .tc r) :=
  after_of_writes_sub seg1 V seg1_writes hr

/-- The buffers segment 2 writes: the results of its 13 operations, in order. -/
abbrev written2 : List (Ref sig .tc) :=
  [main_v2, main_v3, main_v4, main_v5, main_call0_v0, main_call0_v1, main_call0_cst, main_call0_v2, main_call0_v3, main_call0_cst_0, main_call0_v4, main_call0_v5, main_v6]

theorem seg2_writes :
    (seg2 (F := F)).Forall fun op => op.writes ⊆ (written2.map (Proc.devRef (τ := τ) .tc)).toFinset := by
  unfold seg2
  exact ⟨writes_sub_of_mem main_v2 rfl (by decide),
    writes_sub_of_mem main_v3 rfl (by decide),
    writes_sub_of_mem main_v4 rfl (by decide),
    writes_sub_of_mem main_v5 rfl (by decide),
    writes_sub_of_mem main_call0_v0 rfl (by decide),
    writes_sub_of_mem main_call0_v1 rfl (by decide),
    writes_sub_of_mem main_call0_cst rfl (by decide),
    writes_sub_of_mem main_call0_v2 rfl (by decide),
    writes_sub_of_mem main_call0_v3 rfl (by decide),
    writes_sub_of_mem main_call0_cst_0 rfl (by decide),
    writes_sub_of_mem main_call0_v4 rfl (by decide),
    writes_sub_of_mem main_call0_v5 rfl (by decide),
    writes_sub_of_mem main_v6 rfl (by decide)⟩

/-- Segment 2 leaves every buffer it does not write as it was. -/
theorem frame2 (V : Valuation τ sig (Elt F)) {r : Ref sig .tc} (hr : r ∉ written2) :
    after seg2 V (no_index (Proc.devRef .tc r)) = V (Proc.devRef .tc r) :=
  after_of_writes_sub seg2 V seg2_writes hr

/-- The buffers segment 3 writes: the results of its 13 operations, in order. -/
abbrev written3 : List (Ref sig .tc) :=
  [main_v7, main_v8, main_v9, main_v10, main_call1_v0, main_call1_v1, main_call1_cst, main_call1_v2, main_call1_v3, main_call1_cst_0, main_call1_v4, main_call1_v5, main_v11]

theorem seg3_writes :
    (seg3 (F := F)).Forall fun op => op.writes ⊆ (written3.map (Proc.devRef (τ := τ) .tc)).toFinset := by
  unfold seg3
  exact ⟨writes_sub_of_mem main_v7 rfl (by decide),
    writes_sub_of_mem main_v8 rfl (by decide),
    writes_sub_of_mem main_v9 rfl (by decide),
    writes_sub_of_mem main_v10 rfl (by decide),
    writes_sub_of_mem main_call1_v0 rfl (by decide),
    writes_sub_of_mem main_call1_v1 rfl (by decide),
    writes_sub_of_mem main_call1_cst rfl (by decide),
    writes_sub_of_mem main_call1_v2 rfl (by decide),
    writes_sub_of_mem main_call1_v3 rfl (by decide),
    writes_sub_of_mem main_call1_cst_0 rfl (by decide),
    writes_sub_of_mem main_call1_v4 rfl (by decide),
    writes_sub_of_mem main_call1_v5 rfl (by decide),
    writes_sub_of_mem main_v11 rfl (by decide)⟩

/-- Segment 3 leaves every buffer it does not write as it was. -/
theorem frame3 (V : Valuation τ sig (Elt F)) {r : Ref sig .tc} (hr : r ∉ written3) :
    after seg3 V (no_index (Proc.devRef .tc r)) = V (Proc.devRef .tc r) :=
  after_of_writes_sub seg3 V seg3_writes hr

/-- The buffers segment 4 writes: the results of its 11 operations, in order. -/
abbrev written4 : List (Ref sig .tc) :=
  [main_v12, main_v13, main_call2_v0, main_call2_v1, main_call2_cst, main_call2_v2, main_call2_v3, main_call2_cst_0, main_call2_v4, main_call2_v5, main_v14]

theorem seg4_writes :
    (seg4 (F := F)).Forall fun op => op.writes ⊆ (written4.map (Proc.devRef (τ := τ) .tc)).toFinset := by
  unfold seg4
  exact ⟨writes_sub_of_mem main_v12 rfl (by decide),
    writes_sub_of_mem main_v13 rfl (by decide),
    writes_sub_of_mem main_call2_v0 rfl (by decide),
    writes_sub_of_mem main_call2_v1 rfl (by decide),
    writes_sub_of_mem main_call2_cst rfl (by decide),
    writes_sub_of_mem main_call2_v2 rfl (by decide),
    writes_sub_of_mem main_call2_v3 rfl (by decide),
    writes_sub_of_mem main_call2_cst_0 rfl (by decide),
    writes_sub_of_mem main_call2_v4 rfl (by decide),
    writes_sub_of_mem main_call2_v5 rfl (by decide),
    writes_sub_of_mem main_v14 rfl (by decide)⟩

/-- Segment 4 leaves every buffer it does not write as it was. -/
theorem frame4 (V : Valuation τ sig (Elt F)) {r : Ref sig .tc} (hr : r ∉ written4) :
    after seg4 V (no_index (Proc.devRef .tc r)) = V (Proc.devRef .tc r) :=
  after_of_writes_sub seg4 V seg4_writes hr

/-- The buffers segment 5 writes: the results of its 2 operations, in order. -/
abbrev written5 : List (Ref sig .tc) :=
  [main_v15, main_v16]

theorem seg5_writes :
    (seg5 (F := F)).Forall fun op => op.writes ⊆ (written5.map (Proc.devRef (τ := τ) .tc)).toFinset := by
  unfold seg5
  exact ⟨writes_sub_of_mem main_v15 rfl (by decide),
    writes_sub_of_mem main_v16 rfl (by decide)⟩

/-- Segment 5 leaves every buffer it does not write as it was. -/
theorem frame5 (V : Valuation τ sig (Elt F)) {r : Ref sig .tc} (hr : r ∉ written5) :
    after seg5 V (no_index (Proc.devRef .tc r)) = V (Proc.devRef .tc r) :=
  after_of_writes_sub seg5 V seg5_writes hr

/-- The buffers segment 6 writes: the results of its 10 operations, in order. -/
abbrev written6 : List (Ref sig .tc) :=
  [main_c, main_v17, main_v18, main_c_0, main_v19, main_v20, main_v21, main_v22, main_v23, main_v24]

theorem seg6_writes :
    (seg6 (F := F)).Forall fun op => op.writes ⊆ (written6.map (Proc.devRef (τ := τ) .tc)).toFinset := by
  unfold seg6
  exact ⟨writes_sub_of_mem main_c rfl (by decide),
    writes_sub_of_mem main_v17 rfl (by decide),
    writes_sub_of_mem main_v18 rfl (by decide),
    writes_sub_of_mem main_c_0 rfl (by decide),
    writes_sub_of_mem main_v19 rfl (by decide),
    writes_sub_of_mem main_v20 rfl (by decide),
    writes_sub_of_mem main_v21 rfl (by decide),
    writes_sub_of_mem main_v22 rfl (by decide),
    writes_sub_of_mem main_v23 rfl (by decide),
    writes_sub_of_mem main_v24 rfl (by decide)⟩

/-- Segment 6 leaves every buffer it does not write as it was. -/
theorem frame6 (V : Valuation τ sig (Elt F)) {r : Ref sig .tc} (hr : r ∉ written6) :
    after seg6 V (no_index (Proc.devRef .tc r)) = V (Proc.devRef .tc r) :=
  after_of_writes_sub seg6 V seg6_writes hr

/-- The buffers segment 7 writes: the results of its 4 operations, in order. -/
abbrev written7 : List (Ref sig .tc) :=
  [main_cst, main_v25, main_v26, main_v27]

theorem seg7_writes :
    (seg7 (F := F)).Forall fun op => op.writes ⊆ (written7.map (Proc.devRef (τ := τ) .tc)).toFinset := by
  unfold seg7
  exact ⟨writes_sub_of_mem main_cst rfl (by decide),
    writes_sub_of_mem main_v25 rfl (by decide),
    writes_sub_of_mem main_v26 rfl (by decide),
    writes_sub_of_mem main_v27 rfl (by decide)⟩

/-- Segment 7 leaves every buffer it does not write as it was. -/
theorem frame7 (V : Valuation τ sig (Elt F)) {r : Ref sig .tc} (hr : r ∉ written7) :
    after seg7 V (no_index (Proc.devRef .tc r)) = V (Proc.devRef .tc r) :=
  after_of_writes_sub seg7 V seg7_writes hr

/-- The buffers segment 8 writes: the results of its 11 operations, in order. -/
abbrev written8 : List (Ref sig .tc) :=
  [main_v28, main_call3_v0, main_call3_v1, main_call3_cst, main_call3_v2, main_call3_v3, main_call3_cst_0, main_call3_v4, main_call3_v5, main_v29, main_v30]

theorem seg8_writes :
    (seg8 (F := F)).Forall fun op => op.writes ⊆ (written8.map (Proc.devRef (τ := τ) .tc)).toFinset := by
  unfold seg8
  exact ⟨writes_sub_of_mem main_v28 rfl (by decide),
    writes_sub_of_mem main_call3_v0 rfl (by decide),
    writes_sub_of_mem main_call3_v1 rfl (by decide),
    writes_sub_of_mem main_call3_cst rfl (by decide),
    writes_sub_of_mem main_call3_v2 rfl (by decide),
    writes_sub_of_mem main_call3_v3 rfl (by decide),
    writes_sub_of_mem main_call3_cst_0 rfl (by decide),
    writes_sub_of_mem main_call3_v4 rfl (by decide),
    writes_sub_of_mem main_call3_v5 rfl (by decide),
    writes_sub_of_mem main_v29 rfl (by decide),
    writes_sub_of_mem main_v30 rfl (by decide)⟩

/-- Segment 8 leaves every buffer it does not write as it was. -/
theorem frame8 (V : Valuation τ sig (Elt F)) {r : Ref sig .tc} (hr : r ∉ written8) :
    after seg8 V (no_index (Proc.devRef .tc r)) = V (Proc.devRef .tc r) :=
  after_of_writes_sub seg8 V seg8_writes hr

/-- The buffers segment 9 writes: the results of its 31 operations, in order. -/
abbrev written9 : List (Ref sig .tc) :=
  [main_v31, main_v32, main_v33, main_v34, main_v35, main_v36, main_v37, main_v38, main_call4_v0, main_call4_v1, main_call4_cst, main_call4_v2, main_call4_v3, main_call4_cst_0, main_call4_v4, main_call4_v5, main_v39, main_v40, main_v41, main_v42, main_v43, main_call5_v0, main_call5_v1, main_call5_cst, main_call5_v2, main_call5_v3, main_call5_cst_0, main_call5_v4, main_call5_v5, main_v44, main_v45]

theorem seg9_writes :
    (seg9 (F := F)).Forall fun op => op.writes ⊆ (written9.map (Proc.devRef (τ := τ) .tc)).toFinset := by
  unfold seg9
  exact ⟨writes_sub_of_mem main_v31 rfl (by decide),
    writes_sub_of_mem main_v32 rfl (by decide),
    writes_sub_of_mem main_v33 rfl (by decide),
    writes_sub_of_mem main_v34 rfl (by decide),
    writes_sub_of_mem main_v35 rfl (by decide),
    writes_sub_of_mem main_v36 rfl (by decide),
    writes_sub_of_mem main_v37 rfl (by decide),
    writes_sub_of_mem main_v38 rfl (by decide),
    writes_sub_of_mem main_call4_v0 rfl (by decide),
    writes_sub_of_mem main_call4_v1 rfl (by decide),
    writes_sub_of_mem main_call4_cst rfl (by decide),
    writes_sub_of_mem main_call4_v2 rfl (by decide),
    writes_sub_of_mem main_call4_v3 rfl (by decide),
    writes_sub_of_mem main_call4_cst_0 rfl (by decide),
    writes_sub_of_mem main_call4_v4 rfl (by decide),
    writes_sub_of_mem main_call4_v5 rfl (by decide),
    writes_sub_of_mem main_v39 rfl (by decide),
    writes_sub_of_mem main_v40 rfl (by decide),
    writes_sub_of_mem main_v41 rfl (by decide),
    writes_sub_of_mem main_v42 rfl (by decide),
    writes_sub_of_mem main_v43 rfl (by decide),
    writes_sub_of_mem main_call5_v0 rfl (by decide),
    writes_sub_of_mem main_call5_v1 rfl (by decide),
    writes_sub_of_mem main_call5_cst rfl (by decide),
    writes_sub_of_mem main_call5_v2 rfl (by decide),
    writes_sub_of_mem main_call5_v3 rfl (by decide),
    writes_sub_of_mem main_call5_cst_0 rfl (by decide),
    writes_sub_of_mem main_call5_v4 rfl (by decide),
    writes_sub_of_mem main_call5_v5 rfl (by decide),
    writes_sub_of_mem main_v44 rfl (by decide),
    writes_sub_of_mem main_v45 rfl (by decide)⟩

/-- Segment 9 leaves every buffer it does not write as it was. -/
theorem frame9 (V : Valuation τ sig (Elt F)) {r : Ref sig .tc} (hr : r ∉ written9) :
    after seg9 V (no_index (Proc.devRef .tc r)) = V (Proc.devRef .tc r) :=
  after_of_writes_sub seg9 V seg9_writes hr

/-- The buffers segment 10 writes: the results of its 14 operations, in order. -/
abbrev written10 : List (Ref sig .tc) :=
  [main_v46, main_v47, main_v48, main_v49, main_call6_v0, main_call6_v1, main_call6_cst, main_call6_v2, main_call6_v3, main_call6_cst_0, main_call6_v4, main_call6_v5, main_v50, main_v51]

theorem seg10_writes :
    (seg10 (F := F)).Forall fun op => op.writes ⊆ (written10.map (Proc.devRef (τ := τ) .tc)).toFinset := by
  unfold seg10
  exact ⟨writes_sub_of_mem main_v46 rfl (by decide),
    writes_sub_of_mem main_v47 rfl (by decide),
    writes_sub_of_mem main_v48 rfl (by decide),
    writes_sub_of_mem main_v49 rfl (by decide),
    writes_sub_of_mem main_call6_v0 rfl (by decide),
    writes_sub_of_mem main_call6_v1 rfl (by decide),
    writes_sub_of_mem main_call6_cst rfl (by decide),
    writes_sub_of_mem main_call6_v2 rfl (by decide),
    writes_sub_of_mem main_call6_v3 rfl (by decide),
    writes_sub_of_mem main_call6_cst_0 rfl (by decide),
    writes_sub_of_mem main_call6_v4 rfl (by decide),
    writes_sub_of_mem main_call6_v5 rfl (by decide),
    writes_sub_of_mem main_v50 rfl (by decide),
    writes_sub_of_mem main_v51 rfl (by decide)⟩

/-- Segment 10 leaves every buffer it does not write as it was. -/
theorem frame10 (V : Valuation τ sig (Elt F)) {r : Ref sig .tc} (hr : r ∉ written10) :
    after seg10 V (no_index (Proc.devRef .tc r)) = V (Proc.devRef .tc r) :=
  after_of_writes_sub seg10 V seg10_writes hr

/-- The buffers segment 11 writes: the results of its 35 operations, in order. -/
abbrev written11 : List (Ref sig .tc) :=
  [main_v52, main_v53, main_v54, main_v55, main_v56, main_v57, main_v58, main_v59, main_v60, main_v61, main_v62, main_v63, main_call7_v0, main_call7_v1, main_call7_cst, main_call7_v2, main_call7_v3, main_call7_cst_0, main_call7_v4, main_call7_v5, main_v64, main_v65, main_v66, main_v67, main_v68, main_call8_v0, main_call8_v1, main_call8_cst, main_call8_v2, main_call8_v3, main_call8_cst_0, main_call8_v4, main_call8_v5, main_v69, main_v70]

theorem seg11_writes :
    (seg11 (F := F)).Forall fun op => op.writes ⊆ (written11.map (Proc.devRef (τ := τ) .tc)).toFinset := by
  unfold seg11
  exact ⟨writes_sub_of_mem main_v52 rfl (by decide),
    writes_sub_of_mem main_v53 rfl (by decide),
    writes_sub_of_mem main_v54 rfl (by decide),
    writes_sub_of_mem main_v55 rfl (by decide),
    writes_sub_of_mem main_v56 rfl (by decide),
    writes_sub_of_mem main_v57 rfl (by decide),
    writes_sub_of_mem main_v58 rfl (by decide),
    writes_sub_of_mem main_v59 rfl (by decide),
    writes_sub_of_mem main_v60 rfl (by decide),
    writes_sub_of_mem main_v61 rfl (by decide),
    writes_sub_of_mem main_v62 rfl (by decide),
    writes_sub_of_mem main_v63 rfl (by decide),
    writes_sub_of_mem main_call7_v0 rfl (by decide),
    writes_sub_of_mem main_call7_v1 rfl (by decide),
    writes_sub_of_mem main_call7_cst rfl (by decide),
    writes_sub_of_mem main_call7_v2 rfl (by decide),
    writes_sub_of_mem main_call7_v3 rfl (by decide),
    writes_sub_of_mem main_call7_cst_0 rfl (by decide),
    writes_sub_of_mem main_call7_v4 rfl (by decide),
    writes_sub_of_mem main_call7_v5 rfl (by decide),
    writes_sub_of_mem main_v64 rfl (by decide),
    writes_sub_of_mem main_v65 rfl (by decide),
    writes_sub_of_mem main_v66 rfl (by decide),
    writes_sub_of_mem main_v67 rfl (by decide),
    writes_sub_of_mem main_v68 rfl (by decide),
    writes_sub_of_mem main_call8_v0 rfl (by decide),
    writes_sub_of_mem main_call8_v1 rfl (by decide),
    writes_sub_of_mem main_call8_cst rfl (by decide),
    writes_sub_of_mem main_call8_v2 rfl (by decide),
    writes_sub_of_mem main_call8_v3 rfl (by decide),
    writes_sub_of_mem main_call8_cst_0 rfl (by decide),
    writes_sub_of_mem main_call8_v4 rfl (by decide),
    writes_sub_of_mem main_call8_v5 rfl (by decide),
    writes_sub_of_mem main_v69 rfl (by decide),
    writes_sub_of_mem main_v70 rfl (by decide)⟩

/-- Segment 11 leaves every buffer it does not write as it was. -/
theorem frame11 (V : Valuation τ sig (Elt F)) {r : Ref sig .tc} (hr : r ∉ written11) :
    after seg11 V (no_index (Proc.devRef .tc r)) = V (Proc.devRef .tc r) :=
  after_of_writes_sub seg11 V seg11_writes hr

/-- The buffers segment 12 writes: the results of its 35 operations, in order. -/
abbrev written12 : List (Ref sig .tc) :=
  [main_v71, main_v72, main_v73, main_v74, main_v75, main_v76, main_v77, main_v78, main_v79, main_v80, main_v81, main_v82, main_call9_v0, main_call9_v1, main_call9_cst, main_call9_v2, main_call9_v3, main_call9_cst_0, main_call9_v4, main_call9_v5, main_v83, main_v84, main_v85, main_v86, main_v87, main_call10_v0, main_call10_v1, main_call10_cst, main_call10_v2, main_call10_v3, main_call10_cst_0, main_call10_v4, main_call10_v5, main_v88, main_v89]

theorem seg12_writes :
    (seg12 (F := F)).Forall fun op => op.writes ⊆ (written12.map (Proc.devRef (τ := τ) .tc)).toFinset := by
  unfold seg12
  exact ⟨writes_sub_of_mem main_v71 rfl (by decide),
    writes_sub_of_mem main_v72 rfl (by decide),
    writes_sub_of_mem main_v73 rfl (by decide),
    writes_sub_of_mem main_v74 rfl (by decide),
    writes_sub_of_mem main_v75 rfl (by decide),
    writes_sub_of_mem main_v76 rfl (by decide),
    writes_sub_of_mem main_v77 rfl (by decide),
    writes_sub_of_mem main_v78 rfl (by decide),
    writes_sub_of_mem main_v79 rfl (by decide),
    writes_sub_of_mem main_v80 rfl (by decide),
    writes_sub_of_mem main_v81 rfl (by decide),
    writes_sub_of_mem main_v82 rfl (by decide),
    writes_sub_of_mem main_call9_v0 rfl (by decide),
    writes_sub_of_mem main_call9_v1 rfl (by decide),
    writes_sub_of_mem main_call9_cst rfl (by decide),
    writes_sub_of_mem main_call9_v2 rfl (by decide),
    writes_sub_of_mem main_call9_v3 rfl (by decide),
    writes_sub_of_mem main_call9_cst_0 rfl (by decide),
    writes_sub_of_mem main_call9_v4 rfl (by decide),
    writes_sub_of_mem main_call9_v5 rfl (by decide),
    writes_sub_of_mem main_v83 rfl (by decide),
    writes_sub_of_mem main_v84 rfl (by decide),
    writes_sub_of_mem main_v85 rfl (by decide),
    writes_sub_of_mem main_v86 rfl (by decide),
    writes_sub_of_mem main_v87 rfl (by decide),
    writes_sub_of_mem main_call10_v0 rfl (by decide),
    writes_sub_of_mem main_call10_v1 rfl (by decide),
    writes_sub_of_mem main_call10_cst rfl (by decide),
    writes_sub_of_mem main_call10_v2 rfl (by decide),
    writes_sub_of_mem main_call10_v3 rfl (by decide),
    writes_sub_of_mem main_call10_cst_0 rfl (by decide),
    writes_sub_of_mem main_call10_v4 rfl (by decide),
    writes_sub_of_mem main_call10_v5 rfl (by decide),
    writes_sub_of_mem main_v88 rfl (by decide),
    writes_sub_of_mem main_v89 rfl (by decide)⟩

/-- Segment 12 leaves every buffer it does not write as it was. -/
theorem frame12 (V : Valuation τ sig (Elt F)) {r : Ref sig .tc} (hr : r ∉ written12) :
    after seg12 V (no_index (Proc.devRef .tc r)) = V (Proc.devRef .tc r) :=
  after_of_writes_sub seg12 V seg12_writes hr

/-! ## The frame of the whole program -/

/-- A buffer that no segment writes holds after the whole program what it held before it. -/
theorem ops_frame (V : Valuation τ sig (Elt F)) {r : Ref sig .tc}
    (h1 : r ∉ written1) (h2 : r ∉ written2) (h3 : r ∉ written3) (h4 : r ∉ written4) (h5 : r ∉ written5) (h6 : r ∉ written6) (h7 : r ∉ written7) (h8 : r ∉ written8) (h9 : r ∉ written9) (h10 : r ∉ written10) (h11 : r ∉ written11) (h12 : r ∉ written12) :
    after ops V (Proc.devRef .tc r) = V (Proc.devRef .tc r) := by
  rw [ops_eq_segs]
  simp only [after_append]
  rw [frame12 _ h12, frame11 _ h11, frame10 _ h10, frame9 _ h9, frame8 _ h8, frame7 _ h7, frame6 _ h6, frame5 _ h5, frame4 _ h4, frame3 _ h3, frame2 _ h2, frame1 _ h1]

/-- Every buffer some segment writes: the 181 results, in program order. -/
abbrev writtenAll : List (Ref sig .tc) :=
  written1 ++ written2 ++ written3 ++ written4 ++ written5 ++ written6 ++ written7 ++ written8 ++ written9 ++ written10 ++ written11 ++ written12

/-- A buffer that is the result of no operation holds after the whole program what it held before it. -/
theorem arg_frame (V : Valuation τ sig (Elt F)) (r : Ref sig .tc) (hr : r ∉ writtenAll) :
    after ops V (Proc.devRef .tc r) = V (Proc.devRef .tc r) := by
  simp only [writtenAll, List.mem_append, not_or] at hr
  obtain ⟨⟨⟨⟨⟨⟨⟨⟨⟨⟨⟨h1, h2⟩, h3⟩, h4⟩, h5⟩, h6⟩, h7⟩, h8⟩, h9⟩, h10⟩, h11⟩, h12⟩ := hr
  exact ops_frame V h1 h2 h3 h4 h5 h6 h7 h8 h9 h10 h11 h12

end Cert.ReferenceIdeal.RefRun

end
-- ==== Proof.RefStages.lean ====
/-
  The interaction block of the reference network, as a composition of named stages.

  The block acts on edge messages m (one row of 128 features per edge, 262144 edges) and on triplets (pairs of
  edges sharing an atom, 2097152 of them). With silu z = z · 1/(1 + exp(−z)) taken entry by entry and
  dense X W β = silu (X·W + β) (the row β added to every row of the product), the block computes

    e    = (rbf·W₁)·W₂                       the radial embedding of every edge,
    own  = dense m W_ji β_ji                 the edge's own transformed message,
    g    = dense m W_kj β_kj                 the message to be passed on,
    x_kj = silu ((g ⊙ e)·W_down)             gated by the radial embedding and projected down to 64 features,
    a    = (sbf·V₁)·V₂                       the angular embedding of every triplet,
    t    = x_kj[idx_kj] ⊙ a                  per triplet: the row of the incoming edge (a negative index counted
                                             from the end) times the angular embedding,
    agg  = Σ_{triplets τ with idx_ji τ = edge} t_τ     summed into the outgoing edge, starting from zero,
    h    = silu (agg·W_up) + own,
    h'   = h + dense (dense h A₁ α₁) A₂ α₂   one residual pair before the skip connection,
    y    = m + dense h' W_f β_f              the skip connection,
    y'   = y + dense (dense y B₁[0] γ₁[0]) B₂[0] γ₂[0],
    out  = y' + dense (dense y' B₁[1] γ₁[1]) B₂[1] γ₂[1]      two residual pairs after it, their weights the two
                                                             members of stacked arrays.

  Each stage below is that formula spelt with the host operations of the printed program, in the program's order
  of operands; `refOut` composes them, every intermediate array appearing once.
-/
import proofs.«143475_j11940009083127_2_alg».proof.Proof.Gen.ReferenceIdeal

noncomputable section

namespace Cert.ReferenceIdeal.RefRun

open Cert.ReferenceIdeal Cert.ReferenceIdeal.Gen Idealize.ShloMosaic

variable {F : FTy → Type} [FloatOps F]

/-! ## The two repeated shapes: silu, and a dense layer followed by silu -/

/-- silu of a [262144, 128] array, entry by entry: x · (1 / (1 + exp (−x))), the two ones broadcast scalars. -/
def silu128 (X : (⟨S262144x128, .f32⟩ : BufTy).Contents (Elt F)) : (⟨S262144x128, .f32⟩ : BufTy).Contents (Elt F) :=
  mulf X (Host.divf (broadcastInDim S262144x128 ![] bcast_S_S262144x128 (constant S_ .f32 0x3F800000#32))
    (addf (broadcastInDim S262144x128 ![] bcast_S_S262144x128 (constant S_ .f32 0x3F800000#32)) (Host.exp (Host.negf X))))

/-- silu of a [262144, 64] array, entry by entry. -/
def silu64 (X : (⟨S262144x64, .f32⟩ : BufTy).Contents (Elt F)) : (⟨S262144x64, .f32⟩ : BufTy).Contents (Elt F) :=
  mulf X (Host.divf (broadcastInDim S262144x64 ![] bcast_S_S262144x64 (constant S_ .f32 0x3F800000#32))
    (addf (broadcastInDim S262144x64 ![] bcast_S_S262144x64 (constant S_ .f32 0x3F800000#32)) (Host.exp (Host.negf X))))

/-- A dense layer on 128 features: silu (X·W + β), the bias row β placed along the feature axis of a one-row array
    and then repeated over all 262144 rows. -/
def dense (X : (⟨S262144x128, .f32⟩ : BufTy).Contents (Elt F)) (W : (⟨S128x128, .f32⟩ : BufTy).Contents (Elt F)) (β : (⟨S128, .f32⟩ : BufTy).Contents (Elt F)) : (⟨S262144x128, .f32⟩ : BufTy).Contents (Elt F) :=
  silu128 (addf (Host.dotGeneral dot_S262144x128_S128x128_S262144x128_1_0_0_1_n_n none X W)
    (broadcastInDim S262144x128 ![0, 1] bcast_S1x128_S262144x128_0_1 (broadcastInDim S1x128 ![1] bcast_S128_S1x128_1 β)))

/-- A residual pair: h + dense (dense h W₁ β₁) W₂ β₂. -/
def residualPair (h : (⟨S262144x128, .f32⟩ : BufTy).Contents (Elt F)) (W₁ : (⟨S128x128, .f32⟩ : BufTy).Contents (Elt F)) (β₁ : (⟨S128, .f32⟩ : BufTy).Contents (Elt F))
    (W₂ : (⟨S128x128, .f32⟩ : BufTy).Contents (Elt F)) (β₂ : (⟨S128, .f32⟩ : BufTy).Contents (Elt F)) : (⟨S262144x128, .f32⟩ : BufTy).Contents (Elt F) :=
  addf h (dense (dense h W₁ β₁) W₂ β₂)

/-! ## The stages, in program order -/

/-- The radial embedding of every edge: (rbf·W₁)·W₂, 6 → 8 → 128 features. -/
def radialEmbedding (rbf : (⟨S262144x6, .f32⟩ : BufTy).Contents (Elt F)) (W₁ : (⟨S6x8, .f32⟩ : BufTy).Contents (Elt F)) (W₂ : (⟨S8x128, .f32⟩ : BufTy).Contents (Elt F)) : (⟨S262144x128, .f32⟩ : BufTy).Contents (Elt F) :=
  Host.dotGeneral dot_S262144x8_S8x128_S262144x128_1_0_0_1_n_n none
    (Host.dotGeneral dot_S262144x6_S6x8_S262144x8_1_0_0_1_n_n none rbf W₁) W₂

/-- The edge's own transformed message: silu (m·W_ji + β_ji). -/
def ownDense (m : (⟨S262144x128, .f32⟩ : BufTy).Contents (Elt F)) (W : (⟨S128x128, .f32⟩ : BufTy).Contents (Elt F)) (β : (⟨S128, .f32⟩ : BufTy).Contents (Elt F)) : (⟨S262144x128, .f32⟩ : BufTy).Contents (Elt F) :=
  dense m W β

/-- The message to be passed on, before gating: silu (m·W_kj + β_kj). -/
def gateDense (m : (⟨S262144x128, .f32⟩ : BufTy).Contents (Elt F)) (W : (⟨S128x128, .f32⟩ : BufTy).Contents (Elt F)) (β : (⟨S128, .f32⟩ : BufTy).Contents (Elt F)) : (⟨S262144x128, .f32⟩ : BufTy).Contents (Elt F) :=
  dense m W β

/-- The passed-on message gated by the radial embedding and projected down: silu ((g ⊙ e)·W_down), 128 → 64 features. -/
def gatedDown (g : (⟨S262144x128, .f32⟩ : BufTy).Contents (Elt F)) (e : (⟨S262144x128, .f32⟩ : BufTy).Contents (Elt F)) (W : (⟨S128x64, .f32⟩ : BufTy).Contents (Elt F)) : (⟨S262144x64, .f32⟩ : BufTy).Contents (Elt F) :=
  silu64 (Host.dotGeneral dot_S262144x128_S128x64_S262144x64_1_0_0_1_n_n none (mulf g e) W)

/-- The angular embedding of every triplet: (sbf·V₁)·V₂, 42 → 8 → 64 features. -/
def angularEmbedding (sbf : (⟨S2097152x42, .f32⟩ : BufTy).Contents (Elt F)) (V₁ : (⟨S42x8, .f32⟩ : BufTy).Contents (Elt F)) (V₂ : (⟨S8x64, .f32⟩ : BufTy).Contents (Elt F)) : (⟨S2097152x64, .f32⟩ : BufTy).Contents (Elt F) :=
  Host.dotGeneral dot_S2097152x8_S8x64_S2097152x64_1_0_0_1_n_n none
    (Host.dotGeneral dot_S2097152x42_S42x8_S2097152x8_1_0_0_1_n_n none sbf V₁) V₂

/-- Per triplet, the row of its incoming edge times its angular embedding. The edge index is first normalised (a
    negative index has the number of edges, 262144, added to it) and made a one-column array; the gather then takes
    one whole 64-feature row per triplet. -/
def messages (xkj : (⟨S262144x64, .f32⟩ : BufTy).Contents (Elt F)) (idx : (⟨S2097152, .i32⟩ : BufTy).Contents (Elt F)) (a : (⟨S2097152x64, .f32⟩ : BufTy).Contents (Elt F)) : (⟨S2097152x64, .f32⟩ : BufTy).Contents (Elt F) :=
  mulf (Host.gather gather_S262144x64_S2097152x1_S2097152x64_1_0_n_n_0_1_164 xkj
      (broadcastInDim S2097152x1 ![0] bcast_S2097152_S2097152x1_0
        (select (cmpi .slt idx (broadcastInDim S2097152 ![] bcast_S_S2097152 (constantI S_ 32 0#32)))
          (addi idx (broadcastInDim S2097152 ![] bcast_S_S2097152 (constantI S_ 32 262144#32))) idx)))
    a

/-- The triplets' rows summed into their outgoing edges: a scatter-add into an all-zero [262144, 64] array at the
    rows named by the one-column index array. -/
def aggregated (idx : (⟨S2097152, .i32⟩ : BufTy).Contents (Elt F)) (t : (⟨S2097152x64, .f32⟩ : BufTy).Contents (Elt F)) : (⟨S262144x64, .f32⟩ : BufTy).Contents (Elt F) :=
  Host.scatterAdd scatter_S262144x64_S2097152x1_S2097152x64_1_0_0_1
    (broadcastInDim S262144x64 ![] bcast_S_S262144x64 (constant S_ .f32 0x00000000#32))
    (broadcastInDim S2097152x1 ![0] bcast_S2097152_S2097152x1_0 idx) t

/-- The aggregate projected back up and joined with the edge's own message: silu (agg·W_up) + own, 64 → 128 features. -/
def joined (agg : (⟨S262144x64, .f32⟩ : BufTy).Contents (Elt F)) (W : (⟨S64x128, .f32⟩ : BufTy).Contents (Elt F)) (own : (⟨S262144x128, .f32⟩ : BufTy).Contents (Elt F)) : (⟨S262144x128, .f32⟩ : BufTy).Contents (Elt F) :=
  addf (silu128 (Host.dotGeneral dot_S262144x64_S64x128_S262144x128_1_0_0_1_n_n none agg W)) own

/-- The residual pair before the skip connection; its weights arrive as one-member stacks [1, 128, 128] and [1, 128]
    and are read as [128, 128] and [128]. -/
def residualBefore (h : (⟨S262144x128, .f32⟩ : BufTy).Contents (Elt F)) (A₁ : (⟨S1x128x128, .f32⟩ : BufTy).Contents (Elt F)) (α₁ : (⟨S1x128, .f32⟩ : BufTy).Contents (Elt F))
    (A₂ : (⟨S1x128x128, .f32⟩ : BufTy).Contents (Elt F)) (α₂ : (⟨S1x128, .f32⟩ : BufTy).Contents (Elt F)) : (⟨S262144x128, .f32⟩ : BufTy).Contents (Elt F) :=
  residualPair h (shapeCast S128x128 A₁ shapeCasts_S1x128x128_S128x128) (shapeCast S128 α₁ shapeCasts_S1x128_S128)
    (shapeCast S128x128 A₂ shapeCasts_S1x128x128_S128x128) (shapeCast S128 α₂ shapeCasts_S1x128_S128)

/-- The skip connection: m + silu (h·W_f + β_f). -/
def finalDense (h : (⟨S262144x128, .f32⟩ : BufTy).Contents (Elt F)) (m : (⟨S262144x128, .f32⟩ : BufTy).Contents (Elt F)) (W : (⟨S128x128, .f32⟩ : BufTy).Contents (Elt F)) (β : (⟨S128, .f32⟩ : BufTy).Contents (Elt F)) : (⟨S262144x128, .f32⟩ : BufTy).Contents (Elt F) :=
  addf m (dense h W β)

/-- The first residual pair after the skip connection: member 0 of each stacked weight array, sliced out as a
    one-member stack and read as [128, 128] or [128]. -/
def residualAfter0 (y : (⟨S262144x128, .f32⟩ : BufTy).Contents (Elt F)) (B₁ : (⟨S2x128x128, .f32⟩ : BufTy).Contents (Elt F)) (γ₁ : (⟨S2x128, .f32⟩ : BufTy).Contents (Elt F))
    (B₂ : (⟨S2x128x128, .f32⟩ : BufTy).Contents (Elt F)) (γ₂ : (⟨S2x128, .f32⟩ : BufTy).Contents (Elt F)) : (⟨S262144x128, .f32⟩ : BufTy).Contents (Elt F) :=
  residualPair y
    (shapeCast S128x128 (extractStridedSlice S1x128x128 ![0, 0, 0] B₁ slices_S2x128x128_S1x128x128_0_0_0) shapeCasts_S1x128x128_S128x128)
    (shapeCast S128 (extractStridedSlice S1x128 ![0, 0] γ₁ slices_S2x128_S1x128_0_0) shapeCasts_S1x128_S128)
    (shapeCast S128x128 (extractStridedSlice S1x128x128 ![0, 0, 0] B₂ slices_S2x128x128_S1x128x128_0_0_0) shapeCasts_S1x128x128_S128x128)
    (shapeCast S128 (extractStridedSlice S1x128 ![0, 0] γ₂ slices_S2x128_S1x128_0_0) shapeCasts_S1x128_S128)

/-- The second residual pair after the skip connection: member 1 of each stacked weight array. -/
def residualAfter1 (y : (⟨S262144x128, .f32⟩ : BufTy).Contents (Elt F)) (B₁ : (⟨S2x128x128, .f32⟩ : BufTy).Contents (Elt F)) (γ₁ : (⟨S2x128, .f32⟩ : BufTy).Contents (Elt F))
    (B₂ : (⟨S2x128x128, .f32⟩ : BufTy).Contents (Elt F)) (γ₂ : (⟨S2x128, .f32⟩ : BufTy).Contents (Elt F)) : (⟨S262144x128, .f32⟩ : BufTy).Contents (Elt F) :=
  residualPair y
    (shapeCast S128x128 (extractStridedSlice S1x128x128 ![1, 0, 0] B₁ slices_S2x128x128_S1x128x128_1_0_0) shapeCasts_S1x128x128_S128x128)
    (shapeCast S128 (extractStridedSlice S1x128 ![1, 0] γ₁ slices_S2x128_S1x128_1_0) shapeCasts_S1x128_S128)
    (shapeCast S128x128 (extractStridedSlice S1x128x128 ![1, 0, 0] B₂ slices_S2x128x128_S1x128x128_1_0_0) shapeCasts_S1x128x128_S128x128)
    (shapeCast S128 (extractStridedSlice S1x128 ![1, 0] γ₂ slices_S2x128_S1x128_1_0) shapeCasts_S1x128_S128)

/-! ## The whole block -/

/-- The block's output as a function of the 25 argument arrays, in the program's argument order: x0 the edge messages,
    x1 and x2 the radial and angular bases, x3 and x4 the triplets' incoming and outgoing edge indices, x5 … x24 the
    weights. Every intermediate array is the argument of exactly one stage. -/
def refOut (x0 : (⟨S262144x128, .f32⟩ : BufTy).Contents (Elt F)) (x1 : (⟨S262144x6, .f32⟩ : BufTy).Contents (Elt F)) (x2 : (⟨S2097152x42, .f32⟩ : BufTy).Contents (Elt F))
    (x3 : (⟨S2097152, .i32⟩ : BufTy).Contents (Elt F)) (x4 : (⟨S2097152, .i32⟩ : BufTy).Contents (Elt F))
    (x5 : (⟨S6x8, .f32⟩ : BufTy).Contents (Elt F)) (x6 : (⟨S8x128, .f32⟩ : BufTy).Contents (Elt F)) (x7 : (⟨S42x8, .f32⟩ : BufTy).Contents (Elt F)) (x8 : (⟨S8x64, .f32⟩ : BufTy).Contents (Elt F))
    (x9 : (⟨S128x128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F))
    (x13 : (⟨S128x64, .f32⟩ : BufTy).Contents (Elt F)) (x14 : (⟨S64x128, .f32⟩ : BufTy).Contents (Elt F))
    (x15 : (⟨S1x128x128, .f32⟩ : BufTy).Contents (Elt F)) (x16 : (⟨S1x128, .f32⟩ : BufTy).Contents (Elt F)) (x17 : (⟨S1x128x128, .f32⟩ : BufTy).Contents (Elt F)) (x18 : (⟨S1x128, .f32⟩ : BufTy).Contents (Elt F))
    (x19 : (⟨S128x128, .f32⟩ : BufTy).Contents (Elt F)) (x20 : (⟨S128, .f32⟩ : BufTy).Contents (Elt F))
    (x21 : (⟨S2x128x128, .f32⟩ : BufTy).Contents (Elt F)) (x22 : (⟨S2x128, .f32⟩ : BufTy).Contents (Elt F)) (x23 : (⟨S2x128x128, .f32⟩ : BufTy).Contents (Elt F)) (x24 : (⟨S2x128, .f32⟩ : BufTy).Contents (Elt F)) :
    (⟨S262144x128, .f32⟩ : BufTy).Contents (Elt F) :=
  residualAfter1
    (residualAfter0
      (finalDense
        (residualBefore
          (joined
            (aggregated x4
              (messages (gatedDown (gateDense x0 x11 x12) (radialEmbedding x1 x5 x6) x13) x3 (angularEmbedding x2 x7 x8)))
            x14 (ownDense x0 x9 x10))
          x15 x16 x17 x18)
        x0 x19 x20)
      x21 x22 x23 x24)
    x21 x22 x23 x24

end Cert.ReferenceIdeal.RefRun

end
-- ==== Proof.RefStageA.lean ====
/-
  The first eight segments of the reference program, each read as its stage function (from the radial embedding to the joined message).

  Each theorem runs one segment of the reference program from ARBITRARY buffer contents V and reads its result buffer:
  it holds the segment's stage function applied to what V holds at the buffers the segment reads. Nothing before the
  segment is looked at, so each statement is about the segment's own few operations only.
-/
import proofs.«143475_j11940009083127_2_alg».proof.Proof.RefSegs
import proofs.«143475_j11940009083127_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Segment 1 computes the radial embedding, from the radial basis and its two weight matrices. -/
theorem stage1 (V : Valuation τ sig (Elt F)) :
    after seg1 V (Proc.devRef .tc main_v1) = radialEmbedding (V (Proc.devRef .tc main_arg1)) (V (Proc.devRef .tc main_arg5)) (V (Proc.devRef .tc main_arg6)) := by
  unfold seg1
  after_results_simp <;> rfl

set_option maxRecDepth 8192 in
/-- Segment 2 computes the edge's own dense layer, from the edge messages. -/
theorem stage2 (V : Valuation τ sig (Elt F)) :
    after seg2 V (Proc.devRef .tc main_v6) = ownDense (V (Proc.devRef .tc main_arg0)) (V (Proc.devRef .tc main_arg9)) (V (Proc.devRef .tc main_arg10)) := by
  unfold seg2
  after_results_simp <;> rfl

set_option maxRecDepth 8192 in
/-- Segment 3 computes the dense layer of the message to be passed on, from the edge messages. -/
theorem stage3 (V : Valuation τ sig (Elt F)) :
    after seg3 V (Proc.devRef .tc main_v11) = gateDense (V (Proc.devRef .tc main_arg0)) (V (Proc.devRef .tc main_arg11)) (V (Proc.devRef .tc main_arg12)) := by
  unfold seg3
  after_results_simp <;> rfl

set_option maxRecDepth 8192 in
/-- Segment 4 computes the gated, down-projected message, from the passed-on message and the radial embedding. -/
theorem stage4 (V : Valuation τ sig (Elt F)) :
    after seg4 V (Proc.devRef .tc main_v14) = gatedDown (V (Proc.devRef .tc main_v11)) (V (Proc.devRef .tc main_v1)) (V (Proc.devRef .tc main_arg13)) := by
  unfold seg4
  after_results_simp <;> rfl

set_option maxRecDepth 8192 in
/-- Segment 5 computes the angular embedding, from the angular basis and its two weight matrices. -/
theorem stage5 (V : Valuation τ sig (Elt F)) :
    after seg5 V (Proc.devRef .tc main_v16) = angularEmbedding (V (Proc.devRef .tc main_arg2)) (V (Proc.devRef .tc main_arg7)) (V (Proc.devRef .tc main_arg8)) := by
  unfold seg5
  after_results_simp <;> rfl

set_option maxRecDepth 8192 in
/-- Segment 6 computes the triplets' rows, from the down-projected messages, the incoming-edge indices and the angular embedding. -/
theorem stage6 (V : Valuation τ sig (Elt F)) :
    after seg6 V (Proc.devRef .tc main_v24) = messages (V (Proc.devRef .tc main_v14)) (V (Proc.devRef .tc main_arg3)) (V (Proc.devRef .tc main_v16)) := by
  unfold seg6
  after_results_simp <;> rfl

set_option maxRecDepth 8192 in
/-- Segment 7 computes the per-edge sums, from the outgoing-edge indices and the triplets' rows. -/
theorem stage7 (V : Valuation τ sig (Elt F)) :
    after seg7 V (Proc.devRef .tc main_v27) = aggregated (V (Proc.devRef .tc main_arg4)) (V (Proc.devRef .tc main_v24)) := by
  unfold seg7
  after_results_simp <;> rfl

set_option maxRecDepth 8192 in
/-- Segment 8 computes the joined message, from the per-edge sums and the edge's own dense layer. -/
theorem stage8 (V : Valuation τ sig (Elt F)) :
    after seg8 V (Proc.devRef .tc main_v30) = joined (V (Proc.devRef .tc main_v27)) (V (Proc.devRef .tc main_arg14)) (V (Proc.devRef .tc main_v6)) := by
  unfold seg8
  after_results_simp <;> rfl

end Cert.ReferenceIdeal.RefRun

end
-- ==== Proof.RefStageB.lean ====
/-
  The last four segments of the reference program, each read as its stage function (the residual pairs and the skip connection).

  Each theorem runs one segment of the reference program from ARBITRARY buffer contents V and reads its result buffer:
  it holds the segment's stage function applied to what V holds at the buffers the segment reads. Nothing before the
  segment is looked at, so each statement is about the segment's own few operations only.
-/
import proofs.«143475_j11940009083127_2_alg».proof.Proof.RefSegs
import proofs.«143475_j11940009083127_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Segment 9 computes the residual pair before the skip connection. -/
theorem stage9 (V : Valuation τ sig (Elt F)) :
    after seg9 V (Proc.devRef .tc main_v45) = residualBefore (V (Proc.devRef .tc main_v30)) (V (Proc.devRef .tc main_arg15)) (V (Proc.devRef .tc main_arg16)) (V (Proc.devRef .tc main_arg17)) (V (Proc.devRef .tc main_arg18)) := by
  unfold seg9
  after_results_simp <;> rfl

set_option maxRecDepth 8192 in
/-- Segment 10 computes the skip connection, from the residual pair's output and the edge messages. -/
theorem stage10 (V : Valuation τ sig (Elt F)) :
    after seg10 V (Proc.devRef .tc main_v51) = finalDense (V (Proc.devRef .tc main_v45)) (V (Proc.devRef .tc main_arg0)) (V (Proc.devRef .tc main_arg19)) (V (Proc.devRef .tc main_arg20)) := by
  unfold seg10
  after_results_simp <;> rfl

set_option maxRecDepth 8192 in
/-- Segment 11 computes the first residual pair after the skip connection. -/
theorem stage11 (V : Valuation τ sig (Elt F)) :
    after seg11 V (Proc.devRef .tc main_v70) = residualAfter0 (V (Proc.devRef .tc main_v51)) (V (Proc.devRef .tc main_arg21)) (V (Proc.devRef .tc main_arg22)) (V (Proc.devRef .tc main_arg23)) (V (Proc.devRef .tc main_arg24)) := by
  unfold seg11
  after_results_simp <;> rfl

set_option maxRecDepth 8192 in
/-- Segment 12 computes the second residual pair after the skip connection, the program's result. -/
theorem stage12 (V : Valuation τ sig (Elt F)) :
    after seg12 V (Proc.devRef .tc main_v89) = residualAfter1 (V (Proc.devRef .tc main_v70)) (V (Proc.devRef .tc main_arg21)) (V (Proc.devRef .tc main_arg22)) (V (Proc.devRef .tc main_arg23)) (V (Proc.devRef .tc main_arg24)) := by
  unfold seg12
  after_results_simp <;> rfl

end Cert.ReferenceIdeal.RefRun

end
-- ==== Proof.RefRun.lean ====
/-
  The reference program's run, read as the composition of its stages.

  The program is a straight line of 181 host operations; every weakly fair execution of it terminates, and each buffer
  then holds what running the list of operations from the launch contents leaves there. The list is twelve segments
  one after the other. Reading from the last segment backwards — each segment's result is its stage function of the
  buffers it reads, and a buffer a segment does not write is passed through — the result buffer holds the composition
  of the twelve stage functions applied to the 25 argument arrays, and every argument array is unchanged.
-/
import proofs.«143475_j11940009083127_2_alg».proof.Proof.RefFrame
import proofs.«143475_j11940009083127_2_alg».proof.Proof.RefStageA
import proofs.«143475_j11940009083127_2_alg».proof.Proof.RefStageB

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stage theorems, for use at whatever contents the earlier segments left

The same twelve statements; below they are applied with V the contents after all the earlier segments. -/

theorem stage1_at (V : Valuation τ sig (Elt F)) :
    after seg1 V (no_index (Proc.devRef .tc main_v1)) = radialEmbedding (V (Proc.devRef .tc main_arg1)) (V (Proc.devRef .tc main_arg5)) (V (Proc.devRef .tc main_arg6)) := stage1 V
theorem stage2_at (V : Valuation τ sig (Elt F)) :
    after seg2 V (no_index (Proc.devRef .tc main_v6)) = ownDense (V (Proc.devRef .tc main_arg0)) (V (Proc.devRef .tc main_arg9)) (V (Proc.devRef .tc main_arg10)) := stage2 V
theorem stage3_at (V : Valuation τ sig (Elt F)) :
    after seg3 V (no_index (Proc.devRef .tc main_v11)) = gateDense (V (Proc.devRef .tc main_arg0)) (V (Proc.devRef .tc main_arg11)) (V (Proc.devRef .tc main_arg12)) := stage3 V
theorem stage4_at (V : Valuation τ sig (Elt F)) :
    after seg4 V (no_index (Proc.devRef .tc main_v14)) = gatedDown (V (Proc.devRef .tc main_v11)) (V (Proc.devRef .tc main_v1)) (V (Proc.devRef .tc main_arg13)) := stage4 V
theorem stage5_at (V : Valuation τ sig (Elt F)) :
    after seg5 V (no_index (Proc.devRef .tc main_v16)) = angularEmbedding (V (Proc.devRef .tc main_arg2)) (V (Proc.devRef .tc main_arg7)) (V (Proc.devRef .tc main_arg8)) := stage5 V
theorem stage6_at (V : Valuation τ sig (Elt F)) :
    after seg6 V (no_index (Proc.devRef .tc main_v24)) = messages (V (Proc.devRef .tc main_v14)) (V (Proc.devRef .tc main_arg3)) (V (Proc.devRef .tc main_v16)) := stage6 V
theorem stage7_at (V : Valuation τ sig (Elt F)) :
    after seg7 V (no_index (Proc.devRef .tc main_v27)) = aggregated (V (Proc.devRef .tc main_arg4)) (V (Proc.devRef .tc main_v24)) := stage7 V
theorem stage8_at (V : Valuation τ sig (Elt F)) :
    after seg8 V (no_index (Proc.devRef .tc main_v30)) = joined (V (Proc.devRef .tc main_v27)) (V (Proc.devRef .tc main_arg14)) (V (Proc.devRef .tc main_v6)) := stage8 V
theorem stage9_at (V : Valuation τ sig (Elt F)) :
    after seg9 V (no_index (Proc.devRef .tc main_v45)) = residualBefore (V (Proc.devRef .tc main_v30)) (V (Proc.devRef .tc main_arg15)) (V (Proc.devRef .tc main_arg16)) (V (Proc.devRef .tc main_arg17)) (V (Proc.devRef .tc main_arg18)) := stage9 V
theorem stage10_at (V : Valuation τ sig (Elt F)) :
    after seg10 V (no_index (Proc.devRef .tc main_v51)) = finalDense (V (Proc.devRef .tc main_v45)) (V (Proc.devRef .tc main_arg0)) (V (Proc.devRef .tc main_arg19)) (V (Proc.devRef .tc main_arg20)) := stage10 V
theorem stage11_at (V : Valuation τ sig (Elt F)) :
    after seg11 V (no_index (Proc.devRef .tc main_v70)) = residualAfter0 (V (Proc.devRef .tc main_v51)) (V (Proc.devRef .tc main_arg21)) (V (Proc.devRef .tc main_arg22)) (V (Proc.devRef .tc main_arg23)) (V (Proc.devRef .tc main_arg24)) := stage11 V
theorem stage12_at (V : Valuation τ sig (Elt F)) :
    after seg12 V (no_index (Proc.devRef .tc main_v89)) = residualAfter1 (V (Proc.devRef .tc main_v70)) (V (Proc.devRef .tc main_arg21)) (V (Proc.devRef .tc main_arg22)) (V (Proc.devRef .tc main_arg23)) (V (Proc.devRef .tc main_arg24)) := stage12 V

/-! ## The whole program -/

/-- After the whole program, from any buffer contents V, the result buffer holds the block's output as a function of
    what V holds at the 25 arguments. -/
theorem result (V : Valuation τ sig (Elt F)) :
    after ops V (Proc.devRef .tc main_v89) =
      refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) := by
  rw [ops_eq_segs]
  unfold refOut
  simp (disch := decide) only [after_append,
    stage1_at, stage2_at, stage3_at, stage4_at, stage5_at, stage6_at, stage7_at, stage8_at, stage9_at, stage10_at, stage11_at, stage12_at,
    frame1, frame2, frame3, frame4, frame5, frame6, frame7, frame8, frame9, frame10, frame11, frame12]

/-- On every device, for any float values, from any memory with zero counters: every weakly fair execution of the
    program terminates with the result buffer at the block's output of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c main_v89).trans (result _),
      (h c main_arg0).trans (arg_frame _ main_arg0 (by decide)),
      (h c main_arg1).trans (arg_frame _ main_arg1 (by decide)),
      (h c main_arg2).trans (arg_frame _ main_arg2 (by decide)),
      (h c main_arg3).trans (arg_frame _ main_arg3 (by decide)),
      (h c main_arg4).trans (arg_frame _ main_arg4 (by decide)),
      (h c main_arg5).trans (arg_frame _ main_arg5 (by decide)),
      (h c main_arg6).trans (arg_frame _ main_arg6 (by decide)),
      (h c main_arg7).trans (arg_frame _ main_arg7 (by decide)),
      (h c main_arg8).trans (arg_frame _ main_arg8 (by decide)),
      (h c main_arg9).trans (arg_frame _ main_arg9 (by decide)),
      (h c main_arg10).trans (arg_frame _ main_arg10 (by decide)),
      (h c main_arg11).trans (arg_frame _ main_arg11 (by decide)),
      (h c main_arg12).trans (arg_frame _ main_arg12 (by decide)),
      (h c main_arg13).trans (arg_frame _ main_arg13 (by decide)),
      (h c main_arg14).trans (arg_frame _ main_arg14 (by decide)),
      (h c main_arg15).trans (arg_frame _ main_arg15 (by decide)),
      (h c main_arg16).trans (arg_frame _ main_arg16 (by decide)),
      (h c main_arg17).trans (arg_frame _ main_arg17 (by decide)),
      (h c main_arg18).trans (arg_frame _ main_arg18 (by decide)),
      (h c main_arg19).trans (arg_frame _ main_arg19 (by decide)),
      (h c main_arg20).trans (arg_frame _ main_arg20 (by decide)),
      (h c main_arg21).trans (arg_frame _ main_arg21 (by decide)),
      (h c main_arg22).trans (arg_frame _ main_arg22 (by decide)),
      (h c main_arg23).trans (arg_frame _ main_arg23 (by decide)),
      (h c main_arg24).trans (arg_frame _ main_arg24 (by decide))⟩)
    (run_seq scopedRefs_eq scopedSems_eq defs main (fun _ => ops) main_eq (fun _ => ops_sub) m ρ)

end Cert.ReferenceIdeal.RefRun

end
-- ==== Proof.LibSigmoidPower.lean ====
/-
  General facts about the extended reals, as an idealized float program computes on them, that join a kernel's
  arithmetic to a reference's: the sigmoid of any extended real — infinite ones included — is a real number; the power
  with the real exponent 4 of a real number is the number squared and squared again (for a negative base too: the
  exponent is an even integer); one minus a real number is a real number; the single-precision patterns of 0.0, 1.0 and
  4.0 denote 0, 1 and 4; and a shape cast only renames indices, so the sum over a cast array is the sum over the array.
-/
import Idealize.ShloMosaic.PureOps.Ideal
import Idealize.ShloMosaic.PureOps.Ideal.Laws
import Idealize.ShloMosaic.Lib.ValueIdx

noncomputable section

namespace Cert.Lib

open Idealize.ShloMosaic

/-- The single-precision pattern of +0.0 denotes the number 0. -/
theorem ofBits_f32_zero : Ideal.ofBits .f32 0x00000000#32 = 0 := by
  simp [Ideal.ofBits, Ideal.ieee]

/-- The single-precision pattern of 1.0 denotes the number 1. -/
theorem ofBits_f32_one : Ideal.ofBits .f32 0x3F800000#32 = 1 := by
  simp [Ideal.ofBits, Ideal.ieee, -EReal.coe_mul]; norm_num

/-- The single-precision pattern of 4.0 denotes the real number 4. -/
theorem ofBits_f32_four : Ideal.ofBits .f32 0x40800000#32 = ((4 : ℝ) : EReal) := by
  simp [Ideal.ofBits, Ideal.ieee, -EReal.coe_mul]; norm_num

/-- The sigmoid of any extended real is a real number: 0 at -inf, 1 at +inf, 1/(1+e^(-r)) at a real r. -/
theorem logistic_real (x : EReal) : ∃ s : ℝ, Ideal.logistic x = (s : EReal) := by
  induction x using EReal.rec with
  | bot => exact ⟨0, by rw [Ideal.logistic_bot]; rfl⟩
  | coe r => exact ⟨_, Ideal.logistic_coe r⟩
  | top => exact ⟨1, by rw [Ideal.logistic_top]; rfl⟩

/-- The power with the real exponent 4 of a real number is its square squared. -/
theorem rpow_four_eq_sq_sq (r : ℝ) : Ideal.pow (r : EReal) ((4 : ℝ) : EReal) = ((r : EReal) * r) * ((r : EReal) * r) := by
  rw [Ideal.pow_coe_coe, ← EReal.coe_mul, ← EReal.coe_mul]
  congr 1
  have h4 : Real.rpow r 4 = r ^ (4 : ℕ) := by
    rw [Real.rpow_eq_pow]; exact_mod_cast Real.rpow_natCast r 4
  rw [h4]; ring

/-- One minus a real number is a real number. -/
theorem one_sub_real (h : ℝ) : (1 : EReal) - (h : EReal) = ((1 - h : ℝ) : EReal) := by
  rw [EReal.coe_sub, EReal.coe_one]

/-- The sum over a shape-cast array is the sum over the array: the cast renames the indices one to one. -/
theorem sum_shapeCast {s t : Shape} (x : s.Idx → EReal) (h : s.ShapeCasts t) :
    ∑ j : t.Idx, shapeCast t x h j = ∑ k : s.Idx, x k :=
  Equiv.sum_comp (Shape.reshapeEquiv h) x

end Cert.Lib

end
-- ==== Proof.RefRows.lean ====
/-
  The reference block's stages read row by row, over the extended reals.

  Each stage of the reference acts on whole [n, d] arrays with array operations: a matrix product, a bias row repeated
  over all rows, entry-by-entry arithmetic. Read at one row, every such stage is the corresponding function of rows:
  the product X·W at row r is the row X_r times W, the repeated bias is the same vector β at every row, and
  x · (1 / (1 + exp (−x))) at an entry is silu of that entry. This file proves those readings for the two silu shapes,
  the six matrix products, the dense layer and the residual pair.
-/
import proofs.«143475_j11940009083127_2_alg».proof.Proof.RefStages
import proofs.«143475_j11940009083127_2_alg».proof.Proof.LibRowLayers
import proofs.«143475_j11940009083127_2_alg».proof.Proof.LibSigmoidPower
import Idealize.ShloMosaic.Lib.StackMember
import Idealize.ShloMosaic.Lib.ValueLayout

noncomputable section

namespace Cert.ReferenceIdeal.RefRows

open Cert.ReferenceIdeal Cert.ReferenceIdeal.Gen Cert.ReferenceIdeal.RefRun Idealize.ShloMosaic
open Idealize.ShloMosaic.ValueIdx
open Cert.Net (rows unrows vec mat3 row2 lin sil resid gate post ext_rows)

/-! ## silu, entry by entry -/

/-- One entry of silu as the reference spells it, x · (1 / (1 + exp (−x))) with the ones given by their bit pattern,
    is silu of the entry. -/
theorem silu_entry (x : EReal) :
    x * Ideal.div (Ideal.ofBits .f32 0x3F800000#32) (Ideal.ofBits .f32 0x3F800000#32 + Ideal.exp (-x)) = sil x := by
  rw [Cert.Lib.ofBits_f32_one]; rfl

theorem silu128_rows (X : (⟨S262144x128, .f32⟩ : BufTy).Contents (Elt Ideal)) :
    rows (silu128 (F := Ideal) X) = fun r j => sil (rows X r j) := by
  funext r j
  exact silu_entry (X (ix2 r j))

theorem silu64_rows (X : (⟨S262144x64, .f32⟩ : BufTy).Contents (Elt Ideal)) :
    rows (silu64 (F := Ideal) X) = fun r j => sil (rows X r j) := by
  funext r j
  exact silu_entry (X (ix2 r j))

/-! ## The matrix products -/

/-- A product whose dimension numbers are the plain ones (contract the left operand's columns with the right operand's
    rows) has, as its rows, the rows of the left operand times the right operand. -/
theorem dot_rows {m k n : Nat} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) :
    rows (Host.dotGeneral D none A B) = lin (rows A) (rows B) := by
  subst hD
  funext r j
  exact StackMember.dotGeneral_plain_apply none A B r j

theorem dot_6_8_rows (A : (⟨S262144x6, .f32⟩ : BufTy).Contents (Elt Ideal)) (B : (⟨S6x8, .f32⟩ : BufTy).Contents (Elt Ideal)) :
    rows (Host.dotGeneral (F := Ideal) (φ₁ := .f32) (φ₂ := .f32) dot_S262144x6_S6x8_S262144x8_1_0_0_1_n_n none A B) = lin (rows A) (rows B) :=
  dot_rows _ rfl A B

theorem dot_8_128_rows (A : (⟨S262144x8, .f32⟩ : BufTy).Contents (Elt Ideal)) (B : (⟨S8x128, .f32⟩ : BufTy).Contents (Elt Ideal)) :
    rows (Host.dotGeneral (F := Ideal) (φ₁ := .f32) (φ₂ := .f32) dot_S262144x8_S8x128_S262144x128_1_0_0_1_n_n none A B) = lin (rows A) (rows B) :=
  dot_rows _ rfl A B

theorem dot_128_128_rows (A : (⟨S262144x128, .f32⟩ : BufTy).Contents (Elt Ideal)) (B : (⟨S128x128, .f32⟩ : BufTy).Contents (Elt Ideal)) :
    rows (Host.dotGeneral (F := Ideal) (φ₁ := .f32) (φ₂ := .f32) dot_S262144x128_S128x128_S262144x128_1_0_0_1_n_n none A B) = lin (rows A) (rows B) :=
  dot_rows _ rfl A B

theorem dot_128_64_rows (A : (⟨S262144x128, .f32⟩ : BufTy).Contents (Elt Ideal)) (B : (⟨S128x64, .f32⟩ : BufTy).Contents (Elt Ideal)) :
    rows (Host.dotGeneral (F := Ideal) (φ₁ := .f32) (φ₂ := .f32) dot_S262144x128_S128x64_S262144x64_1_0_0_1_n_n none A B) = lin (rows A) (rows B) :=
  dot_rows _ rfl A B

theorem dot_64_128_rows (A : (⟨S262144x64, .f32⟩ : BufTy).Contents (Elt Ideal)) (B : (⟨S64x128, .f32⟩ : BufTy).Contents (Elt Ideal)) :
    rows (Host.dotGeneral (F := Ideal) (φ₁ := .f32) (φ₂ := .f32) dot_S262144x64_S64x128_S262144x128_1_0_0_1_n_n none A B) = lin (rows A) (rows B) :=
  dot_rows _ rfl A B

theorem dot_42_8_rows (A : (⟨S2097152x42, .f32⟩ : BufTy).Contents (Elt Ideal)) (B : (⟨S42x8, .f32⟩ : BufTy).Contents (Elt Ideal)) :
    rows (Host.dotGeneral (F := Ideal) (φ₁ := .f32) (φ₂ := .f32) dot_S2097152x42_S42x8_S2097152x8_1_0_0_1_n_n none A B) = lin (rows A) (rows B) :=
  dot_rows _ rfl A B

theorem dot_8_64_rows (A : (⟨S2097152x8, .f32⟩ : BufTy).Contents (Elt Ideal)) (B : (⟨S8x64, .f32⟩ : BufTy).Contents (Elt Ideal)) :
    rows (Host.dotGeneral (F := Ideal) (φ₁ := .f32) (φ₂ := .f32) dot_S2097152x8_S8x64_S2097152x64_1_0_0_1_n_n none A B) = lin (rows A) (rows B) :=
  dot_rows _ rfl A B

/-! ## The dense layer and the residual pair -/

/-- The bias: a length-128 array placed along the feature axis of a one-row array and repeated over all rows reads,
    at row r and feature j, entry j of the array. -/
theorem bias_apply (β : (⟨S128, .f32⟩ : BufTy).Contents (Elt Ideal)) (r : Fin 262144) (j : Fin 128) :
    broadcastInDim S262144x128 ![0, 1] bcast_S1x128_S262144x128_0_1
      (broadcastInDim S1x128 ![1] bcast_S128_S1x128_1 β) (ix2 r j) = β (ix1 j) := by
  rw [broadcastInDim_apply ![0, 1] bcast_S1x128_S262144x128_0_1 _ (ix2 r j) (ix2 (0 : Fin 1) j) (by
    intro a
    match a with
    | ⟨0, _⟩ => rfl
    | ⟨1, _⟩ => rfl)]
  exact broadcastInDim_apply ![1] bcast_S128_S1x128_1 β (ix2 (0 : Fin 1) j) (ix1 j) (by
    intro a
    match a with
    | ⟨0, _⟩ => rfl)

theorem dense_rows (X : (⟨S262144x128, .f32⟩ : BufTy).Contents (Elt Ideal)) (W : (⟨S128x128, .f32⟩ : BufTy).Contents (Elt Ideal))
    (β : (⟨S128, .f32⟩ : BufTy).Contents (Elt Ideal)) :
    rows (RefRun.dense (F := Ideal) X W β) = Cert.Net.dense (rows X) (rows W) (vec β) := by
  funext r j
  refine (congrFun (congrFun (silu128_rows _) r) j).trans ?_
  show sil (rows (Host.dotGeneral (F := Ideal) (φ₁ := .f32) (φ₂ := .f32) dot_S262144x128_S128x128_S262144x128_1_0_0_1_n_n none X W) r j
    + broadcastInDim S262144x128 ![0, 1] bcast_S1x128_S262144x128_0_1
        (broadcastInDim S1x128 ![1] bcast_S128_S1x128_1 β) (ix2 r j)) = _
  rw [bias_apply, dot_128_128_rows]
  rfl

theorem residualPair_rows (h : (⟨S262144x128, .f32⟩ : BufTy).Contents (Elt Ideal))
    (W₁ : (⟨S128x128, .f32⟩ : BufTy).Contents (Elt Ideal)) (β₁ : (⟨S128, .f32⟩ : BufTy).Contents (Elt Ideal))
    (W₂ : (⟨S128x128, .f32⟩ : BufTy).Contents (Elt Ideal)) (β₂ : (⟨S128, .f32⟩ : BufTy).Contents (Elt Ideal)) :
    rows (residualPair (F := Ideal) h W₁ β₁ W₂ β₂) = resid (rows h) (rows W₁) (vec β₁) (rows W₂) (vec β₂) := by
  funext r j
  show rows h r j + rows (RefRun.dense (F := Ideal) (RefRun.dense (F := Ideal) h W₁ β₁) W₂ β₂) r j = _
  rw [dense_rows, dense_rows]
  rfl

end Cert.ReferenceIdeal.RefRows

end
-- ==== Proof.RefRowsStages.lean ====
/-
  The stages of the reference block read row by row, over the extended reals, and the block's two row-wise halves.

  On top of the readings of silu, the matrix products, the dense layer and the residual pair, each named stage of the
  reference is the matching function of rows; weights that arrive as stacks are read through their shape casts and
  slices as a member of the stack. Composing the readings, the part of the block before the gather is the gated
  down-projection of rows, and the part after the scatter is the edge update of rows.
-/
import proofs.«143475_j11940009083127_2_alg».proof.Proof.RefRows

noncomputable section

namespace Cert.ReferenceIdeal.RefRows

open Cert.ReferenceIdeal Cert.ReferenceIdeal.Gen Cert.ReferenceIdeal.RefRun Idealize.ShloMosaic
open Idealize.ShloMosaic.ValueIdx
open Cert.Net (rows unrows vec mat3 row2 lin sil resid gate post ext_rows)

/-! ## The stages -/

theorem ownDense_rows (X : (⟨S262144x128, .f32⟩ : BufTy).Contents (Elt Ideal)) (W : (⟨S128x128, .f32⟩ : BufTy).Contents (Elt Ideal)) (β : (⟨S128, .f32⟩ : BufTy).Contents (Elt Ideal)) :
    rows (ownDense (F := Ideal) X W β) = Cert.Net.dense (rows X) (rows W) (vec β) :=
  dense_rows X W β

theorem gateDense_rows (X : (⟨S262144x128, .f32⟩ : BufTy).Contents (Elt Ideal)) (W : (⟨S128x128, .f32⟩ : BufTy).Contents (Elt Ideal)) (β : (⟨S128, .f32⟩ : BufTy).Contents (Elt Ideal)) :
    rows (gateDense (F := Ideal) X W β) = Cert.Net.dense (rows X) (rows W) (vec β) :=
  dense_rows X W β

theorem radialEmbedding_rows (rbf : (⟨S262144x6, .f32⟩ : BufTy).Contents (Elt Ideal)) (W₁ : (⟨S6x8, .f32⟩ : BufTy).Contents (Elt Ideal)) (W₂ : (⟨S8x128, .f32⟩ : BufTy).Contents (Elt Ideal)) :
    rows (radialEmbedding (F := Ideal) rbf W₁ W₂) = lin (lin (rows rbf) (rows W₁)) (rows W₂) :=
  (dot_8_128_rows _ W₂).trans (congrArg (fun Y => lin Y (rows W₂)) (dot_6_8_rows rbf W₁))

theorem angularEmbedding_rows (sbf : (⟨S2097152x42, .f32⟩ : BufTy).Contents (Elt Ideal)) (V₁ : (⟨S42x8, .f32⟩ : BufTy).Contents (Elt Ideal)) (V₂ : (⟨S8x64, .f32⟩ : BufTy).Contents (Elt Ideal)) :
    rows (angularEmbedding (F := Ideal) sbf V₁ V₂) = lin (lin (rows sbf) (rows V₁)) (rows V₂) :=
  (dot_8_64_rows _ V₂).trans (congrArg (fun Y => lin Y (rows V₂)) (dot_42_8_rows sbf V₁))

theorem gatedDown_rows (g e : (⟨S262144x128, .f32⟩ : BufTy).Contents (Elt Ideal)) (W : (⟨S128x64, .f32⟩ : BufTy).Contents (Elt Ideal)) :
    rows (gatedDown (F := Ideal) g e W) = fun r j => sil (lin (fun r k => rows g r k * rows e r k) (rows W) r j) := by
  refine (silu64_rows _).trans ?_
  rw [dot_128_64_rows]
  rfl

theorem joined_rows (agg : (⟨S262144x64, .f32⟩ : BufTy).Contents (Elt Ideal)) (W : (⟨S64x128, .f32⟩ : BufTy).Contents (Elt Ideal)) (own : (⟨S262144x128, .f32⟩ : BufTy).Contents (Elt Ideal)) :
    rows (joined (F := Ideal) agg W own) = fun r j => sil (lin (rows agg) (rows W) r j) + rows own r j := by
  funext r j
  show rows (silu128 (F := Ideal) (Host.dotGeneral (F := Ideal) (φ₁ := .f32) (φ₂ := .f32)
    dot_S262144x64_S64x128_S262144x128_1_0_0_1_n_n none agg W)) r j + rows own r j = _
  rw [silu128_rows, dot_64_128_rows]

theorem finalDense_rows (h m : (⟨S262144x128, .f32⟩ : BufTy).Contents (Elt Ideal)) (W : (⟨S128x128, .f32⟩ : BufTy).Contents (Elt Ideal)) (β : (⟨S128, .f32⟩ : BufTy).Contents (Elt Ideal)) :
    rows (finalDense (F := Ideal) h m W β) = fun r j => rows m r j + Cert.Net.dense (rows h) (rows W) (vec β) r j := by
  funext r j
  show rows m r j + rows (RefRun.dense (F := Ideal) h W β) r j = _
  rw [dense_rows]

/-! ## Weights given as stacks -/

/-- A one-member stack [1, 128, 128] read as a matrix is its member 0. -/
theorem cast_mat_rows (A : (⟨S1x128x128, .f32⟩ : BufTy).Contents (Elt Ideal)) :
    rows (shapeCast S128x128 A shapeCasts_S1x128x128_S128x128) = mat3 A 0 := by
  funext i j
  exact shapeCast_1ab_ab_apply A _ i j

/-- A one-row array [1, 128] read as a vector is its row 0. -/
theorem cast_vec (α : (⟨S1x128, .f32⟩ : BufTy).Contents (Elt Ideal)) : vec (shapeCast S128 α shapeCasts_S1x128_S128) = row2 α 0 := by
  funext j
  exact shapeCast_1a_a_apply α _ j

/-- Member 0 of a two-member stack, cut out as a one-member stack. -/
theorem slice0_mat (B : (⟨S2x128x128, .f32⟩ : BufTy).Contents (Elt Ideal)) :
    mat3 (extractStridedSlice S1x128x128 ![0, 0, 0] B slices_S2x128x128_S1x128x128_0_0_0) 0 = mat3 B 0 := by
  funext i j
  exact extractStridedSlice_apply _ B _ (ix3 (0 : Fin 1) i j) (ix3 (0 : Fin 2) i j) (fun a => by
    match a with
    | ⟨0, _⟩ => rfl
    | ⟨1, _⟩ => exact (Nat.zero_add _).symm
    | ⟨2, _⟩ => exact (Nat.zero_add _).symm)

/-- Member 1 of a two-member stack, cut out as a one-member stack. -/
theorem slice1_mat (B : (⟨S2x128x128, .f32⟩ : BufTy).Contents (Elt Ideal)) :
    mat3 (extractStridedSlice S1x128x128 ![1, 0, 0] B slices_S2x128x128_S1x128x128_1_0_0) 0 = mat3 B 1 := by
  funext i j
  exact extractStridedSlice_apply _ B _ (ix3 (0 : Fin 1) i j) (ix3 (1 : Fin 2) i j) (fun a => by
    match a with
    | ⟨0, _⟩ => rfl
    | ⟨1, _⟩ => exact (Nat.zero_add _).symm
    | ⟨2, _⟩ => exact (Nat.zero_add _).symm)

/-- Row 0 of a two-row array, cut out as a one-row array. -/
theorem slice0_row (γ : (⟨S2x128, .f32⟩ : BufTy).Contents (Elt Ideal)) :
    row2 (extractStridedSlice S1x128 ![0, 0] γ slices_S2x128_S1x128_0_0) 0 = row2 γ 0 := by
  funext j
  exact extractStridedSlice_apply _ γ _ (ix2 (0 : Fin 1) j) (ix2 (0 : Fin 2) j) (fun a => by
    match a with
    | ⟨0, _⟩ => rfl
    | ⟨1, _⟩ => exact (Nat.zero_add _).symm)

/-- Row 1 of a two-row array, cut out as a one-row array. -/
theorem slice1_row (γ : (⟨S2x128, .f32⟩ : BufTy).Contents (Elt Ideal)) :
    row2 (extractStridedSlice S1x128 ![1, 0] γ slices_S2x128_S1x128_1_0) 0 = row2 γ 1 := by
  funext j
  exact extractStridedSlice_apply _ γ _ (ix2 (0 : Fin 1) j) (ix2 (1 : Fin 2) j) (fun a => by
    match a with
    | ⟨0, _⟩ => rfl
    | ⟨1, _⟩ => exact (Nat.zero_add _).symm)

theorem residualBefore_rows (h : (⟨S262144x128, .f32⟩ : BufTy).Contents (Elt Ideal)) (A₁ : (⟨S1x128x128, .f32⟩ : BufTy).Contents (Elt Ideal)) (α₁ : (⟨S1x128, .f32⟩ : BufTy).Contents (Elt Ideal))
    (A₂ : (⟨S1x128x128, .f32⟩ : BufTy).Contents (Elt Ideal)) (α₂ : (⟨S1x128, .f32⟩ : BufTy).Contents (Elt Ideal)) :
    rows (residualBefore (F := Ideal) h A₁ α₁ A₂ α₂) = resid (rows h) (mat3 A₁ 0) (row2 α₁ 0) (mat3 A₂ 0) (row2 α₂ 0) := by
  refine (residualPair_rows _ _ _ _ _).trans ?_
  rw [cast_mat_rows, cast_mat_rows, cast_vec, cast_vec]

theorem residualAfter0_rows (y : (⟨S262144x128, .f32⟩ : BufTy).Contents (Elt Ideal)) (B₁ : (⟨S2x128x128, .f32⟩ : BufTy).Contents (Elt Ideal)) (γ₁ : (⟨S2x128, .f32⟩ : BufTy).Contents (Elt Ideal))
    (B₂ : (⟨S2x128x128, .f32⟩ : BufTy).Contents (Elt Ideal)) (γ₂ : (⟨S2x128, .f32⟩ : BufTy).Contents (Elt Ideal)) :
    rows (residualAfter0 (F := Ideal) y B₁ γ₁ B₂ γ₂) = resid (rows y) (mat3 B₁ 0) (row2 γ₁ 0) (mat3 B₂ 0) (row2 γ₂ 0) := by
  refine (residualPair_rows _ _ _ _ _).trans ?_
  rw [cast_mat_rows, cast_mat_rows, cast_vec, cast_vec, slice0_mat, slice0_mat, slice0_row, slice0_row]

theorem residualAfter1_rows (y : (⟨S262144x128, .f32⟩ : BufTy).Contents (Elt Ideal)) (B₁ : (⟨S2x128x128, .f32⟩ : BufTy).Contents (Elt Ideal)) (γ₁ : (⟨S2x128, .f32⟩ : BufTy).Contents (Elt Ideal))
    (B₂ : (⟨S2x128x128, .f32⟩ : BufTy).Contents (Elt Ideal)) (γ₂ : (⟨S2x128, .f32⟩ : BufTy).Contents (Elt Ideal)) :
    rows (residualAfter1 (F := Ideal) y B₁ γ₁ B₂ γ₂) = resid (rows y) (mat3 B₁ 1) (row2 γ₁ 1) (mat3 B₂ 1) (row2 γ₂ 1) := by
  refine (residualPair_rows _ _ _ _ _).trans ?_
  rw [cast_mat_rows, cast_mat_rows, cast_vec, cast_vec, slice1_mat, slice1_mat, slice1_row, slice1_row]

/-! ## The two row-wise halves of the block -/

/-- Before the gather: the gated down-projection of every edge. -/
theorem gate_rows (x0 : (⟨S262144x128, .f32⟩ : BufTy).Contents (Elt Ideal)) (x1 : (⟨S262144x6, .f32⟩ : BufTy).Contents (Elt Ideal)) (x5 : (⟨S6x8, .f32⟩ : BufTy).Contents (Elt Ideal)) (x6 : (⟨S8x128, .f32⟩ : BufTy).Contents (Elt Ideal))
    (x11 : (⟨S128x128, .f32⟩ : BufTy).Contents (Elt Ideal)) (x12 : (⟨S128, .f32⟩ : BufTy).Contents (Elt Ideal)) (x13 : (⟨S128x64, .f32⟩ : BufTy).Contents (Elt Ideal)) :
    rows (gatedDown (F := Ideal) (gateDense x0 x11 x12) (radialEmbedding x1 x5 x6) x13)
      = gate (rows x0) (lin (lin (rows x1) (rows x5)) (rows x6)) (rows x11) (vec x12) (rows x13) := by
  rw [gatedDown_rows, radialEmbedding_rows, gateDense_rows]
  rfl

/-- Per triplet: the gathered row of the incoming edge times the angular embedding, entry by entry. -/
theorem messages_rows (xkj : (⟨S262144x64, .f32⟩ : BufTy).Contents (Elt Ideal)) (idx : (⟨S2097152, .i32⟩ : BufTy).Contents (Elt Ideal)) (a : (⟨S2097152x64, .f32⟩ : BufTy).Contents (Elt Ideal)) :
    rows (messages (F := Ideal) xkj idx a)
      = fun r j => rows (Host.gather gather_S262144x64_S2097152x1_S2097152x64_1_0_n_n_0_1_164 xkj
          (broadcastInDim S2097152x1 ![0] bcast_S2097152_S2097152x1_0
            (select (cmpi .slt idx (broadcastInDim S2097152 ![] bcast_S_S2097152 (constantI S_ 32 0#32)))
              (addi idx (broadcastInDim S2097152 ![] bcast_S_S2097152 (constantI S_ 32 262144#32))) idx))) r j
        * rows a r j := rfl

/-- After the scatter: the update of every edge from its aggregated messages A and its own message x0. -/
theorem out_rows (x0 : (⟨S262144x128, .f32⟩ : BufTy).Contents (Elt Ideal)) (x9 : (⟨S128x128, .f32⟩ : BufTy).Contents (Elt Ideal)) (x10 : (⟨S128, .f32⟩ : BufTy).Contents (Elt Ideal)) (x14 : (⟨S64x128, .f32⟩ : BufTy).Contents (Elt Ideal))
    (x15 : (⟨S1x128x128, .f32⟩ : BufTy).Contents (Elt Ideal)) (x16 : (⟨S1x128, .f32⟩ : BufTy).Contents (Elt Ideal)) (x17 : (⟨S1x128x128, .f32⟩ : BufTy).Contents (Elt Ideal)) (x18 : (⟨S1x128, .f32⟩ : BufTy).Contents (Elt Ideal))
    (x19 : (⟨S128x128, .f32⟩ : BufTy).Contents (Elt Ideal)) (x20 : (⟨S128, .f32⟩ : BufTy).Contents (Elt Ideal))
    (x21 : (⟨S2x128x128, .f32⟩ : BufTy).Contents (Elt Ideal)) (x22 : (⟨S2x128, .f32⟩ : BufTy).Contents (Elt Ideal)) (x23 : (⟨S2x128x128, .f32⟩ : BufTy).Contents (Elt Ideal)) (x24 : (⟨S2x128, .f32⟩ : BufTy).Contents (Elt Ideal))
    (A : (⟨S262144x64, .f32⟩ : BufTy).Contents (Elt Ideal)) :
    residualAfter1 (F := Ideal)
      (residualAfter0
        (finalDense (residualBefore (joined A x14 (ownDense x0 x9 x10)) x15 x16 x17 x18) x0 x19 x20)
        x21 x22 x23 x24)
      x21 x22 x23 x24
    = unrows (post (rows A) (rows x0) (rows x9) (vec x10) (rows x14)
        (mat3 x15 0) (row2 x16 0) (mat3 x17 0) (row2 x18 0) (rows x19) (vec x20)
        (mat3 x21 0) (row2 x22 0) (mat3 x23 0) (row2 x24 0) (mat3 x21 1) (row2 x22 1) (mat3 x23 1) (row2 x24 1)) := by
  apply ext_rows
  rw [Cert.Net.rows_unrows, residualAfter1_rows, residualAfter0_rows, finalDense_rows, residualBefore_rows, joined_rows,
    ownDense_rows]
  rfl

end Cert.ReferenceIdeal.RefRows

end
-- ==== Proof.LibMatmulAssoc.lean ====
/-
  Associativity of the matrix product of real matrices inside the extended reals.

  On the extended reals multiplication does not distribute over addition at the infinities, so (X · W₁) · W₂ and
  X · (W₁ · W₂) may differ. When every entry of the three matrices is a real number both are the coercion of the real
  double sum ∑ₖ ∑ₚ X(r,k) W₁(k,p) W₂(p,j), taken in either order.
-/
import proofs.«143475_j11940009083127_2_alg».proof.Proof.LibRowLayers

noncomputable section

namespace Cert.Net

/-- The coercion of a finite real sum is the sum of the coercions. -/
theorem coe_finsum {α : Type} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {ι : Type}

/-- (X · W₁) · W₂ = X · (W₁ · W₂) for matrices with real entries. -/
theorem lin_assoc {a b c : Nat} (X : ι → Fin a → EReal) (W₁ : Fin a → Fin b → EReal) (W₂ : Fin b → Fin c → EReal)
    (hX : ∀ r k, ∃ x : ℝ, X r k = (x : EReal)) (h₁ : ∀ k p, ∃ x : ℝ, W₁ k p = (x : EReal))
    (h₂ : ∀ p j, ∃ x : ℝ, W₂ p j = (x : EReal)) :
    lin (lin X W₁) W₂ = lin X (lin W₁ W₂) := by
  choose x hx using hX
  choose u hu using h₁
  choose v hv using h₂
  funext r j
  have hL : lin (lin X W₁) W₂ r j = ((∑ p : Fin b, (∑ k : Fin a, x r k * u k p) * v p j : ℝ) : EReal) := by
    simp only [lin, hx, hu, hv]
    rw [coe_finsum]
    refine Finset.sum_congr rfl fun p _ => ?_
    rw [EReal.coe_mul, coe_finsum]
    congr 1
  have hR : lin X (lin W₁ W₂) r j = ((∑ k : Fin a, x r k * ∑ p : Fin b, u k p * v p j : ℝ) : EReal) := by
    simp only [lin, hx, hu, hv]
    rw [coe_finsum]
    refine Finset.sum_congr rfl fun k _ => ?_
    rw [EReal.coe_mul, coe_finsum]
    congr 1
  rw [hL, hR]
  congr 1
  simp only [Finset.sum_mul, Finset.mul_sum]
  rw [Finset.sum_comm]
  refine Finset.sum_congr rfl fun k _ => Finset.sum_congr rfl fun p _ => ?_
  ring

end Cert.Net

end
-- ==== Proof.Bridge.lean ====
/-
  The kernel's result is the reference's.

  Both programs compute the same network; they differ in two places. The kernel folds each pair of basis weight matrices
  into one matrix before multiplying (X · (W₁ · W₂)) where the reference multiplies twice ((X · W₁) · W₂): for real
  entries these agree by associativity. And the kernel multiplies the angular embedding by the gathered row where the
  reference multiplies the gathered row by the embedding: commutativity. Everything else — the gather, the sum over
  destination edges, the dense layers and residual pairs — is the same function applied to equal arrays.
-/
import proofs.«143475_j11940009083127_2_alg».proof.Proof.KernelValue
import proofs.«143475_j11940009083127_2_alg».proof.Proof.RefRowsStages
import proofs.«143475_j11940009083127_2_alg».proof.Proof.LibMatmulAssoc

set_option maxRecDepth 16384

noncomputable section

namespace Cert.Bridge

open Cert.Net Idealize.ShloMosaic Idealize.ShloMosaic.ValueIdx Idealize.SL.Sem
open Cert.ReferenceIdeal.RefRun Cert.ReferenceIdeal.RefRows

variable (m : (ℓ : Loc Cert.KernelIdeal.nD Cert.KernelIdeal.τ Cert.KernelIdeal.sig) → Buf (Elt Ideal) ℓ)
  (c : Dev Cert.KernelIdeal.nD)

/-- The gated down-projection of the edges: the radial fold taken either way. -/
theorem xkj_eq (h1 : ∀ i, ∃ x : ℝ, (m ((c.tc : Thread Cert.KernelIdeal.nD Cert.KernelIdeal.τ).loc Cert.KernelIdeal.main_arg1)) i = (x : EReal)) (h5 : ∀ i, ∃ x : ℝ, (m ((c.tc : Thread Cert.KernelIdeal.nD Cert.KernelIdeal.τ).loc Cert.KernelIdeal.main_arg5)) i = (x : EReal)) (h6 : ∀ i, ∃ x : ℝ, (m ((c.tc : Thread Cert.KernelIdeal.nD Cert.KernelIdeal.τ).loc Cert.KernelIdeal.main_arg6)) i = (x : EReal)) :
    Cert.KernelIdeal.Value.xkj m c = (gatedDown (F := Ideal) (gateDense (m ((c.tc : Thread Cert.KernelIdeal.nD Cert.KernelIdeal.τ).loc Cert.KernelIdeal.main_arg0)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (radialEmbedding (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg13))) := by
  apply ext_rows
  rw [gate_rows]
  unfold Cert.KernelIdeal.Value.xkj
  rw [rows_unrows, dot_rows Cert.KernelIdeal.dot_S6x8_S8x128_S6x128_1_0_0_1_n_n rfl,
    lin_assoc (rows (m ((c.tc : Thread Cert.KernelIdeal.nD Cert.KernelIdeal.τ).loc Cert.KernelIdeal.main_arg1))) (rows (m ((c.tc : Thread Cert.KernelIdeal.nD Cert.KernelIdeal.τ).loc Cert.KernelIdeal.main_arg5))) (rows (m ((c.tc : Thread Cert.KernelIdeal.nD Cert.KernelIdeal.τ).loc Cert.KernelIdeal.main_arg6)))
      (fun r k => h1 (ix2 r k)) (fun r k => h5 (ix2 r k)) (fun r k => h6 (ix2 r k))]

/-- The triplets' messages: the angular fold taken either way, the two factors in either order. -/
theorem msg_eq (h1 : ∀ i, ∃ x : ℝ, (m ((c.tc : Thread Cert.KernelIdeal.nD Cert.KernelIdeal.τ).loc Cert.KernelIdeal.main_arg1)) i = (x : EReal)) (h5 : ∀ i, ∃ x : ℝ, (m ((c.tc : Thread Cert.KernelIdeal.nD Cert.KernelIdeal.τ).loc Cert.KernelIdeal.main_arg5)) i = (x : EReal)) (h6 : ∀ i, ∃ x : ℝ, (m ((c.tc : Thread Cert.KernelIdeal.nD Cert.KernelIdeal.τ).loc Cert.KernelIdeal.main_arg6)) i = (x : EReal)) (h2 : ∀ i, ∃ x : ℝ, (m ((c.tc : Thread Cert.KernelIdeal.nD Cert.KernelIdeal.τ).loc Cert.KernelIdeal.main_arg2)) i = (x : EReal)) (h7 : ∀ i, ∃ x : ℝ, (m ((c.tc : Thread Cert.KernelIdeal.nD Cert.KernelIdeal.τ).loc Cert.KernelIdeal.main_arg7)) i = (x : EReal)) (h8 : ∀ i, ∃ x : ℝ, (m ((c.tc : Thread Cert.KernelIdeal.nD Cert.KernelIdeal.τ).loc Cert.KernelIdeal.main_arg8)) i = (x : EReal)) :
    Cert.KernelIdeal.Value.msg m c = (messages (F := Ideal) (gatedDown (F := Ideal) (gateDense (m ((c.tc : Thread Cert.KernelIdeal.nD Cert.KernelIdeal.τ).loc Cert.KernelIdeal.main_arg0)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (radialEmbedding (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg13))) (m ((c.tc : Thread Cert.KernelIdeal.nD Cert.KernelIdeal.τ).loc Cert.KernelIdeal.main_arg3)) (angularEmbedding (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))) := by
  apply ext_rows
  rw [messages_rows]
  unfold Cert.KernelIdeal.Value.msg
  rw [rows_unrows]
  funext r j
  refine (mul_comm _ _).trans (congrArg₂ (· * ·) ?_ ?_)
  · unfold Cert.KernelIdeal.Value.gathered
    rw [xkj_eq m c h1 h5 h6]
    rfl
  · rw [angularEmbedding_rows, dot_rows Cert.KernelIdeal.dot_S42x8_S8x64_S42x64_1_0_0_1_n_n rfl,
      lin_assoc (rows (m ((c.tc : Thread Cert.KernelIdeal.nD Cert.KernelIdeal.τ).loc Cert.KernelIdeal.main_arg2))) (rows (m ((c.tc : Thread Cert.KernelIdeal.nD Cert.KernelIdeal.τ).loc Cert.KernelIdeal.main_arg7))) (rows (m ((c.tc : Thread Cert.KernelIdeal.nD Cert.KernelIdeal.τ).loc Cert.KernelIdeal.main_arg8)))
        (fun r k => h2 (ix2 r k)) (fun r k => h7 (ix2 r k)) (fun r k => h8 (ix2 r k))]

/-- The messages summed into their destination edges. -/
theorem agg_eq (h1 : ∀ i, ∃ x : ℝ, (m ((c.tc : Thread Cert.KernelIdeal.nD Cert.KernelIdeal.τ).loc Cert.KernelIdeal.main_arg1)) i = (x : EReal)) (h5 : ∀ i, ∃ x : ℝ, (m ((c.tc : Thread Cert.KernelIdeal.nD Cert.KernelIdeal.τ).loc Cert.KernelIdeal.main_arg5)) i = (x : EReal)) (h6 : ∀ i, ∃ x : ℝ, (m ((c.tc : Thread Cert.KernelIdeal.nD Cert.KernelIdeal.τ).loc Cert.KernelIdeal.main_arg6)) i = (x : EReal)) (h2 : ∀ i, ∃ x : ℝ, (m ((c.tc : Thread Cert.KernelIdeal.nD Cert.KernelIdeal.τ).loc Cert.KernelIdeal.main_arg2)) i = (x : EReal)) (h7 : ∀ i, ∃ x : ℝ, (m ((c.tc : Thread Cert.KernelIdeal.nD Cert.KernelIdeal.τ).loc Cert.KernelIdeal.main_arg7)) i = (x : EReal)) (h8 : ∀ i, ∃ x : ℝ, (m ((c.tc : Thread Cert.KernelIdeal.nD Cert.KernelIdeal.τ).loc Cert.KernelIdeal.main_arg8)) i = (x : EReal)) :
    Cert.KernelIdeal.Value.agg m c = (aggregated (F := Ideal) (m ((c.tc : Thread Cert.KernelIdeal.nD Cert.KernelIdeal.τ).loc Cert.KernelIdeal.main_arg4)) (messages (F := Ideal) (gatedDown (F := Ideal) (gateDense (m ((c.tc : Thread Cert.KernelIdeal.nD Cert.KernelIdeal.τ).loc Cert.KernelIdeal.main_arg0)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (radialEmbedding (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg13))) (m ((c.tc : Thread Cert.KernelIdeal.nD Cert.KernelIdeal.τ).loc Cert.KernelIdeal.main_arg3)) (angularEmbedding (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))))) := by
  unfold Cert.KernelIdeal.Value.agg
  rw [msg_eq m c h1 h5 h6 h2 h7 h8]
  rfl

/-- The result array of the idealized kernel is the reference's result term of the same arguments. -/
theorem out_eq (h1 : ∀ i, ∃ x : ℝ, (m ((c.tc : Thread Cert.KernelIdeal.nD Cert.KernelIdeal.τ).loc Cert.KernelIdeal.main_arg1)) i = (x : EReal)) (h5 : ∀ i, ∃ x : ℝ, (m ((c.tc : Thread Cert.KernelIdeal.nD Cert.KernelIdeal.τ).loc Cert.KernelIdeal.main_arg5)) i = (x : EReal)) (h6 : ∀ i, ∃ x : ℝ, (m ((c.tc : Thread Cert.KernelIdeal.nD Cert.KernelIdeal.τ).loc Cert.KernelIdeal.main_arg6)) i = (x : EReal)) (h2 : ∀ i, ∃ x : ℝ, (m ((c.tc : Thread Cert.KernelIdeal.nD Cert.KernelIdeal.τ).loc Cert.KernelIdeal.main_arg2)) i = (x : EReal)) (h7 : ∀ i, ∃ x : ℝ, (m ((c.tc : Thread Cert.KernelIdeal.nD Cert.KernelIdeal.τ).loc Cert.KernelIdeal.main_arg7)) i = (x : EReal)) (h8 : ∀ i, ∃ x : ℝ, (m ((c.tc : Thread Cert.KernelIdeal.nD Cert.KernelIdeal.τ).loc Cert.KernelIdeal.main_arg8)) i = (x : EReal)) :
    Cert.KernelIdeal.Value.out m c
      = refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) := by
  unfold Cert.KernelIdeal.Value.out
  rw [agg_eq m c h1 h5 h6 h2 h7 h8]
  exact (out_rows (m ((c.tc : Thread Cert.KernelIdeal.nD Cert.KernelIdeal.τ).loc Cert.KernelIdeal.main_arg0)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (aggregated (F := Ideal) (m ((c.tc : Thread Cert.KernelIdeal.nD Cert.KernelIdeal.τ).loc Cert.KernelIdeal.main_arg4)) (messages (F := Ideal) (gatedDown (F := Ideal) (gateDense (m ((c.tc : Thread Cert.KernelIdeal.nD Cert.KernelIdeal.τ).loc Cert.KernelIdeal.main_arg0)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (radialEmbedding (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg13))) (m ((c.tc : Thread Cert.KernelIdeal.nD Cert.KernelIdeal.τ).loc Cert.KernelIdeal.main_arg3)) (angularEmbedding (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))))).symm

end Cert.Bridge

end
-- ==== Proof.FiniteInputs.lean ====
/-
  Finite inputs are real numbers.

  The precondition says, of every floating-point input array, that each of its entries has absolute value below
  plus infinity, and it says so as one conjunction: a chain of ANDs of one all-entries test per array. Over the extended
  reals an entry whose absolute value max x (-x) is below the top element is neither the top nor the bottom
  element, so it is a real number. Read back through the chain, this gives every entry of the six arrays the two basis
  folds multiply (the radial basis and its two factors, the angular basis and its two factors) as a real.
-/
import proofs.«143475_j11940009083127_2_alg».proof.Defs
import Idealize.ShloMosaic.Lib.ReduceAll
import Idealize.ShloMosaic.Lib.ValueIdx

noncomputable section

namespace Cert.KernelIdeal.Finite

open Idealize.ShloMosaic Idealize.ShloMosaic.ValueIdx Idealize.SL.Sem

/-- An extended real whose absolute value is below plus infinity is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The scalar shape has one index. -/
instance : Subsingleton Cert.Pre_finite_inputs.S_.Idx := ⟨fun a b => funext fun d => d.elim0⟩

/-- One array's test: if "every entry has absolute value below plus infinity" came out true, every entry is real. -/
theorem reals_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu ix0 = 1#1) (i : s.Idx) : ∃ r : ℝ, x i = (r : EReal) :=
  real_of_abs_lt_inf (x i) (Host.reduce_andi_all _ _ hr hu ix0 e i)

/-- Under the precondition, every entry of the radial basis, of its two factors, of the angular basis and of its two
    factors is a real number. -/
theorem reals_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg1) i = (x : EReal))
      ∧ (∀ i, ∃ x : ℝ, m ((c.tc : Thread Cert.KernelIdeal.nD Cert.KernelIdeal.τ).loc Cert.KernelIdeal.main_arg5) i = (x : EReal))
      ∧ (∀ i, ∃ x : ℝ, m ((c.tc : Thread Cert.KernelIdeal.nD Cert.KernelIdeal.τ).loc Cert.KernelIdeal.main_arg6) i = (x : EReal))
      ∧ (∀ i, ∃ x : ℝ, m ((c.tc : Thread Cert.KernelIdeal.nD Cert.KernelIdeal.τ).loc Cert.KernelIdeal.main_arg2) i = (x : EReal))
      ∧ (∀ i, ∃ x : ℝ, m ((c.tc : Thread Cert.KernelIdeal.nD Cert.KernelIdeal.τ).loc Cert.KernelIdeal.main_arg7) i = (x : EReal))
      ∧ (∀ i, ∃ x : ℝ, m ((c.tc : Thread Cert.KernelIdeal.nD Cert.KernelIdeal.τ).loc Cert.KernelIdeal.main_arg8) i = (x : EReal)) := by
  have e := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, andi] at e
  simp only [IntOp.andi_eq_one] at e
  obtain ⟨⟨⟨⟨⟨⟨⟨⟨⟨⟨⟨⟨⟨⟨⟨⟨⟨⟨⟨⟨⟨⟨-, h1⟩, h2⟩, h5⟩, h6⟩, h7⟩, h8⟩, -⟩, -⟩, -⟩, -⟩, -⟩, -⟩, -⟩, -⟩, -⟩, -⟩, -⟩, -⟩, -⟩, -⟩, -⟩, -⟩ := e
  exact ⟨reals_of_all _ _ _ _ h1, reals_of_all _ _ _ _ h5, reals_of_all _ _ _ _ h6, reals_of_all _ _ _ _ h2,
    reals_of_all _ _ _ _ h7, reals_of_all _ _ _ _ h8⟩

/-- The same, each array's index written over its literal shape. -/
theorem reals_of_pre_shapes [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S262144x6.Idx, ∃ x : ℝ, m ((c.tc : Thread Cert.KernelIdeal.nD Cert.KernelIdeal.τ).loc Cert.KernelIdeal.main_arg1) i = (x : EReal))
      ∧ (∀ i : Cert.KernelIdeal.S6x8.Idx, ∃ x : ℝ, m ((c.tc : Thread Cert.KernelIdeal.nD Cert.KernelIdeal.τ).loc Cert.KernelIdeal.main_arg5) i = (x : EReal))
      ∧ (∀ i : Cert.KernelIdeal.S8x128.Idx, ∃ x : ℝ, m ((c.tc : Thread Cert.KernelIdeal.nD Cert.KernelIdeal.τ).loc Cert.KernelIdeal.main_arg6) i = (x : EReal))
      ∧ (∀ i : Cert.KernelIdeal.S2097152x42.Idx, ∃ x : ℝ, m ((c.tc : Thread Cert.KernelIdeal.nD Cert.KernelIdeal.τ).loc Cert.KernelIdeal.main_arg2) i = (x : EReal))
      ∧ (∀ i : Cert.KernelIdeal.S42x8.Idx, ∃ x : ℝ, m ((c.tc : Thread Cert.KernelIdeal.nD Cert.KernelIdeal.τ).loc Cert.KernelIdeal.main_arg7) i = (x : EReal))
      ∧ (∀ i : Cert.KernelIdeal.S8x64.Idx, ∃ x : ℝ, m ((c.tc : Thread Cert.KernelIdeal.nD Cert.KernelIdeal.τ).loc Cert.KernelIdeal.main_arg8) i = (x : EReal)) :=
  reals_of_pre m h c

end Cert.KernelIdeal.Finite

end
-- ==== Proof.lean ====
/-
  A message-passing interaction block on the edges of a graph, computed by three row-tiled kernels with a gather and a
  scatter-sum between them, against the same block written as whole-array operations.

  Per edge: a radial embedding of the edge gates a dense layer of its message, which is projected down; per triplet the
  projected row of the incoming edge is multiplied by an angular embedding; the products are summed into their outgoing
  edges, projected up, joined with a second dense layer of the edge's message, and passed through one residual pair, a
  dense layer added to the message, and two more residual pairs.

  Read over the extended reals both programs are that function of the inputs. Every layer acts on each row of its array
  by itself, so the kernels' blocks of rows are restrictions of whole-array functions and tile their arrays; the two
  programs then differ only in how the basis embeddings are bracketed — X · (W₁ · W₂) in the kernel, (X · W₁) · W₂ in the
  reference — which agree because the inputs are finite, hence real, and in the order of one product.
  The frames of the two kernel programs are the launch of their three regions among the host stretches; the reference's
  is its straight-line run with the result dropped. The idealization rewrote nothing.
-/
import proofs.«143475_j11940009083127_2_alg».proof.Defs
import proofs.«143475_j11940009083127_2_alg».proof.Proof.Gen.Kernel
import proofs.«143475_j11940009083127_2_alg».proof.Proof.Gen.Kernel.Skeleton
import proofs.«143475_j11940009083127_2_alg».proof.Proof.Gen.Kernel.Launch
import proofs.«143475_j11940009083127_2_alg».proof.Proof.Gen.Kernel.Points
import proofs.«143475_j11940009083127_2_alg».proof.Proof.Gen.Kernel.Frame
import proofs.«143475_j11940009083127_2_alg».proof.Proof.Gen.KernelIdeal
import proofs.«143475_j11940009083127_2_alg».proof.Proof.Gen.KernelIdeal.Skeleton
import proofs.«143475_j11940009083127_2_alg».proof.Proof.Gen.KernelIdeal.Launch
import proofs.«143475_j11940009083127_2_alg».proof.Proof.Gen.KernelIdeal.Points
import proofs.«143475_j11940009083127_2_alg».proof.Proof.Gen.KernelIdeal.Frame
import proofs.«143475_j11940009083127_2_alg».proof.Proof.Gen.ReferenceIdeal
import proofs.«143475_j11940009083127_2_alg».proof.Proof.Gen.Pre_finite_inputs
import proofs.«143475_j11940009083127_2_alg».proof.Proof.KernelRun
import proofs.«143475_j11940009083127_2_alg».proof.Proof.KernelValue
import proofs.«143475_j11940009083127_2_alg».proof.Proof.RefRun
import proofs.«143475_j11940009083127_2_alg».proof.Proof.Bridge
import proofs.«143475_j11940009083127_2_alg».proof.Proof.FiniteInputs
import Idealize.ShloMosaic.Adequacy
import Idealize.ShloMosaic.Init

set_option maxRecDepth 16384

noncomputable section

namespace Cert.Proof

open Idealize.ShloMosaic Idealize.SL.Sem

/-- The printed kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories that agree on the arguments, the idealized kernel and the idealized reference both run and end with
    the same result array: the kernel's result buffer is the network's function of its launch arrays, the reference's
    result term is that function of equal arrays, the basis inputs being real. -/
theorem algebraic : Cert.algebraic_KernelIdeal_ReferenceIdeal := by
  intro m ρ m' ρ' hpre hagree
  refine ⟨fun c => Cert.KernelIdeal.Value.out m c, ?_, ?_⟩
  · refine (θ_run Cert.KernelIdeal.defs _ _).mono (fun r h c => ?_) (Cert.KernelIdeal.RunAll.run_all m ρ)
    exact ⟨(h c _ (Cert.KernelIdeal.Gen.mem_uc Cert.KernelIdeal.main_v14 (by decide))).trans (Cert.KernelIdeal.Value.w6_v14 m ρ c),
      (h c _ (Cert.KernelIdeal.Gen.mem_uc Cert.KernelIdeal.main_arg0 (by decide))).trans (Cert.KernelIdeal.Gen.W6_main_arg0 m ρ c),
      (h c _ (Cert.KernelIdeal.Gen.mem_uc Cert.KernelIdeal.main_arg1 (by decide))).trans (Cert.KernelIdeal.Gen.W6_main_arg1 m ρ c),
      (h c _ (Cert.KernelIdeal.Gen.mem_uc Cert.KernelIdeal.main_arg2 (by decide))).trans (Cert.KernelIdeal.Gen.W6_main_arg2 m ρ c),
      (h c _ (Cert.KernelIdeal.Gen.mem_uc Cert.KernelIdeal.main_arg3 (by decide))).trans (Cert.KernelIdeal.Gen.W6_main_arg3 m ρ c),
      (h c _ (Cert.KernelIdeal.Gen.mem_uc Cert.KernelIdeal.main_arg4 (by decide))).trans (Cert.KernelIdeal.Gen.W6_main_arg4 m ρ c),
      (h c _ (Cert.KernelIdeal.Gen.mem_uc Cert.KernelIdeal.main_arg5 (by decide))).trans (Cert.KernelIdeal.Gen.W6_main_arg5 m ρ c),
      (h c _ (Cert.KernelIdeal.Gen.mem_uc Cert.KernelIdeal.main_arg6 (by decide))).trans (Cert.KernelIdeal.Gen.W6_main_arg6 m ρ c),
      (h c _ (Cert.KernelIdeal.Gen.mem_uc Cert.KernelIdeal.main_arg7 (by decide))).trans (Cert.KernelIdeal.Gen.W6_main_arg7 m ρ c),
      (h c _ (Cert.KernelIdeal.Gen.mem_uc Cert.KernelIdeal.main_arg8 (by decide))).trans (Cert.KernelIdeal.Gen.W6_main_arg8 m ρ c),
      (h c _ (Cert.KernelIdeal.Gen.mem_uc Cert.KernelIdeal.main_arg9 (by decide))).trans (Cert.KernelIdeal.Gen.W6_main_arg9 m ρ c),
      (h c _ (Cert.KernelIdeal.Gen.mem_uc Cert.KernelIdeal.main_arg10 (by decide))).trans (Cert.KernelIdeal.Gen.W6_main_arg10 m ρ c),
      (h c _ (Cert.KernelIdeal.Gen.mem_uc Cert.KernelIdeal.main_arg11 (by decide))).trans (Cert.KernelIdeal.Gen.W6_main_arg11 m ρ c),
      (h c _ (Cert.KernelIdeal.Gen.mem_uc Cert.KernelIdeal.main_arg12 (by decide))).trans (Cert.KernelIdeal.Gen.W6_main_arg12 m ρ c),
      (h c _ (Cert.KernelIdeal.Gen.mem_uc Cert.KernelIdeal.main_arg13 (by decide))).trans (Cert.KernelIdeal.Gen.W6_main_arg13 m ρ c),
      (h c _ (Cert.KernelIdeal.Gen.mem_uc Cert.KernelIdeal.main_arg14 (by decide))).trans (Cert.KernelIdeal.Gen.W6_main_arg14 m ρ c),
      (h c _ (Cert.KernelIdeal.Gen.mem_uc Cert.KernelIdeal.main_arg15 (by decide))).trans (Cert.KernelIdeal.Gen.W6_main_arg15 m ρ c),
      (h c _ (Cert.KernelIdeal.Gen.mem_uc Cert.KernelIdeal.main_arg16 (by decide))).trans (Cert.KernelIdeal.Gen.W6_main_arg16 m ρ c),
      (h c _ (Cert.KernelIdeal.Gen.mem_uc Cert.KernelIdeal.main_arg17 (by decide))).trans (Cert.KernelIdeal.Gen.W6_main_arg17 m ρ c),
      (h c _ (Cert.KernelIdeal.Gen.mem_uc Cert.KernelIdeal.main_arg18 (by decide))).trans (Cert.KernelIdeal.Gen.W6_main_arg18 m ρ c),
      (h c _ (Cert.KernelIdeal.Gen.mem_uc Cert.KernelIdeal.main_arg19 (by decide))).trans (Cert.KernelIdeal.Gen.W6_main_arg19 m ρ c),
      (h c _ (Cert.KernelIdeal.Gen.mem_uc Cert.KernelIdeal.main_arg20 (by decide))).trans (Cert.KernelIdeal.Gen.W6_main_arg20 m ρ c),
      (h c _ (Cert.KernelIdeal.Gen.mem_uc Cert.KernelIdeal.main_arg21 (by decide))).trans (Cert.KernelIdeal.Gen.W6_main_arg21 m ρ c),
      (h c _ (Cert.KernelIdeal.Gen.mem_uc Cert.KernelIdeal.main_arg22 (by decide))).trans (Cert.KernelIdeal.Gen.W6_main_arg22 m ρ c),
      (h c _ (Cert.KernelIdeal.Gen.mem_uc Cert.KernelIdeal.main_arg23 (by decide))).trans (Cert.KernelIdeal.Gen.W6_main_arg23 m ρ c),
      (h c _ (Cert.KernelIdeal.Gen.mem_uc Cert.KernelIdeal.main_arg24 (by decide))).trans (Cert.KernelIdeal.Gen.W6_main_arg24 m ρ c)⟩
  · refine (θ_run Cert.ReferenceIdeal.defs _ _).mono (fun r h c => ⟨?_, (h c).2⟩)
      (Cert.ReferenceIdeal.RefRun.run (F := Ideal) m' ρ')
    obtain ⟨h1, h5, h6, h2, h7, h8⟩ := Cert.KernelIdeal.Finite.reals_of_pre m hpre c
    obtain ⟨g0, g1, g2, g3, g4, g5, g6, g7, g8, g9, g10, g11, g12, g13, g14, g15, g16, g17, g18, g19, g20, g21, g22, g23, g24⟩ := hagree c
    rw [(h c).1, g0, g1, g2, g3, g4, g5, g6, g7, g8, g9, g10, g11, g12, g13, g14, g15, g16, g17, g18, g19, g20, g21, g22, g23, g24]
    exact (Cert.Bridge.out_eq m c h1 h5 h6 h2 h7 h8).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
